-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S256x64 : Shape := ⟨2, ![256, 64]⟩
abbrev S64 : Shape := ⟨1, ![64]⟩
abbrev S64x32 : Shape := ⟨2, ![64, 32]⟩
abbrev S32 : Shape := ⟨1, ![32]⟩
abbrev S8192x32 : Shape := ⟨2, ![8192, 32]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S8192x32 : S_.BroadcastsInDim S8192x32 (![] : Fin 0 → Fin S8192x32.rank)
  reducesTo_S8192x32_S_d0_1 : S8192x32.ReducesTo [0, 1] S_

variable [Facts]

def fn_part2 {F : FTy → Type} [FloatOps F] (main_arg8 : FVec F S8192x32 .f32) (main_v33 : IVec S_ 1) : IVec S_ 1 :=
  let main_v34 : FVec F S8192x32 .f32 := Host.absf main_arg8
  let main_cst_12 : FVec F S_ .f32 := constant S_ .f32 0x7F800000#32
  let main_v35 : FVec F S8192x32 .f32 := broadcastInDim S8192x32 ![] bcast_S_S8192x32 main_cst_12
  let main_v36 : IVec S8192x32 1 := cmpf .olt main_v34 main_v35
  let main_c_13 : IVec S_ 1 := constantI S_ 1 1#1
  let main_v37 : IVec S_ 1 := (fun x v => Host.reduce IntOp.andi x v reducesTo_S8192x32_S_d0_1 h_S_) main_v36 main_c_13
  let main_v38 : IVec S_ 1 := andi main_v33 main_v37
  main_v38

def fn_part1 {F : FTy → Type} [FloatOps F] (main_arg5 : FVec F S32 .f32) (main_arg6 : FVec F S64x32 .f32) (main_arg7 : FVec F S32 .f32) (main_arg8 : FVec F S8192x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_v33

def fn {F : FTy → Type} [FloatOps F] (main_arg0 : FVec F S8192x256 .f32) (main_arg1 : IVec S2x262144 32) (main_arg2 : FVec F S256x64 .f32) (main_arg3 : FVec F S64 .f32) (main_arg4 : FVec F S64x32 .f32) (main_arg5 : FVec F S32 .f32) (main_arg6 : FVec F S64x32 .f32) (main_arg7 : FVec F S32 .f32) (main_arg8 : FVec F S8192x32 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_v13 main_v16
-- ==== Kernel.lean ====
abbrev S8192x256 : Shape := ⟨2, ![8192, 256]⟩
abbrev S2x262144 : Shape := ⟨2, ![2, 262144]⟩
abbrev S256x64 : Shape := ⟨2, ![256, 64]⟩
abbrev S64 : Shape := ⟨1, ![64]⟩
abbrev S64x32 : Shape := ⟨2, ![64, 32]⟩
abbrev S32 : Shape := ⟨1, ![32]⟩
abbrev S8192x32 : Shape := ⟨2, ![8192, 32]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S8192x64 : Shape := ⟨2, ![8192, 64]⟩
abbrev S1024x256 : Shape := ⟨2, ![1024, 256]⟩
abbrev S1024x64 : Shape := ⟨2, ![1024, 64]⟩
abbrev S270336x64 : Shape := ⟨2, ![270336, 64]⟩
abbrev S1x64 : Shape := ⟨2, ![1, 64]⟩
abbrev S1024x32 : Shape := ⟨2, ![1024, 32]⟩
abbrev S270336x32 : Shape := ⟨2, ![270336, 32]⟩
abbrev S1x32 : Shape := ⟨2, ![1, 32]⟩
abbrev S8192x8192 : Shape := ⟨2, ![8192, 8192]⟩
abbrev S1024x1024 : Shape := ⟨2, ![1024, 1024]⟩
abbrev S32x1024 : Shape := ⟨2, ![32, 1024]⟩

abbrev nBuf : Space → Nat
  | .hbm => 116
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S8192x32, .f32⟩
  | .hbm, ⟨9, _⟩ => ⟨S8192, .i32⟩
  | .hbm, ⟨10, _⟩ => ⟨S1x262144, .i32⟩
  | .hbm, ⟨11, _⟩ => ⟨S262144, .i32⟩
  | .hbm, ⟨12, _⟩ => ⟨S270336, .i32⟩
  | .hbm, ⟨13, _⟩ => ⟨S1x262144, .i32⟩
  | .hbm, ⟨14, _⟩ => ⟨S262144, .i32⟩
  | .hbm, ⟨15, _⟩ => ⟨S270336, .i32⟩
  | .hbm, ⟨16, _⟩ => ⟨S_, .f32⟩
  | .hbm, ⟨17, _⟩ => ⟨S270336, .f32⟩
  | .hbm, ⟨18, _⟩ => ⟨S_, .f32⟩
  | .hbm, ⟨19, _⟩ => ⟨S8192, .f32⟩
  | .hbm, ⟨20, _⟩ => ⟨S270336x1, .i32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .i1⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .i32⟩
  | .hbm, ⟨31, _⟩ => ⟨S270336, .i32⟩
  | .hbm, ⟨32, _⟩ => ⟨S270336, .i1⟩
  | .hbm, ⟨33, _⟩ => ⟨S_, .i32⟩
  | .hbm, ⟨34, _⟩ => ⟨S270336, .i32⟩
  | .hbm, ⟨35, _⟩ => ⟨S270336, .i32⟩
  | .hbm, ⟨36, _⟩ => ⟨S270336, .i32⟩
  | .hbm, ⟨37, _⟩ => ⟨S270336x1, .i32⟩
  | .hbm, ⟨38, _⟩ => ⟨S270336, .f32⟩
  | .hbm, ⟨39, _⟩ => ⟨S_, .i32⟩
  | .hbm, ⟨40, _⟩ => ⟨S270336, .i32⟩
  | .hbm, ⟨41, _⟩ => ⟨S270336, .i1⟩
  | .hbm, ⟨42, _⟩ => ⟨S_, .i32⟩
  | .hbm, ⟨43, _⟩ => ⟨S270336, .i32⟩
  | .hbm, ⟨44, _⟩ => ⟨S270336, .i32⟩
  | .hbm, ⟨45, _⟩ => ⟨S270336, .i32⟩
  | .hbm, ⟨46, _⟩ => ⟨S270336x1, .i32⟩
  | .hbm, ⟨47, _⟩ => ⟨S270336, .f32⟩
  | .hbm, ⟨48, _⟩ => ⟨S270336, .f32⟩
  | .hbm, ⟨49, _⟩ => ⟨S8192x64, .f32⟩
  | .hbm, ⟨50, _⟩ => ⟨S_, .i32⟩
  | .hbm, ⟨51, _⟩ => ⟨S270336, .i32⟩
  | .hbm, ⟨52, _⟩ => ⟨S270336, .i1⟩
  | .hbm, ⟨53, _⟩ => ⟨S_, .i32⟩
  | .hbm, ⟨54, _⟩ => ⟨S270336, .i32⟩
  | .hbm, ⟨55, _⟩ => ⟨S270336, .i32⟩
  | .hbm, ⟨56, _⟩ => ⟨S270336, .i32⟩
  | .hbm, ⟨57, _⟩ => ⟨S270336x1, .i32⟩
  | .hbm, ⟨58, _⟩ => ⟨S270336x64, .f32⟩
  | .hbm, ⟨59, _⟩ => ⟨S270336x1, .f32⟩
  | .hbm, ⟨60, _⟩ => ⟨S270336x64, .f32⟩
  | .hbm, ⟨61, _⟩ => ⟨S270336x64, .f32⟩
  | .hbm, ⟨62, _⟩ => ⟨S_, .f32⟩
  | .hbm, ⟨63, _⟩ => ⟨S8192x64, .f32⟩
  | .hbm, ⟨64, _⟩ => ⟨S270336x1, .i32⟩
  | .hbm, ⟨65, _⟩ => ⟨S8192x64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S_, .f32⟩
  | .hbm, ⟨70, _⟩ => ⟨S8192x64, .f32⟩
  | .hbm, ⟨71, _⟩ => ⟨S8192x64, .f32⟩
  | .hbm, ⟨72, _⟩ => ⟨S8192x32, .f32⟩
  | .hbm, ⟨73, _⟩ => ⟨S_, .i32⟩
  | .hbm, ⟨74, _⟩ => ⟨S270336, .i32⟩
  | .hbm, ⟨75, _⟩ => ⟨S270336, .i1⟩
  | .hbm, ⟨76, _⟩ => ⟨S_, .i32⟩
  | .hbm, ⟨77, _⟩ => ⟨S270336, .i32⟩
  | .hbm, ⟨78, _⟩ => ⟨S270336, .i32⟩
  | .hbm, ⟨79, _⟩ => ⟨S270336, .i32⟩
  | .hbm, ⟨80, _⟩ => ⟨S270336x1, .i32⟩
  | .hbm, ⟨81, _⟩ => ⟨S270336x32, .f32⟩
  | .hbm, ⟨82, _⟩ => ⟨S270336x1, .f32⟩
  | .hbm, ⟨83, _⟩ => ⟨S270336x32, .f32⟩
  | .hbm, ⟨84, _⟩ => ⟨S270336x32, .f32⟩
  | .hbm, ⟨85, _⟩ => ⟨S_, .f32⟩
  | .hbm, ⟨86, _⟩ => ⟨S8192x32, .f32⟩
  | .hbm, ⟨87, _⟩ => ⟨S270336x1, .i32⟩
  | .hbm, ⟨88, _⟩ => ⟨S8192x32, .f32⟩
  | .hbm, ⟨89, _⟩ => ⟨S1x32, .f32⟩
  | .hbm, ⟨90, _⟩ => ⟨S8192x32, .f32⟩
  | .hbm, ⟨91, _⟩ => ⟨S8192x32, .f32⟩
  | .hbm, ⟨92, _⟩ => ⟨S8192x32, .f32⟩
  | .hbm, ⟨93, _⟩ => ⟨S_, .i32⟩
  | .hbm, ⟨94, _⟩ => ⟨S270336, .i32⟩
  | .hbm, ⟨95, _⟩ => ⟨S270336, .i1⟩
  | .hbm, ⟨96, _⟩ => ⟨S_, .i32⟩
  | .hbm, ⟨97, _⟩ => ⟨S270336, .i32⟩
  | .hbm, ⟨98, _⟩ => ⟨S270336, .i32⟩
  | .hbm, ⟨99, _⟩ => ⟨S270336, .i32⟩
  | .hbm, ⟨100, _⟩ => ⟨S270336x1, .i32⟩
  | .hbm, ⟨101, _⟩ => ⟨S270336x32, .f32⟩
  | .hbm, ⟨102, _⟩ => ⟨S270336x1, .f32⟩
  | .hbm, ⟨103, _⟩ => ⟨S270336x32, .f32⟩
  | .hbm, ⟨104, _⟩ => ⟨S270336x32, .f32⟩
  | .hbm, ⟨105, _⟩ => ⟨S_, .f32⟩
  | .hbm, ⟨106, _⟩ => ⟨S8192x32, .f32⟩
  | .hbm, ⟨107, _⟩ => ⟨S270336x1, .i32⟩
  | .hbm, ⟨108, _⟩ => ⟨S8192x32, .f32⟩
  | .hbm, ⟨109, _⟩ => ⟨S1x32, .f32⟩
  | .hbm, ⟨110, _⟩ => ⟨S8192x32, .f32⟩
  | .hbm, ⟨111, _⟩ => ⟨S8192x32, .f32⟩
  | .hbm, ⟨112, _⟩ => ⟨S8192x32, .f32⟩
  | .hbm, ⟨113, _⟩ => ⟨S8192x32, .f32⟩
  | .hbm, ⟨114, _⟩ => ⟨S8192x32, .f32⟩
  | .hbm, ⟨115, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S64x32, .f32⟩
  | .local _ .vmem, ⟨8, _⟩ => ⟨S1024x32, .f32⟩
  | .local _ .vmem, ⟨9, _⟩ => ⟨S1024x32, .f32⟩
  | .local _ .vmem, ⟨10, _⟩ => ⟨S1024x64, .f32⟩
  | .local _ .vmem, ⟨11, _⟩ => ⟨S1024x64, .f32⟩
  | .local _ .vmem, ⟨12, _⟩ => ⟨S64x32, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | .local _ .vmem, ⟨16, _⟩ => ⟨S1024x32, .f32⟩
  | .local _ .vmem, ⟨17, _⟩ => ⟨S1024x32, .f32⟩
  | .local _ .vmem, ⟨18, _⟩ => ⟨S1024x32, .f32⟩
  | .local _ .vmem, ⟨19, _⟩ => ⟨S1024x1024, .f32⟩
  | .local _ .vmem, ⟨20, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1024x64_S1024x64_0_0 : ∀ a, (![0, 0] : Fin 2 → Nat) a + S1024x64.size a ≤ S1024x64.size a
  h_S1024x64 : 0 < S1024x64.numel
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  shapeCasts_S1024x64_S1024x64 : S1024x64.ShapeCasts S1024x64
  inb_S64x32_S64x32_0_0 : ∀ a, (![0, 0] : Fin 2 → Nat) a + S64x32.size a ≤ S64x32.size a
  h_S64x32 : 0 < S64x32.numel
  inb_S1024x32_S1024x32_0_0 : ∀ a, (![0, 0] : Fin 2 → Nat) a + S1024x32.size a ≤ S1024x32.size a
  h_S1024x32 : 0 < S1024x32.numel
  bcast_S270336x1_S270336x32_0_1 : S270336x1.BroadcastsInDim S270336x32 (![0, 1] : Fin 2 → Fin S270336x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  shapeCasts_S1024x32_S1024x32 : S1024x32.ShapeCasts S1024x32
  transposes_S1024x32_p1_0_S32x1024 : S1024x32.Transposes [1, 0] S32x1024
  inb_S1024x1024_S1024x1024_0_0 : ∀ a, (![0, 0] : Fin 2 → Nat) a + S1024x1024.size a ≤ S1024x1024.size a
  h_S1024x1024 : 0 < S1024x1024.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S1024x256_S256x64_S1024x64_1_0_0_1_n_n_wf : DotDims.WF S1024x256 S256x64 S1024x64 [1] [0] [0] [1] [] []
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S1024x64_S64x32_S1024x32_1_0_0_1_n_n_wf : DotDims.WF S1024x64 S64x32 S1024x32 [1] [0] [0] [1] [] []
  gather_S8192x32_S270336x1_S270336x32_1_0_n_n_0_1_132_wf : GatherDims.WF S8192x32 S270336x1 S270336x32 [1] [0] [] [0] [] 1 ![1, 32]
  scatter_S8192x32_S270336x1_S270336x32_1_0_0_1_wf : ScatterDims.WF S8192x32 S270336x1 S270336x32 [1] [0] [0] 1
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S8192x32.size a
  hwx2_2 : ∀ i : grid2.Coords, EltTy.bits .f32 = 32 ∨ (Rect.block (s := S8192x32) S1024x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S8192x32.size a
  hwx3_0 : ∀ i : grid3.Coords, EltTy.bits .f32 = 32 ∨ (Rect.block (s := S8192x32) S1024x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S8192x32.size a
  hwx3_1 : ∀ i : grid3.Coords, EltTy.bits .f32 = 32 ∨ (Rect.block (s := S8192x32) S1024x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x8192.size a
  hwx3_2 : ∀ i : grid3.Coords, EltTy.bits .f32 = 32 ∨ (Rect.block (s := S8192x8192) S1024x1024.size (cc3_transform_2 i) (hinb3_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def gather_S8192x32_S270336x1_S270336x32_1_0_n_n_0_1_132 : GatherDims S8192x32 S270336x1 S270336x32 where
  offsetDims := [1]
  collapsedSliceDims := [0]
  operandBatchingDims := []
  startIndicesBatchingDims := []
  startIndexMap := [0]
  indexVectorDim := 1
  sliceSizes := ![1, 32]
  wf := gather_S8192x32_S270336x1_S270336x32_1_0_n_n_0_1_132_wf
def scatter_S8192x32_S270336x1_S270336x32_1_0_0_1 : ScatterDims S8192x32 S270336x1 S270336x32 where
  updateWindowDims := [1]
  insertedWindowDims := [0]
  scatterDimsToOperandDims := [0]
  indexVectorDim := 1
  wf := scatter_S8192x32_S270336x1_S270336x32_1_0_0_1_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1024x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S1024x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x256 : Shape := ⟨2, ![8192, 256]⟩
abbrev S2x262144 : Shape := ⟨2, ![2, 262144]⟩
abbrev S256x64 : Shape := ⟨2, ![256, 64]⟩
abbrev S64 : Shape := ⟨1, ![64]⟩
abbrev S64x32 : Shape := ⟨2, ![64, 32]⟩
abbrev S32 : Shape := ⟨1, ![32]⟩
abbrev S8192x32 : Shape := ⟨2, ![8192, 32]⟩
abbrev S8192x64 : Shape := ⟨2, ![8192, 64]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x64 : Shape := ⟨2, ![270336, 64]⟩
abbrev S1x64 : Shape := ⟨2, ![1, 64]⟩
abbrev S270336x32 : Shape := ⟨2, ![270336, 32]⟩
abbrev S1x32 : Shape := ⟨2, ![1, 32]⟩
abbrev S32x8192 : Shape := ⟨2, ![32, 8192]⟩
abbrev S8192x8192 : Shape := ⟨2, ![8192, 8192]⟩

abbrev nBuf : Space → Nat
  | .hbm => 205
  | .vmem => 0
  | .smem => 0
  | _ => 0

abbrev hbmTy0_0 (i : Nat) : BufTy := match i % 128 with
  | 0 => ⟨S8192x256, .f32⟩
  | 1 => ⟨S2x262144, .i32⟩
  | 2 => ⟨S256x64, .f32⟩
  | 3 => ⟨S64, .f32⟩
  | 4 => ⟨S64x32, .f32⟩
  | 5 => ⟨S32, .f32⟩
  | 6 => ⟨S64x32, .f32⟩
  | 7 => ⟨S32, .f32⟩
  | 8 => ⟨S8192x32, .f32⟩
  | 9 => ⟨S8192x64, .f32⟩
  | 10 => ⟨S8192, .i32⟩
  | 11 => ⟨S1x262144, .i32⟩
  | 12 => ⟨S262144, .i32⟩
  | 13 => ⟨S270336, .i32⟩
  | 14 => ⟨S1x262144, .i32⟩
  | 15 => ⟨S262144, .i32⟩
  | 16 => ⟨S270336, .i32⟩
  | 17 => ⟨S_, .f32⟩
  | 18 => ⟨S270336, .f32⟩
  | 19 => ⟨S_, .f32⟩
  | 20 => ⟨S8192, .f32⟩
  | 21 => ⟨S270336x1, .i32⟩
  | 22 => ⟨S8192, .f32⟩
  | 23 => ⟨S_, .f32⟩
  | 24 => ⟨S8192, .f32⟩
  | 25 => ⟨S8192, .i1⟩
  | 26 => ⟨S8192, .f32⟩
  | 27 => ⟨S_, .f32⟩
  | 28 => ⟨S_, .f32⟩
  | 29 => ⟨S8192, .f32⟩
  | 30 => ⟨S8192, .f32⟩
  | 31 => ⟨S_, .i32⟩
  | 32 => ⟨S270336, .i32⟩
  | 33 => ⟨S270336, .i1⟩
  | 34 => ⟨S_, .i32⟩
  | 35 => ⟨S270336, .i32⟩
  | 36 => ⟨S270336, .i32⟩
  | 37 => ⟨S270336, .i32⟩
  | 38 => ⟨S270336x1, .i32⟩
  | 39 => ⟨S270336, .f32⟩
  | 40 => ⟨S_, .i32⟩
  | 41 => ⟨S270336, .i32⟩
  | 42 => ⟨S270336, .i1⟩
  | 43 => ⟨S_, .i32⟩
  | 44 => ⟨S270336, .i32⟩
  | 45 => ⟨S270336, .i32⟩
  | 46 => ⟨S270336, .i32⟩
  | 47 => ⟨S270336x1, .i32⟩
  | 48 => ⟨S270336, .f32⟩
  | 49 => ⟨S270336, .f32⟩
  | 50 => ⟨S_, .i32⟩
  | 51 => ⟨S270336, .i32⟩
  | 52 => ⟨S270336, .i1⟩
  | 53 => ⟨S_, .i32⟩
  | 54 => ⟨S270336, .i32⟩
  | 55 => ⟨S270336, .i32⟩
  | 56 => ⟨S270336, .i32⟩
  | 57 => ⟨S270336x1, .i32⟩
  | 58 => ⟨S270336x64, .f32⟩
  | 59 => ⟨S270336x1, .f32⟩
  | 60 => ⟨S270336x64, .f32⟩
  | 61 => ⟨S270336x64, .f32⟩
  | 62 => ⟨S_, .f32⟩
  | 63 => ⟨S8192x64, .f32⟩
  | 64 => ⟨S270336x1, .i32⟩
  | 65 => ⟨S8192x64, .f32⟩
  | 66 => ⟨S1x64, .f32⟩
  | 67 => ⟨S8192x64, .f32⟩
  | 68 => ⟨S8192x64, .f32⟩
  | 69 => ⟨S_, .f32⟩
  | 70 => ⟨S8192x64, .f32⟩
  | 71 => ⟨S8192x64, .f32⟩
  | 72 => ⟨S8192x32, .f32⟩
  | 73 => ⟨S8192, .i32⟩
  | 74 => ⟨S1x262144, .i32⟩
  | 75 => ⟨S262144, .i32⟩
  | 76 => ⟨S270336, .i32⟩
  | 77 => ⟨S1x262144, .i32⟩
  | 78 => ⟨S262144, .i32⟩
  | 79 => ⟨S270336, .i32⟩
  | 80 => ⟨S_, .f32⟩
  | 81 => ⟨S270336, .f32⟩
  | 82 => ⟨S_, .f32⟩
  | 83 => ⟨S8192, .f32⟩
  | 84 => ⟨S270336x1, .i32⟩
  | 85 => ⟨S8192, .f32⟩
  | 86 => ⟨S_, .f32⟩
  | 87 => ⟨S8192, .f32⟩
  | 88 => ⟨S8192, .i1⟩
  | 89 => ⟨S8192, .f32⟩
  | 90 => ⟨S_, .f32⟩
  | 91 => ⟨S_, .f32⟩
  | 92 => ⟨S8192, .f32⟩
  | 93 => ⟨S8192, .f32⟩
  | 94 => ⟨S_, .i32⟩
  | 95 => ⟨S270336, .i32⟩
  | 96 => ⟨S270336, .i1⟩
  | 97 => ⟨S_, .i32⟩
  | 98 => ⟨S270336, .i32⟩
  | 99 => ⟨S270336, .i32⟩
  | 100 => ⟨S270336, .i32⟩
  | 101 => ⟨S270336x1, .i32⟩
  | 102 => ⟨S270336, .f32⟩
  | 103 => ⟨S_, .i32⟩
  | 104 => ⟨S270336, .i32⟩
  | 105 => ⟨S270336, .i1⟩
  | 106 => ⟨S_, .i32⟩
  | 107 => ⟨S270336, .i32⟩
  | 108 => ⟨S270336, .i32⟩
  | 109 => ⟨S270336, .i32⟩
  | 110 => ⟨S270336x1, .i32⟩
  | 111 => ⟨S270336, .f32⟩
  | 112 => ⟨S270336, .f32⟩
  | 113 => ⟨S_, .i32⟩
  | 114 => ⟨S270336, .i32⟩
  | 115 => ⟨S270336, .i1⟩
  | 116 => ⟨S_, .i32⟩
  | 117 => ⟨S270336, .i32⟩
  | 118 => ⟨S270336, .i32⟩
  | 119 => ⟨S270336, .i32⟩
  | 120 => ⟨S270336x1, .i32⟩
  | 121 => ⟨S270336x32, .f32⟩
  | 122 => ⟨S270336x1, .f32⟩
  | 123 => ⟨S270336x32, .f32⟩
  | 124 => ⟨S270336x32, .f32⟩
  | 125 => ⟨S_, .f32⟩
  | 126 => ⟨S8192x32, .f32⟩
  | 127 => ⟨S270336x1, .i32⟩
  | _ => ⟨S8192x256, .f32⟩

abbrev hbmTy0_1 (i : Nat) : BufTy := match i % 128 with
  | 0 => ⟨S8192x32, .f32⟩
  | 1 => ⟨S1x32, .f32⟩
  | 2 => ⟨S8192x32, .f32⟩
  | 3 => ⟨S8192x32, .f32⟩
  | 4 => ⟨S8192x32, .f32⟩
  | 5 => ⟨S8192, .i32⟩
  | 6 => ⟨S1x262144, .i32⟩
  | 7 => ⟨S262144, .i32⟩
  | 8 => ⟨S270336, .i32⟩
  | 9 => ⟨S1x262144, .i32⟩
  | 10 => ⟨S262144, .i32⟩
  | 11 => ⟨S270336, .i32⟩
  | 12 => ⟨S_, .f32⟩
  | 13 => ⟨S270336, .f32⟩
  | 14 => ⟨S_, .f32⟩
  | 15 => ⟨S8192, .f32⟩
  | 16 => ⟨S270336x1, .i32⟩
  | 17 => ⟨S8192, .f32⟩
  | 18 => ⟨S_, .f32⟩
  | 19 => ⟨S8192, .f32⟩
  | 20 => ⟨S8192, .i1⟩
  | 21 => ⟨S8192, .f32⟩
  | 22 => ⟨S_, .f32⟩
  | 23 => ⟨S_, .f32⟩
  | 24 => ⟨S8192, .f32⟩
  | 25 => ⟨S8192, .f32⟩
  | 26 => ⟨S_, .i32⟩
  | 27 => ⟨S270336, .i32⟩
  | 28 => ⟨S270336, .i1⟩
  | 29 => ⟨S_, .i32⟩
  | 30 => ⟨S270336, .i32⟩
  | 31 => ⟨S270336, .i32⟩
  | 32 => ⟨S270336, .i32⟩
  | 33 => ⟨S270336x1, .i32⟩
  | 34 => ⟨S270336, .f32⟩
  | 35 => ⟨S_, .i32⟩
  | 36 => ⟨S270336, .i32⟩
  | 37 => ⟨S270336, .i1⟩
  | 38 => ⟨S_, .i32⟩
  | 39 => ⟨S270336, .i32⟩
  | 40 => ⟨S270336, .i32⟩
  | 41 => ⟨S270336, .i32⟩
  | 42 => ⟨S270336x1, .i32⟩
  | 43 => ⟨S270336, .f32⟩
  | 44 => ⟨S270336, .f32⟩
  | 45 => ⟨S_, .i32⟩
  | 46 => ⟨S270336, .i32⟩
  | 47 => ⟨S270336, .i1⟩
  | 48 => ⟨S_, .i32⟩
  | 49 => ⟨S270336, .i32⟩
  | 50 => ⟨S270336, .i32⟩
  | 51 => ⟨S270336, .i32⟩
  | 52 => ⟨S270336x1, .i32⟩
  | 53 => ⟨S270336x32, .f32⟩
  | 54 => ⟨S270336x1, .f32⟩
  | 55 => ⟨S270336x32, .f32⟩
  | 56 => ⟨S270336x32, .f32⟩
  | 57 => ⟨S_, .f32⟩
  | 58 => ⟨S8192x32, .f32⟩
  | 59 => ⟨S270336x1, .i32⟩
  | 60 => ⟨S8192x32, .f32⟩
  | 61 => ⟨S1x32, .f32⟩
  | 62 => ⟨S8192x32, .f32⟩
  | 63 => ⟨S8192x32, .f32⟩
  | 64 => ⟨S8192x32, .f32⟩
  | 65 => ⟨S8192x32, .f32⟩
  | 66 => ⟨S8192x32, .f32⟩
  | 67 => ⟨S32x8192, .f32⟩
  | 68 => ⟨S8192x8192, .f32⟩
  | 69 => ⟨S8192x8192, .f32⟩
  | 70 => ⟨S8192x8192, .f32⟩
  | 71 => ⟨S_, .f32⟩
  | 72 => ⟨S8192x8192, .f32⟩
  | 73 => ⟨S8192x8192, .f32⟩
  | 74 => ⟨S_, .f32⟩
  | 75 => ⟨S8192x8192, .f32⟩
  | 76 => ⟨S8192x8192, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_20 : Ref sig .tc := ⟨.hbm, 140, rfl⟩
abbrev main_v103 : Ref sig .tc := ⟨.hbm, 141, rfl⟩
abbrev main_cst_21 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_22 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_23 : Ref sig .tc := ⟨.hbm, 150, rfl⟩
abbrev main_call3_v0 : Ref sig .tc := ⟨.hbm, 151, rfl⟩
abbrev main_call3_v1 : Ref sig .tc := ⟨.hbm, 152, rfl⟩
abbrev main_v110 : Ref sig .tc := ⟨.hbm, 153, rfl⟩
abbrev main_c_24 : Ref sig .tc := ⟨.hbm, 154, rfl⟩
abbrev main_v111 : Ref sig .tc := ⟨.hbm, 155, rfl⟩
abbrev main_v112 : Ref sig .tc := ⟨.hbm, 156, rfl⟩
abbrev main_c_25 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_c_26 : Ref sig .tc := ⟨.hbm, 163, rfl⟩
abbrev main_v118 : Ref sig .tc := ⟨.hbm, 164, rfl⟩
abbrev main_v119 : Ref sig .tc := ⟨.hbm, 165, rfl⟩
abbrev main_c_27 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_c_28 : Ref sig .tc := ⟨.hbm, 173, rfl⟩
abbrev main_v126 : Ref sig .tc := ⟨.hbm, 174, rfl⟩
abbrev main_v127 : Ref sig .tc := ⟨.hbm, 175, rfl⟩
abbrev main_c_29 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_30 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_31 : Ref sig .tc := ⟨.hbm, 199, rfl⟩
abbrev main_v149 : Ref sig .tc := ⟨.hbm, 200, rfl⟩
abbrev main_v150 : Ref sig .tc := ⟨.hbm, 201, rfl⟩
abbrev main_cst_32 : Ref sig .tc := ⟨.hbm, 202, rfl⟩
abbrev main_v151 : Ref sig .tc := ⟨.hbm, 203, rfl⟩
abbrev main_v152 : Ref sig .tc := ⟨.hbm, 204, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S270336x1_S270336x32_0_1 : S270336x1.BroadcastsInDim S270336x32 (![0, 1] : Fin 2 → Fin S270336x32.rank)
  bcast_S_S8192x32 : S_.BroadcastsInDim S8192x32 (![] : Fin 0 → Fin S8192x32.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S8192x32_S32x8192_1_0 : S8192x32.Transposes [1, 0] S32x8192
  bcast_S_S8192x8192 : S_.BroadcastsInDim S8192x8192 (![] : Fin 0 → Fin S8192x8192.rank)
  dot_S8192x256_S256x64_S8192x64_1_0_0_1_n_n_wf : DotDims.WF S8192x256 S256x64 S8192x64 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x64_S64x32_S8192x32_1_0_0_1_n_n_wf : DotDims.WF S8192x64 S64x32 S8192x32 [1] [0] [0] [1] [] []
  gather_S8192x32_S270336x1_S270336x32_1_0_n_n_0_1_132_wf : GatherDims.WF S8192x32 S270336x1 S270336x32 [1] [0] [] [0] [] 1 ![1, 32]
  scatter_S8192x32_S270336x1_S270336x32_1_0_0_1_wf : ScatterDims.WF S8192x32 S270336x1 S270336x32 [1] [0] [0] 1
  dot_S8192x32_S32x8192_S8192x8192_1_0_0_1_n_n_wf : DotDims.WF S8192x32 S32x8192 S8192x8192 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def gather_S8192x32_S270336x1_S270336x32_1_0_n_n_0_1_132 : GatherDims S8192x32 S270336x1 S270336x32 where
  offsetDims := [1]
  collapsedSliceDims := [0]
  operandBatchingDims := []
  startIndicesBatchingDims := []
  startIndexMap := [0]
  indexVectorDim := 1
  sliceSizes := ![1, 32]
  wf := gather_S8192x32_S270336x1_S270336x32_1_0_n_n_0_1_132_wf
def scatter_S8192x32_S270336x1_S270336x32_1_0_0_1 : ScatterDims S8192x32 S270336x1 S270336x32 where
  updateWindowDims := [1]
  insertedWindowDims := [0]
  scatterDimsToOperandDims := [0]
  indexVectorDim := 1
  wf := scatter_S8192x32_S270336x1_S270336x32_1_0_0_1_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.K.Region0.lean ====
/-
  Region 0 of the kernel program: one dense product, out = x · w, computed tile by tile. The grid has 8 points;
  point t sees rows 1024·t … 1024·t + 1023 of x (window 0, fetched at every point), the whole weight w (window 1,
  fetched once, at the first point, and left in place) and writes rows 1024·t … 1024·t + 1023 of the output (window 2,
  written back at every point). This module states, at the contents `V` the region is entered with, what the body leaves
  in the output's staging buffer — the product of the point's row tile with the weight, the body's one store — and
  proves the body's Hoare triple and the pipeline's body obligation from it. Everything is generic in the float
  instance: nothing here computes.
-/
import proofs.«115443_j80522046866107_1_alg».proof.Proof.Gen.Kernel.Launch
import proofs.«115443_j80522046866107_1_alg».proof.Proof.Gen.Kernel.Skeleton
import proofs.«115443_j80522046866107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of window `w`'s array that point `t` sees: the block the window's index map assigns to the point,
    read off the array's contents at the region's entry. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of x sits in its staging buffer at every point: the window is fetched at every point, and the body
    only reads it. -/
theorem rows0_staged {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The weight sits in its staging buffer at every point: it is fetched at the first point, its block is the whole
    array at every point (the index does not move), and the body only reads it. -/
theorem weight0_staged {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- The rectangles the body loads through: the whole row tile and the whole weight. -/
abbrev wholeRows0 : Rect S1024x256 := Rect.unit (s := S1024x256) ![0, 0] S1024x256.size inb_S1024x256_S1024x256_0_0
abbrev wholeWeight0 : Rect S256x64 := Rect.unit (s := S256x64) ![0, 0] S256x64.size inb_S256x64_S256x64_0_0

/-- The one rectangle the body stores through: the whole output tile. -/
abbrev wholeTile0 : Rect S1024x64 := Rect.unit (s := S1024x64) ![0, 0] S1024x64.size inb_S1024x64_S1024x64_0_0

/-- What the body leaves in the output's staging buffer: its one store, of the product of the row tile `x` with the
    weight `w` (the two operands rounded to bf16 first, the accumulator starting at zero), through the whole tile. -/
def prod0 (x : Vec F S1024x256 .f32) (w : Vec F S256x64 .f32) : Vec F S1024x64 .f32 :=
  View.canon [⟨wholeTile0, k0_pay1 (View.ld x wholeRows0) (View.ld w wholeWeight0)⟩]

/-- That store covers the buffer. -/
theorem prod0_covers (p : Vec F S1024x64 .f32) (y : S1024x64.Idx) :
    ∃ pc ∈ ([⟨wholeTile0, p⟩] : List (View.Piece (Elt F) S1024x64 .f32)), y ∈ pc.1.set :=
  View.cover_of_tiled [⟨wholeTile0, p⟩] S1024x64.size (by rfl) y

set_option maxHeartbeats 1000000 in
/-- The body, on whole staging memrefs holding the row tile `x`, the weight `w` and anything in the output's, runs to
    its end leaving the inputs as they were and the output's buffer at `prod0 x w`. -/
theorem dense0_triple (c : Dev nD) (E : Set ℕ) (i : grid0.Coords) (arg1 : Memref sig .tc .vmem S1024x256 .f32) (harg1 : arg1.IsWhole)
    (arg2 : Memref sig .tc .vmem S256x64 .f32) (harg2 : arg2.IsWhole) (arg3 : Memref sig .tc .vmem S1024x64 .f32) (harg3 : arg3.IsWhole)
    (x : Vec F S1024x256 .f32) (w : Vec F S256x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod0 x w)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod0_covers (F := F) _)

/-- The pipeline's proof data at entry contents `V`: the arrays as found; after the body at point `t` the two inputs'
    buffers still hold their tiles and the output's holds the product of the point's row tile with the weight; the
    invariant is the scoped rest and the generator register, untouched; nothing is owed; every share is whole. -/
def dense0_data (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => prod0 (tile0 V c 0 t) (tile0 V c 1 t)
  Φ _ := Pipeline.ΦA spec0 c
  q _ := fullShare
  owed _ := 0

theorem dense0_A (c : Dev nD) (w : Fin cfg0.W) : (dense0_data V c).A w = V c (Pipeline.arrRef spec0 w) := by
  dsimp only [dense0_data]
theorem dense0_after_rows (c : Dev nD) (t : Fin cfg0.N) : (dense0_data V c).after 0 t = tile0 V c 0 t := by dsimp only [dense0_data]
theorem dense0_after_weight (c : Dev nD) (t : Fin cfg0.N) : (dense0_data V c).after 1 t = tile0 V c 1 t := by dsimp only [dense0_data]
theorem dense0_after_out (c : Dev nD) (t : Fin cfg0.N) :
    (dense0_data V c).after 2 t = prod0 (tile0 V c 0 t) (tile0 V c 1 t) := by dsimp only [dense0_data]
theorem dense0_before_rows (c : Dev nD) (t : Fin cfg0.N) (d) : (dense0_data V c).before 0 t d = tile0 V c 0 t :=
  rows0_staged V (dense0_data V c) (dense0_A V c 0) (dense0_after_rows V c) t d
theorem dense0_before_weight (c : Dev nD) (t : Fin cfg0.N) (d) : (dense0_data V c).before 1 t d = tile0 V c 1 t :=
  weight0_staged V (dense0_data V c) (dense0_A V c 1) (dense0_after_weight V c) t d

/-- What the body is called with at point `t`, the windows one by one, -/
def densePre0 (c : Dev nD) (t : Fin cfg0.N) : sProp 𝕄 :=
  iprop((dense0_data V c).Φ t.castSucc ∗ (dense0_data V c).owesAt () t.castSucc
    ∗ (∃ d, owns (c : Thread nD τ) (st0_0 t) fullShare ((dense0_data V c).before 0 t d))
    ∗ (∃ d, owns (c : Thread nD τ) (st0_1 t) fullShare ((dense0_data V c).before 1 t d))
    ∗ (∃ d, owns (c : Thread nD τ) (st0_2 t) fullShare ((dense0_data V c).before 2 t d)))

/-- and what it returns. -/
def densePost0 (c : Dev nD) (t : Fin cfg0.N) : sProp 𝕄 :=
  iprop((dense0_data V c).Φ t.succ ∗ (dense0_data V c).owesAt () t.succ
    ∗ owns (c : Thread nD τ) (st0_0 t) fullShare ((dense0_data V c).after 0 t)
    ∗ owns (c : Thread nD τ) (st0_1 t) fullShare ((dense0_data V c).after 1 t)
    ∗ owns (c : Thread nD τ) (st0_2 t) fullShare ((dense0_data V c).after 2 t))

/-- The body at any point: the inputs' buffers hold their tiles, so the triple applies; the invariant and what the core
    owes pass through unread. -/
theorem dense0_at_point (c : Dev nD) (t : Fin cfg0.N) :
    densePre0 V c t ⊢ wp frame (wpE (defs₀ (F := F)) Variants.none c none) Set.univ (bodyAt0 t) (fun _ => densePost0 V c t) := by
  unfold densePre0 densePost0 bodyAt0
  simp only [dense0_before_rows, dense0_before_weight]
  rw [show (dense0_data V c).Φ t.succ = (dense0_data V c).Φ t.castSucc from rfl,
    show (dense0_data V c).owesAt () t.succ = (dense0_data V c).owesAt () t.castSucc from rfl,
    dense0_after_rows, dense0_after_weight, dense0_after_out]
  iintro ⟨HΦ, Ho, ⟨%d0, H0⟩, ⟨%d1, H1⟩, ⟨%d2, H2⟩⟩
  iapply (dense0_triple c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem dense0_obligation (c : Dev nD) : BodyObligation (dense0_data (F := F) V c) (defs₀ (F := F)) Variants.none () Set.univ := fun t => by
  rw [bigSep_W0, bigSep_W0]
  exact dense0_at_point V c t

end Cert.Kernel.Hand

end
-- ==== Proof.K.Region1.lean ====
/-
  Region 1 of the kernel program: one dense product, out = x · w, computed tile by tile. The grid has 8 points;
  point t sees rows 1024·t … 1024·t + 1023 of x (window 0, fetched at every point), the whole weight w (window 1,
  fetched once, at the first point, and left in place) and writes rows 1024·t … 1024·t + 1023 of the output (window 2,
  written back at every point). This module states, at the contents `V` the region is entered with, what the body leaves
  in the output's staging buffer — the product of the point's row tile with the weight, the body's one store — and
  proves the body's Hoare triple and the pipeline's body obligation from it. Everything is generic in the float
  instance: nothing here computes.
-/
import proofs.«115443_j80522046866107_1_alg».proof.Proof.Gen.Kernel.Launch
import proofs.«115443_j80522046866107_1_alg».proof.Proof.Gen.Kernel.Skeleton
import proofs.«115443_j80522046866107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of window `w`'s array that point `t` sees: the block the window's index map assigns to the point,
    read off the array's contents at the region's entry. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of x sits in its staging buffer at every point: the window is fetched at every point, and the body
    only reads it. -/
theorem rows1_staged {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The weight sits in its staging buffer at every point: it is fetched at the first point, its block is the whole
    array at every point (the index does not move), and the body only reads it. -/
theorem weight1_staged {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-- The rectangles the body loads through: the whole row tile and the whole weight. -/
abbrev wholeRows1 : Rect S1024x64 := Rect.unit (s := S1024x64) ![0, 0] S1024x64.size inb_S1024x64_S1024x64_0_0
abbrev wholeWeight1 : Rect S64x32 := Rect.unit (s := S64x32) ![0, 0] S64x32.size inb_S64x32_S64x32_0_0

/-- The one rectangle the body stores through: the whole output tile. -/
abbrev wholeTile1 : Rect S1024x32 := Rect.unit (s := S1024x32) ![0, 0] S1024x32.size inb_S1024x32_S1024x32_0_0

/-- What the body leaves in the output's staging buffer: its one store, of the product of the row tile `x` with the
    weight `w` (the two operands rounded to bf16 first, the accumulator starting at zero), through the whole tile. -/
def prod1 (x : Vec F S1024x64 .f32) (w : Vec F S64x32 .f32) : Vec F S1024x32 .f32 :=
  View.canon [⟨wholeTile1, k1_pay1 (View.ld x wholeRows1) (View.ld w wholeWeight1)⟩]

/-- That store covers the buffer. -/
theorem prod1_covers (p : Vec F S1024x32 .f32) (y : S1024x32.Idx) :
    ∃ pc ∈ ([⟨wholeTile1, p⟩] : List (View.Piece (Elt F) S1024x32 .f32)), y ∈ pc.1.set :=
  View.cover_of_tiled [⟨wholeTile1, p⟩] S1024x32.size (by rfl) y

set_option maxHeartbeats 1000000 in
/-- The body, on whole staging memrefs holding the row tile `x`, the weight `w` and anything in the output's, runs to
    its end leaving the inputs as they were and the output's buffer at `prod1 x w`. -/
theorem dense1_triple (c : Dev nD) (E : Set ℕ) (i : grid1.Coords) (arg1 : Memref sig .tc .vmem S1024x64 .f32) (harg1 : arg1.IsWhole)
    (arg2 : Memref sig .tc .vmem S64x32 .f32) (harg2 : arg2.IsWhole) (arg3 : Memref sig .tc .vmem S1024x32 .f32) (harg3 : arg3.IsWhole)
    (x : Vec F S1024x64 .f32) (w : Vec F S64x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod1 x w)) -∗ K ⟨⟩))
      ⊢ wp frame (wpE (defs₀ (F := F)) Variants.none c none) E (cc1__dense_kernel i arg1 harg1 arg2 harg2 arg3 harg3) K := by
  simp only [cc1__dense_kernel_eq_skeleton]; unfold cc1__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod1_covers (F := F) _)

/-- The pipeline's proof data at entry contents `V`: the arrays as found; after the body at point `t` the two inputs'
    buffers still hold their tiles and the output's holds the product of the point's row tile with the weight; the
    invariant is the scoped rest and the generator register, untouched; nothing is owed; every share is whole. -/
def dense1_data (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => prod1 (tile1 V c 0 t) (tile1 V c 1 t)
  Φ _ := Pipeline.ΦA spec1 c
  q _ := fullShare
  owed _ := 0

theorem dense1_A (c : Dev nD) (w : Fin cfg1.W) : (dense1_data V c).A w = V c (Pipeline.arrRef spec1 w) := by
  dsimp only [dense1_data]
theorem dense1_after_rows (c : Dev nD) (t : Fin cfg1.N) : (dense1_data V c).after 0 t = tile1 V c 0 t := by dsimp only [dense1_data]
theorem dense1_after_weight (c : Dev nD) (t : Fin cfg1.N) : (dense1_data V c).after 1 t = tile1 V c 1 t := by dsimp only [dense1_data]
theorem dense1_after_out (c : Dev nD) (t : Fin cfg1.N) :
    (dense1_data V c).after 2 t = prod1 (tile1 V c 0 t) (tile1 V c 1 t) := by dsimp only [dense1_data]
theorem dense1_before_rows (c : Dev nD) (t : Fin cfg1.N) (d) : (dense1_data V c).before 0 t d = tile1 V c 0 t :=
  rows1_staged V (dense1_data V c) (dense1_A V c 0) (dense1_after_rows V c) t d
theorem dense1_before_weight (c : Dev nD) (t : Fin cfg1.N) (d) : (dense1_data V c).before 1 t d = tile1 V c 1 t :=
  weight1_staged V (dense1_data V c) (dense1_A V c 1) (dense1_after_weight V c) t d

/-- What the body is called with at point `t`, the windows one by one, -/
def densePre1 (c : Dev nD) (t : Fin cfg1.N) : sProp 𝕄 :=
  iprop((dense1_data V c).Φ t.castSucc ∗ (dense1_data V c).owesAt () t.castSucc
    ∗ (∃ d, owns (c : Thread nD τ) (st1_0 t) fullShare ((dense1_data V c).before 0 t d))
    ∗ (∃ d, owns (c : Thread nD τ) (st1_1 t) fullShare ((dense1_data V c).before 1 t d))
    ∗ (∃ d, owns (c : Thread nD τ) (st1_2 t) fullShare ((dense1_data V c).before 2 t d)))

/-- and what it returns. -/
def densePost1 (c : Dev nD) (t : Fin cfg1.N) : sProp 𝕄 :=
  iprop((dense1_data V c).Φ t.succ ∗ (dense1_data V c).owesAt () t.succ
    ∗ owns (c : Thread nD τ) (st1_0 t) fullShare ((dense1_data V c).after 0 t)
    ∗ owns (c : Thread nD τ) (st1_1 t) fullShare ((dense1_data V c).after 1 t)
    ∗ owns (c : Thread nD τ) (st1_2 t) fullShare ((dense1_data V c).after 2 t))

/-- The body at any point: the inputs' buffers hold their tiles, so the triple applies; the invariant and what the core
    owes pass through unread. -/
theorem dense1_at_point (c : Dev nD) (t : Fin cfg1.N) :
    densePre1 V c t ⊢ wp frame (wpE (defs₀ (F := F)) Variants.none c none) Set.univ (bodyAt1 t) (fun _ => densePost1 V c t) := by
  unfold densePre1 densePost1 bodyAt1
  simp only [dense1_before_rows, dense1_before_weight]
  rw [show (dense1_data V c).Φ t.succ = (dense1_data V c).Φ t.castSucc from rfl,
    show (dense1_data V c).owesAt () t.succ = (dense1_data V c).owesAt () t.castSucc from rfl,
    dense1_after_rows, dense1_after_weight, dense1_after_out]
  iintro ⟨HΦ, Ho, ⟨%d0, H0⟩, ⟨%d1, H1⟩, ⟨%d2, H2⟩⟩
  iapply (dense1_triple c Set.univ _ _ _ _ _ _ _ (tile1 V c 0 t) (tile1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem dense1_obligation (c : Dev nD) : BodyObligation (dense1_data (F := F) V c) (defs₀ (F := F)) Variants.none () Set.univ := fun t => by
  rw [bigSep_W1, bigSep_W1]
  exact dense1_at_point V c t

end Cert.Kernel.Hand

end
-- ==== Proof.K.Region2.lean ====
/-
  Region 2 of the kernel program: one dense product, out = x · w, computed tile by tile. The grid has 8 points;
  point t sees rows 1024·t … 1024·t + 1023 of x (window 0, fetched at every point), the whole weight w (window 1,
  fetched once, at the first point, and left in place) and writes rows 1024·t … 1024·t + 1023 of the output (window 2,
  written back at every point). This module states, at the contents `V` the region is entered with, what the body leaves
  in the output's staging buffer — the product of the point's row tile with the weight, the body's one store — and
  proves the body's Hoare triple and the pipeline's body obligation from it. Everything is generic in the float
  instance: nothing here computes.
-/
import proofs.«115443_j80522046866107_1_alg».proof.Proof.Gen.Kernel.Launch
import proofs.«115443_j80522046866107_1_alg».proof.Proof.Gen.Kernel.Skeleton
import proofs.«115443_j80522046866107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of window `w`'s array that point `t` sees: the block the window's index map assigns to the point,
    read off the array's contents at the region's entry. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile of x sits in its staging buffer at every point: the window is fetched at every point, and the body
    only reads it. -/
theorem rows2_staged {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- The weight sits in its staging buffer at every point: it is fetched at the first point, its block is the whole
    array at every point (the index does not move), and the body only reads it. -/
theorem weight2_staged {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-- The rectangles the body loads through: the whole row tile and the whole weight. -/
abbrev wholeRows2 : Rect S1024x64 := Rect.unit (s := S1024x64) ![0, 0] S1024x64.size inb_S1024x64_S1024x64_0_0
abbrev wholeWeight2 : Rect S64x32 := Rect.unit (s := S64x32) ![0, 0] S64x32.size inb_S64x32_S64x32_0_0

/-- The one rectangle the body stores through: the whole output tile. -/
abbrev wholeTile2 : Rect S1024x32 := Rect.unit (s := S1024x32) ![0, 0] S1024x32.size inb_S1024x32_S1024x32_0_0

/-- What the body leaves in the output's staging buffer: its one store, of the product of the row tile `x` with the
    weight `w` (the two operands rounded to bf16 first, the accumulator starting at zero), through the whole tile. -/
def prod2 (x : Vec F S1024x64 .f32) (w : Vec F S64x32 .f32) : Vec F S1024x32 .f32 :=
  View.canon [⟨wholeTile2, k2_pay1 (View.ld x wholeRows2) (View.ld w wholeWeight2)⟩]

/-- That store covers the buffer. -/
theorem prod2_covers (p : Vec F S1024x32 .f32) (y : S1024x32.Idx) :
    ∃ pc ∈ ([⟨wholeTile2, p⟩] : List (View.Piece (Elt F) S1024x32 .f32)), y ∈ pc.1.set :=
  View.cover_of_tiled [⟨wholeTile2, p⟩] S1024x32.size (by rfl) y

set_option maxHeartbeats 1000000 in
/-- The body, on whole staging memrefs holding the row tile `x`, the weight `w` and anything in the output's, runs to
    its end leaving the inputs as they were and the output's buffer at `prod2 x w`. -/
theorem dense2_triple (c : Dev nD) (E : Set ℕ) (i : grid2.Coords) (arg1 : Memref sig .tc .vmem S1024x64 .f32) (harg1 : arg1.IsWhole)
    (arg2 : Memref sig .tc .vmem S64x32 .f32) (harg2 : arg2.IsWhole) (arg3 : Memref sig .tc .vmem S1024x32 .f32) (harg3 : arg3.IsWhole)
    (x : Vec F S1024x64 .f32) (w : Vec F S64x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod2 x w)) -∗ K ⟨⟩))
      ⊢ wp frame (wpE (defs₀ (F := F)) Variants.none c none) E (cc2__dense_kernel i arg1 harg1 arg2 harg2 arg3 harg3) K := by
  simp only [cc2__dense_kernel_eq_skeleton]; unfold cc2__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod2_covers (F := F) _)

/-- The pipeline's proof data at entry contents `V`: the arrays as found; after the body at point `t` the two inputs'
    buffers still hold their tiles and the output's holds the product of the point's row tile with the weight; the
    invariant is the scoped rest and the generator register, untouched; nothing is owed; every share is whole. -/
def dense2_data (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => prod2 (tile2 V c 0 t) (tile2 V c 1 t)
  Φ _ := Pipeline.ΦA spec2 c
  q _ := fullShare
  owed _ := 0

theorem dense2_A (c : Dev nD) (w : Fin cfg2.W) : (dense2_data V c).A w = V c (Pipeline.arrRef spec2 w) := by
  dsimp only [dense2_data]
theorem dense2_after_rows (c : Dev nD) (t : Fin cfg2.N) : (dense2_data V c).after 0 t = tile2 V c 0 t := by dsimp only [dense2_data]
theorem dense2_after_weight (c : Dev nD) (t : Fin cfg2.N) : (dense2_data V c).after 1 t = tile2 V c 1 t := by dsimp only [dense2_data]
theorem dense2_after_out (c : Dev nD) (t : Fin cfg2.N) :
    (dense2_data V c).after 2 t = prod2 (tile2 V c 0 t) (tile2 V c 1 t) := by dsimp only [dense2_data]
theorem dense2_before_rows (c : Dev nD) (t : Fin cfg2.N) (d) : (dense2_data V c).before 0 t d = tile2 V c 0 t :=
  rows2_staged V (dense2_data V c) (dense2_A V c 0) (dense2_after_rows V c) t d
theorem dense2_before_weight (c : Dev nD) (t : Fin cfg2.N) (d) : (dense2_data V c).before 1 t d = tile2 V c 1 t :=
  weight2_staged V (dense2_data V c) (dense2_A V c 1) (dense2_after_weight V c) t d

/-- What the body is called with at point `t`, the windows one by one, -/
def densePre2 (c : Dev nD) (t : Fin cfg2.N) : sProp 𝕄 :=
  iprop((dense2_data V c).Φ t.castSucc ∗ (dense2_data V c).owesAt () t.castSucc
    ∗ (∃ d, owns (c : Thread nD τ) (st2_0 t) fullShare ((dense2_data V c).before 0 t d))
    ∗ (∃ d, owns (c : Thread nD τ) (st2_1 t) fullShare ((dense2_data V c).before 1 t d))
    ∗ (∃ d, owns (c : Thread nD τ) (st2_2 t) fullShare ((dense2_data V c).before 2 t d)))

/-- and what it returns. -/
def densePost2 (c : Dev nD) (t : Fin cfg2.N) : sProp 𝕄 :=
  iprop((dense2_data V c).Φ t.succ ∗ (dense2_data V c).owesAt () t.succ
    ∗ owns (c : Thread nD τ) (st2_0 t) fullShare ((dense2_data V c).after 0 t)
    ∗ owns (c : Thread nD τ) (st2_1 t) fullShare ((dense2_data V c).after 1 t)
    ∗ owns (c : Thread nD τ) (st2_2 t) fullShare ((dense2_data V c).after 2 t))

/-- The body at any point: the inputs' buffers hold their tiles, so the triple applies; the invariant and what the core
    owes pass through unread. -/
theorem dense2_at_point (c : Dev nD) (t : Fin cfg2.N) :
    densePre2 V c t ⊢ wp frame (wpE (defs₀ (F := F)) Variants.none c none) Set.univ (bodyAt2 t) (fun _ => densePost2 V c t) := by
  unfold densePre2 densePost2 bodyAt2
  simp only [dense2_before_rows, dense2_before_weight]
  rw [show (dense2_data V c).Φ t.succ = (dense2_data V c).Φ t.castSucc from rfl,
    show (dense2_data V c).owesAt () t.succ = (dense2_data V c).owesAt () t.castSucc from rfl,
    dense2_after_rows, dense2_after_weight, dense2_after_out]
  iintro ⟨HΦ, Ho, ⟨%d0, H0⟩, ⟨%d1, H1⟩, ⟨%d2, H2⟩⟩
  iapply (dense2_triple c Set.univ _ _ _ _ _ _ _ (tile2 V c 0 t) (tile2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem dense2_obligation (c : Dev nD) : BodyObligation (dense2_data (F := F) V c) (defs₀ (F := F)) Variants.none () Set.univ := fun t => by
  rw [bigSep_W2, bigSep_W2]
  exact dense2_at_point V c t

end Cert.Kernel.Hand

end
-- ==== Proof.K.Region3Data.lean ====
/-
  Region 3 of the kernel program: the decoder. One array z (8192 rows of 32 numbers) is read through TWO windows:
  window 0 hands the body the row tile 1024·i … 1024·i + 1023 of z, window 1 the row tile 1024·j … 1024·j + 1023 of the
  same z, at the point (i, j) of an 8 × 8 grid; window 2 is the 1024 × 1024 tile (i, j) of the output, written back at
  every point. The body stores logistic(left · rightᵀ) (both operands rounded to bf16 first, the accumulator starting
  at zero) through the whole output tile. This module holds the definitions only: the tile a window sees at a point,
  what the body leaves in the output's staging buffer, and the pipeline's proof data at the contents `V` the region is
  entered with. Because the two input windows read ONE buffer, neither can hold it outright: the buffer's full share
  is cut in its two halves, window 0 holding the left half and window 1 the right half (reading needs any positive
  share; the halves recompose to the full share when the region is left).
-/
import proofs.«115443_j80522046866107_1_alg».proof.Proof.Gen.Kernel.Launch
import proofs.«115443_j80522046866107_1_alg».proof.Proof.Gen.Kernel.Skeleton
import proofs.«115443_j80522046866107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of window `w`'s array that point `t` sees: the block the window's index map assigns to the point,
    read off the array's contents at the region's entry. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rectangle the body loads each input tile through: the whole 1024 × 32 tile. -/
abbrev wholeRows3 : Rect S1024x32 := Rect.unit (s := S1024x32) ![0, 0] S1024x32.size inb_S1024x32_S1024x32_0_0

/-- The one rectangle the body stores through: the whole 1024 × 1024 output tile. -/
abbrev wholeTile3 : Rect S1024x1024 := Rect.unit (s := S1024x1024) ![0, 0] S1024x1024.size inb_S1024x1024_S1024x1024_0_0

/-- What the body leaves in the output's staging buffer: its one store, of logistic(left · rightᵀ) — the left row tile
    `zm` and the right row tile `zn` each loaded through its whole rectangle and rounded to bf16, the right one
    transposed, the accumulator starting at zero — through the whole output tile. -/
def decoded3 (zm zn : Vec F S1024x32 .f32) : Vec F S1024x1024 .f32 :=
  View.canon [⟨wholeTile3, k3_pay1 (View.ld zm wholeRows3) (View.ld zn wholeRows3)⟩]

/-- The pipeline's proof data at entry contents `V`: the arrays as found; after the body at point `t` the two inputs'
    buffers still hold their tiles and the output's holds `decoded3` of them; the invariant is the scoped rest and the
    generator register, untouched; nothing is owed. The two input windows read one buffer: window 0 holds the left
    half of its full share and window 1 the right half (the output's array is held outright whatever is said here). -/
def decode_data (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => decoded3 (tile3 V c 0 t) (tile3 V c 1 t)
  Φ _ := Pipeline.ΦA spec3 c
  q w := match w with
    | ⟨0, _⟩ => fullShare.left
    | ⟨1, _⟩ => fullShare.right
    | ⟨2, _⟩ => fullShare
  owed _ := 0

theorem decode_A (c : Dev nD) (w : Fin cfg3.W) : (decode_data V c).A w = V c (Pipeline.arrRef spec3 w) := by
  dsimp only [decode_data]
theorem decode_after_left (c : Dev nD) (t : Fin cfg3.N) : (decode_data V c).after 0 t = tile3 V c 0 t := by dsimp only [decode_data]
theorem decode_after_right (c : Dev nD) (t : Fin cfg3.N) : (decode_data V c).after 1 t = tile3 V c 1 t := by dsimp only [decode_data]
theorem decode_after_out (c : Dev nD) (t : Fin cfg3.N) :
    (decode_data V c).after 2 t = decoded3 (tile3 V c 0 t) (tile3 V c 1 t) := by dsimp only [decode_data]

/-- The shares: the left half, the right half, and (unread) the whole. -/
theorem decode_q_left (c : Dev nD) : (decode_data V c).q 0 = fullShare.left := by dsimp only [decode_data]
theorem decode_q_right (c : Dev nD) : (decode_data V c).q 1 = fullShare.right := by dsimp only [decode_data]
theorem decode_q_out (c : Dev nD) : (decode_data V c).q 2 = fullShare := by dsimp only [decode_data]

/-- Nothing is owed at any point. -/
theorem decode_owed (c : Dev nD) (t : Fin (cfg3.N + 1)) : (decode_data V c).owed t = 0 := rfl

end Cert.Kernel.Hand

end
-- ==== Proof.K.Run.lean ====
/-
  The kernel program's run, segment by segment. @main is eleven items: three stretches of host operations (the edge
  lists with their self loops, the degrees and the normalisation coefficients), the first dense product (region 0), two
  stretches (gather, scale, scatter-add, bias; the rectifier), the two heads' dense products (regions 1 and 2) each
  followed or preceded by its stretch of host operations, and the decoder (region 3). Between two items every unscoped
  buffer of a TensorCore is held whole at known contents: the launch memory, then what each stretch of host operations
  computes from them, then — after a region — the same contents with the region's output array replaced by what the
  region's write-backs leave. This module defines those contents stage by stage, gives regions 0, 1 and 2 as segments
  (their arrays split out of the unscoped buffers at entry and put back at exit), and proves that @main runs to its end
  with the result array and the nine argument arrays at the last stage's contents, GIVEN the decoder's segment.
-/
import proofs.«115443_j80522046866107_1_alg».proof.Proof.Gen.Kernel.Regions
import proofs.«115443_j80522046866107_1_alg».proof.Proof.K.Region0
import proofs.«115443_j80522046866107_1_alg».proof.Proof.K.Region1
import proofs.«115443_j80522046866107_1_alg».proof.Proof.K.Region2
import proofs.«115443_j80522046866107_1_alg».proof.Proof.K.Region3Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave, stage by stage

The contents between two items are the generated valuations `V0 … V11`, which are written over an unknown family
`outs` read only at the four places "what region K leaves in its output array". The family is defined here one region
at a time: each region's entry contents only read what the earlier regions left. -/

/-- What region 0 leaves in `main_v30`: the fold of its eight write-backs over the array as found. -/
def out0 (c : Dev nD) : Buf (Elt F) ((c : Thread nD τ).loc main_v30) :=
  (dense0_data (fun c b => V3 m c b) c).arrAt 2 cfg0.N
/-- The family after region 0. -/
def left0 : Outs (F := F) := fun _ r c => Function.update (V3 m c) (Proc.devRef .tc main_v30) (out0 m c) (Proc.devRef .tc r)

/-- What region 1 leaves in `main_v48`. -/
def out1 (c : Dev nD) : Buf (Elt F) ((c : Thread nD τ).loc main_v48) :=
  (dense1_data (fun c b => V6 m (left0 m) c b) c).arrAt 2 cfg1.N
/-- The family after regions 0 and 1. -/
def left1 : Outs (F := F) := fun J r c => match J with
  | 4 => left0 m 4 r c
  | _ => Function.update (V6 m (left0 m) c) (Proc.devRef .tc main_v48) (out1 m c) (Proc.devRef .tc r)

/-- What region 2 leaves in `main_v65`. -/
def out2 (c : Dev nD) : Buf (Elt F) ((c : Thread nD τ).loc main_v65) :=
  (dense2_data (fun c b => V8 m (left1 m) c b) c).arrAt 2 cfg2.N
/-- The family after regions 0, 1 and 2. -/
def left2 : Outs (F := F) := fun J r c => match J with
  | 4 => left0 m 4 r c
  | 7 => left1 m 7 r c
  | _ => Function.update (V8 m (left1 m) c) (Proc.devRef .tc main_v65) (out2 m c) (Proc.devRef .tc r)

/-- What region 3 leaves in `main_v85`: the program's result. -/
def out3 (c : Dev nD) : Buf (Elt F) ((c : Thread nD τ).loc main_v85) :=
  (decode_data (fun c b => V10 m (left2 m) c b) c).arrAt 2 cfg3.N
/-- The whole family. -/
def left : Outs (F := F) := fun J r c => match J with
  | 4 => left0 m 4 r c
  | 7 => left1 m 7 r c
  | 9 => left2 m 9 r c
  | _ => Function.update (V10 m (left2 m) c) (Proc.devRef .tc main_v85) (out3 m c) (Proc.devRef .tc r)

/-- The earlier stages do not read what the later regions leave. -/
theorem V6_left (c : Dev nD) : V6 m (left m) c = V6 m (left0 m) c := rfl
theorem V8_left (c : Dev nD) : V8 m (left m) c = V8 m (left1 m) c := rfl
theorem V10_left (c : Dev nD) : V10 m (left m) c = V10 m (left2 m) c := rfl

/-- Every pipeline's proof data, each at its region's entry contents. -/
def stages : (p : Fin 4) → (c : Dev nD) → Dat τ (Elt F) Unit ℕ (UR sig nD τ) ℕ (cfgs p) c
  | ⟨0, _⟩ => fun c => dense0_data (fun c b => V3 m c b) c
  | ⟨1, _⟩ => fun c => dense1_data (fun c b => V6 m (left m) c b) c
  | ⟨2, _⟩ => fun c => dense2_data (fun c b => V8 m (left m) c b) c
  | ⟨3, _⟩ => fun c => decode_data (fun c b => V10 m (left m) c b) c

/-- No core owes another anything: no pair carries a level. -/
abbrev noPairs : GSem nD τ sig → Finset Unit := fun _ => ∅
abbrev noLevel : GSem nD τ sig → Unit → ℕ := fun _ _ => 0

/-- What rides beside the buffers through every item: the core's generator register at some state, and its debts: none. -/
abbrev Riding (c : Dev nD) : sProp 𝕄 := iprop((∃ r, prngReg c r) ∗ ∃ W, owes (c : Thread nD τ) (0 : CellTallies nD τ sig Unit) W)

/-! ## Region 0 as a segment of @main -/

/-- The TensorCore's buffers when region 0 is entered, and when it is left. -/
abbrev entry0 : (c : Dev nD) → (b : Ref sig .tc) → Buf (Elt F) ((c : Thread nD τ).loc b) := fun c b => V3 m c b
abbrev exit0 : (c : Dev nD) → (b : Ref sig .tc) → Buf (Elt F) ((c : Thread nD τ).loc b) := fun c b => V4 m (left m) c b

section
attribute [local irreducible] StableHlo.after

/-- An input array is never written: after the last point it holds what it held at entry, which the exit contents keep. -/
theorem exit0_rows (c : Dev nD) : (stages m 0 c).arrAt 0 cfg0.N = exit0 m c (Pipeline.arrRef spec0 0) := by
  show (dense0_data (entry0 m) c).arrAt 0 cfg0.N = _
  rw [(dense0_data (entry0 m) c).arrAt_in 0 rfl, dense0_A]
  exact (V4_of m (left m) c _ (by decide)).symm
theorem exit0_weight (c : Dev nD) : (stages m 0 c).arrAt 1 cfg0.N = exit0 m c (Pipeline.arrRef spec0 1) := by
  show (dense0_data (entry0 m) c).arrAt 1 cfg0.N = _
  rw [(dense0_data (entry0 m) c).arrAt_in 1 rfl, dense0_A]
  exact (V4_of m (left m) c _ (by decide)).symm
/-- The output array holds the fold of the write-backs, which is what the exit contents put there. -/
theorem exit0_out (c : Dev nD) : (stages m 0 c).arrAt 2 cfg0.N = exit0 m c (Pipeline.arrRef spec0 2) := by
  show out0 m c = Function.update (V3 m c) (Proc.devRef .tc main_v30) (left m 4 main_v30 c) (Proc.devRef .tc main_v30)
  rw [Function.update_self]
  show out0 m c = Function.update (V3 m c) (Proc.devRef .tc main_v30) (out0 m c) (Proc.devRef .tc main_v30)
  rw [Function.update_self]

end

/-- After the last point each of the region's arrays holds what the exit contents say. -/
theorem exit0_arrays (c : Dev nD) (w : Fin cfg0.W) : (stages m 0 c).arrAt w cfg0.N = exit0 m c (Pipeline.arrRef spec0 w) := by
  obtain ⟨i, hi⟩ := w
  have h3 : i = 0 ∨ i = 1 ∨ i = 2 := by
    have : i < 3 := hi
    omega
  rcases h3 with rfl | rfl | rfl
  · exact exit0_rows m c
  · exact exit0_weight m c
  · exact exit0_out m c

/-- Every buffer that is none of the region's arrays is left as it was found. -/
theorem exit0_rest (c : Dev nD) : ∀ b, b ∉ Finset.univ.image (Pipeline.arrRef spec0) → exit0 m c b = entry0 m c b :=
  fun b hb => V4_of m (left m) c b fun h => hb (Finset.mem_image.mpr ⟨2, Finset.mem_univ _, (List.mem_singleton.mp h).symm⟩)

set_option backward.isDefEq.respectTransparency.types false in
/-- Entering region 0: the thread state "every unscoped buffer at the entry contents, the generator register, nothing
    owed" yields the region's arrays at their entry contents, no prefetched table, the first tallies, the generator
    register (which goes into the invariant) and the unscoped buffers the region does not window (which go round it). -/
theorem enter0 (c : Dev nD) :
    iprop(StableHlo.held (c : Thread nD τ) (Pipeline.ucRefs τ sig) (V3 m c) ∗ Riding c)
      ⊢ (iprop((stages m 0 c).arrays ((stages m 0 c).arrAt · 0) ∗ Pipeline.prefHeld (pcfgs (F := F) 0).pre c (fun _ => fullShare) (adm 0).1
          ∗ (stages m 0 c).owesAt () 0 ∗ (∃ r, prngReg c r)
          ∗ Pipeline.unscopedRest (Ix := Unit) (Name := ℕ) (U := UR sig nD τ) (Lvl := ℕ) spec0 c (entry0 m c)) : sProp 𝕄) := by
  have hsplit := Pipeline.arrays_of_unscopedBufs (p := 0) (pcfgs (F := F)) adm (stages m) launch0.win launch0.arr_whole c
    ((stages m 0 c).share_full fun _ => rfl) (entry0 m c) fun _ => rfl
  rw [Pipeline.unscopedBufs_held] at hsplit
  iintro ⟨Hbufs, Hgen, Howes⟩
  ihave H := hsplit $$ Hbufs
  icases H with ⟨Harr, Hround⟩
  isplitl [Harr]; · iexact Harr
  isplitr; · unfold Pipeline.prefHeld; rw [show (Finset.univ : Finset (Fin 0)) = ∅ from rfl, BI.bigSep_empty]; iempintro
  isplitl [Howes]
  · unfold Pipeline.Dat.owesAt Pipeline.owesWithin
    icases Howes with ⟨%W, Howes⟩; iexists W; isplitr; · ipureintro; exact fun _ _ => Or.inl trivial
    iexact Howes
  isplitl [Hgen]; · iexact Hgen
  iexact Hround

set_option backward.isDefEq.respectTransparency.types false in
/-- Leaving region 0: the arrays at what the write-backs left, beside the buffers that went round the region, are
    every unscoped buffer at the exit contents; the generator register and the (empty) debt ride on. -/
theorem leave0 (c : Dev nD) :
    (iprop((stages m 0 c).arrays ((stages m 0 c).arrAt · cfg0.N) ∗ (stages m 0 c).owesAt () (Fin.last cfg0.N) ∗ (∃ r, prngReg c r)
        ∗ Pipeline.unscopedRest (Ix := Unit) (Name := ℕ) (U := UR sig nD τ) (Lvl := ℕ) spec0 c (entry0 m c)) : sProp 𝕄)
      ⊢ iprop(StableHlo.held (c : Thread nD τ) (Pipeline.ucRefs τ sig) (V4 m (left m) c) ∗ Riding c) := by
  have hjoin := Pipeline.unscopedBufs_of_arrays (p := 0) (pcfgs (F := F)) adm (Ix := Unit) (Name := ℕ) (U := UR sig nD τ) (Lvl := ℕ)
    launch0.win launch0.arr_whole c (stages m) ((stages m 0 c).share_full fun _ => rfl)
    (entry0 m c) (exit0 m c) ((stages m 0 c).arrAt · cfg0.N) (exit0_arrays m c) (exit0_rest m c)
  rw [Pipeline.unscopedBufs_held] at hjoin
  iintro ⟨Harr, Howes, Hgen, Hround⟩
  isplitl [Harr Hround]
  · iapply hjoin; isplitl [Harr] <;> iassumption
  isplitl [Hgen]; · iexact Hgen
  unfold Pipeline.Dat.owesAt Pipeline.owesWithin
  icases Howes with ⟨%W, -, Howes⟩; iexists W; iexact Howes

set_option backward.isDefEq.respectTransparency.types false in
/-- Region 0 as a segment: the launch's layout facts, no semaphore of the kernel's own, the body obligation, nothing to
    wait for, and the four entailments around the two thread states (the generator register goes into the class's
    invariant and comes back; the unwindowed buffers go round). -/
def denseSeg0 : RegionSeg (pcfgs (F := F)) adm (stages m) () defs₀ Variants.none noPairs noLevel 0 where
  win := launch0.win.to₀
  block_pos := launch0.block_pos
  stage_whole := launch0.stage_whole
  K := PEmpty
  osem k := k.elim
  ho := Pipeline.OwnSemFacts.none _
  hbody c := (dense0_obligation (entry0 m) c).loose
  hwaits := Pipeline.hwaits_of_owed_zero _ _ _ _ noPairs noLevel 0 fun _ _ => rfl
  pre c := iprop(StableHlo.held (c : Thread nD τ) (Pipeline.ucRefs τ sig) (V3 m c) ∗ Riding c)
  post c := iprop(StableHlo.held (c : Thread nD τ) (Pipeline.ucRefs τ sig) (V4 m (left m) c) ∗ Riding c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    iintro ⟨Hpre, -, -⟩
    imodintro
    iapply (enter0 m c); iexact Hpre
  hin c := by
    rw [show (stages m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (stages m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    iintro H
    imodintro
    iapply (leave0 m c); iexact H

/-! ## Region 1 as a segment of @main -/

/-- The TensorCore's buffers when region 1 is entered, and when it is left. -/
abbrev entry1 : (c : Dev nD) → (b : Ref sig .tc) → Buf (Elt F) ((c : Thread nD τ).loc b) := fun c b => V6 m (left m) c b
abbrev exit1 : (c : Dev nD) → (b : Ref sig .tc) → Buf (Elt F) ((c : Thread nD τ).loc b) := fun c b => V7 m (left m) c b

section
attribute [local irreducible] StableHlo.after

/-- An input array is never written: after the last point it holds what it held at entry, which the exit contents keep. -/
theorem exit1_rows (c : Dev nD) : (stages m 1 c).arrAt 0 cfg1.N = exit1 m c (Pipeline.arrRef spec1 0) := by
  show (dense1_data (entry1 m) c).arrAt 0 cfg1.N = _
  rw [(dense1_data (entry1 m) c).arrAt_in 0 rfl, dense1_A]
  exact (V7_of m (left m) c _ (by decide)).symm
theorem exit1_weight (c : Dev nD) : (stages m 1 c).arrAt 1 cfg1.N = exit1 m c (Pipeline.arrRef spec1 1) := by
  show (dense1_data (entry1 m) c).arrAt 1 cfg1.N = _
  rw [(dense1_data (entry1 m) c).arrAt_in 1 rfl, dense1_A]
  exact (V7_of m (left m) c _ (by decide)).symm
/-- The output array holds the fold of the write-backs, which is what the exit contents put there. -/
theorem exit1_out (c : Dev nD) : (stages m 1 c).arrAt 2 cfg1.N = exit1 m c (Pipeline.arrRef spec1 2) := by
  show out1 m c = Function.update (V6 m (left m) c) (Proc.devRef .tc main_v48) (left m 7 main_v48 c) (Proc.devRef .tc main_v48)
  rw [Function.update_self]
  show out1 m c = Function.update (V6 m (left0 m) c) (Proc.devRef .tc main_v48) (out1 m c) (Proc.devRef .tc main_v48)
  rw [Function.update_self]

end

/-- After the last point each of the region's arrays holds what the exit contents say. -/
theorem exit1_arrays (c : Dev nD) (w : Fin cfg1.W) : (stages m 1 c).arrAt w cfg1.N = exit1 m c (Pipeline.arrRef spec1 w) := by
  obtain ⟨i, hi⟩ := w
  have h3 : i = 0 ∨ i = 1 ∨ i = 2 := by
    have : i < 3 := hi
    omega
  rcases h3 with rfl | rfl | rfl
  · exact exit1_rows m c
  · exact exit1_weight m c
  · exact exit1_out m c

/-- Every buffer that is none of the region's arrays is left as it was found. -/
theorem exit1_rest (c : Dev nD) : ∀ b, b ∉ Finset.univ.image (Pipeline.arrRef spec1) → exit1 m c b = entry1 m c b :=
  fun b hb => V7_of m (left m) c b fun h => hb (Finset.mem_image.mpr ⟨2, Finset.mem_univ _, (List.mem_singleton.mp h).symm⟩)

set_option backward.isDefEq.respectTransparency.types false in
/-- Entering region 1: the thread state "every unscoped buffer at the entry contents, the generator register, nothing
    owed" yields the region's arrays at their entry contents, no prefetched table, the first tallies, the generator
    register (which goes into the invariant) and the unscoped buffers the region does not window (which go round it). -/
theorem enter1 (c : Dev nD) :
    iprop(StableHlo.held (c : Thread nD τ) (Pipeline.ucRefs τ sig) (V6 m (left m) c) ∗ Riding c)
      ⊢ (iprop((stages m 1 c).arrays ((stages m 1 c).arrAt · 0) ∗ Pipeline.prefHeld (pcfgs (F := F) 1).pre c (fun _ => fullShare) (adm 1).1
          ∗ (stages m 1 c).owesAt () 0 ∗ (∃ r, prngReg c r)
          ∗ Pipeline.unscopedRest (Ix := Unit) (Name := ℕ) (U := UR sig nD τ) (Lvl := ℕ) spec1 c (entry1 m c)) : sProp 𝕄) := by
  have hsplit := Pipeline.arrays_of_unscopedBufs (p := 1) (pcfgs (F := F)) adm (stages m) launch1.win launch1.arr_whole c
    ((stages m 1 c).share_full fun _ => rfl) (entry1 m c) fun _ => rfl
  rw [Pipeline.unscopedBufs_held] at hsplit
  iintro ⟨Hbufs, Hgen, Howes⟩
  ihave H := hsplit $$ Hbufs
  icases H with ⟨Harr, Hround⟩
  isplitl [Harr]; · iexact Harr
  isplitr; · unfold Pipeline.prefHeld; rw [show (Finset.univ : Finset (Fin 0)) = ∅ from rfl, BI.bigSep_empty]; iempintro
  isplitl [Howes]
  · unfold Pipeline.Dat.owesAt Pipeline.owesWithin
    icases Howes with ⟨%W, Howes⟩; iexists W; isplitr; · ipureintro; exact fun _ _ => Or.inl trivial
    iexact Howes
  isplitl [Hgen]; · iexact Hgen
  iexact Hround

set_option backward.isDefEq.respectTransparency.types false in
/-- Leaving region 1: the arrays at what the write-backs left, beside the buffers that went round the region, are
    every unscoped buffer at the exit contents; the generator register and the (empty) debt ride on. -/
theorem leave1 (c : Dev nD) :
    (iprop((stages m 1 c).arrays ((stages m 1 c).arrAt · cfg1.N) ∗ (stages m 1 c).owesAt () (Fin.last cfg1.N) ∗ (∃ r, prngReg c r)
        ∗ Pipeline.unscopedRest (Ix := Unit) (Name := ℕ) (U := UR sig nD τ) (Lvl := ℕ) spec1 c (entry1 m c)) : sProp 𝕄)
      ⊢ iprop(StableHlo.held (c : Thread nD τ) (Pipeline.ucRefs τ sig) (V7 m (left m) c) ∗ Riding c) := by
  have hjoin := Pipeline.unscopedBufs_of_arrays (p := 1) (pcfgs (F := F)) adm (Ix := Unit) (Name := ℕ) (U := UR sig nD τ) (Lvl := ℕ)
    launch1.win launch1.arr_whole c (stages m) ((stages m 1 c).share_full fun _ => rfl)
    (entry1 m c) (exit1 m c) ((stages m 1 c).arrAt · cfg1.N) (exit1_arrays m c) (exit1_rest m c)
  rw [Pipeline.unscopedBufs_held] at hjoin
  iintro ⟨Harr, Howes, Hgen, Hround⟩
  isplitl [Harr Hround]
  · iapply hjoin; isplitl [Harr] <;> iassumption
  isplitl [Hgen]; · iexact Hgen
  unfold Pipeline.Dat.owesAt Pipeline.owesWithin
  icases Howes with ⟨%W, -, Howes⟩; iexists W; iexact Howes

set_option backward.isDefEq.respectTransparency.types false in
/-- Region 1 as a segment: the launch's layout facts, no semaphore of the kernel's own, the body obligation, nothing to
    wait for, and the four entailments around the two thread states (the generator register goes into the class's
    invariant and comes back; the unwindowed buffers go round). -/
def denseSeg1 : RegionSeg (pcfgs (F := F)) adm (stages m) () defs₀ Variants.none noPairs noLevel 1 where
  win := launch1.win.to₀
  block_pos := launch1.block_pos
  stage_whole := launch1.stage_whole
  K := PEmpty
  osem k := k.elim
  ho := Pipeline.OwnSemFacts.none _
  hbody c := (dense1_obligation (entry1 m) c).loose
  hwaits := Pipeline.hwaits_of_owed_zero _ _ _ _ noPairs noLevel 1 fun _ _ => rfl
  pre c := iprop(StableHlo.held (c : Thread nD τ) (Pipeline.ucRefs τ sig) (V6 m (left m) c) ∗ Riding c)
  post c := iprop(StableHlo.held (c : Thread nD τ) (Pipeline.ucRefs τ sig) (V7 m (left m) c) ∗ Riding c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    iintro ⟨Hpre, -, -⟩
    imodintro
    iapply (enter1 m c); iexact Hpre
  hin c := by
    rw [show (stages m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (stages m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    iintro H
    imodintro
    iapply (leave1 m c); iexact H

/-! ## Region 2 as a segment of @main -/

/-- The TensorCore's buffers when region 2 is entered, and when it is left. -/
abbrev entry2 : (c : Dev nD) → (b : Ref sig .tc) → Buf (Elt F) ((c : Thread nD τ).loc b) := fun c b => V8 m (left m) c b
abbrev exit2 : (c : Dev nD) → (b : Ref sig .tc) → Buf (Elt F) ((c : Thread nD τ).loc b) := fun c b => V9 m (left m) c b

section
attribute [local irreducible] StableHlo.after

/-- An input array is never written: after the last point it holds what it held at entry, which the exit contents keep. -/
theorem exit2_rows (c : Dev nD) : (stages m 2 c).arrAt 0 cfg2.N = exit2 m c (Pipeline.arrRef spec2 0) := by
  show (dense2_data (entry2 m) c).arrAt 0 cfg2.N = _
  rw [(dense2_data (entry2 m) c).arrAt_in 0 rfl, dense2_A]
  exact (V9_of m (left m) c _ (by decide)).symm
theorem exit2_weight (c : Dev nD) : (stages m 2 c).arrAt 1 cfg2.N = exit2 m c (Pipeline.arrRef spec2 1) := by
  show (dense2_data (entry2 m) c).arrAt 1 cfg2.N = _
  rw [(dense2_data (entry2 m) c).arrAt_in 1 rfl, dense2_A]
  exact (V9_of m (left m) c _ (by decide)).symm
/-- The output array holds the fold of the write-backs, which is what the exit contents put there. -/
theorem exit2_out (c : Dev nD) : (stages m 2 c).arrAt 2 cfg2.N = exit2 m c (Pipeline.arrRef spec2 2) := by
  show out2 m c = Function.update (V8 m (left m) c) (Proc.devRef .tc main_v65) (left m 9 main_v65 c) (Proc.devRef .tc main_v65)
  rw [Function.update_self]
  show out2 m c = Function.update (V8 m (left1 m) c) (Proc.devRef .tc main_v65) (out2 m c) (Proc.devRef .tc main_v65)
  rw [Function.update_self]

end

/-- After the last point each of the region's arrays holds what the exit contents say. -/
theorem exit2_arrays (c : Dev nD) (w : Fin cfg2.W) : (stages m 2 c).arrAt w cfg2.N = exit2 m c (Pipeline.arrRef spec2 w) := by
  obtain ⟨i, hi⟩ := w
  have h3 : i = 0 ∨ i = 1 ∨ i = 2 := by
    have : i < 3 := hi
    omega
  rcases h3 with rfl | rfl | rfl
  · exact exit2_rows m c
  · exact exit2_weight m c
  · exact exit2_out m c

/-- Every buffer that is none of the region's arrays is left as it was found. -/
theorem exit2_rest (c : Dev nD) : ∀ b, b ∉ Finset.univ.image (Pipeline.arrRef spec2) → exit2 m c b = entry2 m c b :=
  fun b hb => V9_of m (left m) c b fun h => hb (Finset.mem_image.mpr ⟨2, Finset.mem_univ _, (List.mem_singleton.mp h).symm⟩)

set_option backward.isDefEq.respectTransparency.types false in
/-- Entering region 2: the thread state "every unscoped buffer at the entry contents, the generator register, nothing
    owed" yields the region's arrays at their entry contents, no prefetched table, the first tallies, the generator
    register (which goes into the invariant) and the unscoped buffers the region does not window (which go round it). -/
theorem enter2 (c : Dev nD) :
    iprop(StableHlo.held (c : Thread nD τ) (Pipeline.ucRefs τ sig) (V8 m (left m) c) ∗ Riding c)
      ⊢ (iprop((stages m 2 c).arrays ((stages m 2 c).arrAt · 0) ∗ Pipeline.prefHeld (pcfgs (F := F) 2).pre c (fun _ => fullShare) (adm 2).1
          ∗ (stages m 2 c).owesAt () 0 ∗ (∃ r, prngReg c r)
          ∗ Pipeline.unscopedRest (Ix := Unit) (Name := ℕ) (U := UR sig nD τ) (Lvl := ℕ) spec2 c (entry2 m c)) : sProp 𝕄) := by
  have hsplit := Pipeline.arrays_of_unscopedBufs (p := 2) (pcfgs (F := F)) adm (stages m) launch2.win launch2.arr_whole c
    ((stages m 2 c).share_full fun _ => rfl) (entry2 m c) fun _ => rfl
  rw [Pipeline.unscopedBufs_held] at hsplit
  iintro ⟨Hbufs, Hgen, Howes⟩
  ihave H := hsplit $$ Hbufs
  icases H with ⟨Harr, Hround⟩
  isplitl [Harr]; · iexact Harr
  isplitr; · unfold Pipeline.prefHeld; rw [show (Finset.univ : Finset (Fin 0)) = ∅ from rfl, BI.bigSep_empty]; iempintro
  isplitl [Howes]
  · unfold Pipeline.Dat.owesAt Pipeline.owesWithin
    icases Howes with ⟨%W, Howes⟩; iexists W; isplitr; · ipureintro; exact fun _ _ => Or.inl trivial
    iexact Howes
  isplitl [Hgen]; · iexact Hgen
  iexact Hround

set_option backward.isDefEq.respectTransparency.types false in
/-- Leaving region 2: the arrays at what the write-backs left, beside the buffers that went round the region, are
    every unscoped buffer at the exit contents; the generator register and the (empty) debt ride on. -/
theorem leave2 (c : Dev nD) :
    (iprop((stages m 2 c).arrays ((stages m 2 c).arrAt · cfg2.N) ∗ (stages m 2 c).owesAt () (Fin.last cfg2.N) ∗ (∃ r, prngReg c r)
        ∗ Pipeline.unscopedRest (Ix := Unit) (Name := ℕ) (U := UR sig nD τ) (Lvl := ℕ) spec2 c (entry2 m c)) : sProp 𝕄)
      ⊢ iprop(StableHlo.held (c : Thread nD τ) (Pipeline.ucRefs τ sig) (V9 m (left m) c) ∗ Riding c) := by
  have hjoin := Pipeline.unscopedBufs_of_arrays (p := 2) (pcfgs (F := F)) adm (Ix := Unit) (Name := ℕ) (U := UR sig nD τ) (Lvl := ℕ)
    launch2.win launch2.arr_whole c (stages m) ((stages m 2 c).share_full fun _ => rfl)
    (entry2 m c) (exit2 m c) ((stages m 2 c).arrAt · cfg2.N) (exit2_arrays m c) (exit2_rest m c)
  rw [Pipeline.unscopedBufs_held] at hjoin
  iintro ⟨Harr, Howes, Hgen, Hround⟩
  isplitl [Harr Hround]
  · iapply hjoin; isplitl [Harr] <;> iassumption
  isplitl [Hgen]; · iexact Hgen
  unfold Pipeline.Dat.owesAt Pipeline.owesWithin
  icases Howes with ⟨%W, -, Howes⟩; iexists W; iexact Howes

set_option backward.isDefEq.respectTransparency.types false in
/-- Region 2 as a segment: the launch's layout facts, no semaphore of the kernel's own, the body obligation, nothing to
    wait for, and the four entailments around the two thread states (the generator register goes into the class's
    invariant and comes back; the unwindowed buffers go round). -/
def denseSeg2 : RegionSeg (pcfgs (F := F)) adm (stages m) () defs₀ Variants.none noPairs noLevel 2 where
  win := launch2.win.to₀
  block_pos := launch2.block_pos
  stage_whole := launch2.stage_whole
  K := PEmpty
  osem k := k.elim
  ho := Pipeline.OwnSemFacts.none _
  hbody c := (dense2_obligation (entry2 m) c).loose
  hwaits := Pipeline.hwaits_of_owed_zero _ _ _ _ noPairs noLevel 2 fun _ _ => rfl
  pre c := iprop(StableHlo.held (c : Thread nD τ) (Pipeline.ucRefs τ sig) (V8 m (left m) c) ∗ Riding c)
  post c := iprop(StableHlo.held (c : Thread nD τ) (Pipeline.ucRefs τ sig) (V9 m (left m) c) ∗ Riding c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    iintro ⟨Hpre, -, -⟩
    imodintro
    iapply (enter2 m c); iexact Hpre
  hin c := by
    rw [show (stages m 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (stages m 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    iintro H
    imodintro
    iapply (leave2 m c); iexact H

/-! ## The run, given the decoder's segment -/

/-- An unscoped TensorCore buffer is among those the thread states hold. -/
theorem held_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the last stage the result array holds what region 3 left. -/
theorem last_result (c : Dev nD) : V11 m (left m) c (Proc.devRef .tc main_v85) = out3 m c := by
  show Function.update (V10 m (left m) c) (Proc.devRef .tc main_v85) (left m 11 main_v85 c) (Proc.devRef .tc main_v85) = _
  rw [Function.update_self]
  show Function.update (V10 m (left2 m) c) (Proc.devRef .tc main_v85) (out3 m c) (Proc.devRef .tc main_v85) = _
  rw [Function.update_self]

variable (ρ : Dev nD → PrngReg)

set_option backward.isDefEq.respectTransparency.types false in
/-- Every weakly fair execution of @main from memory `m` with zero counters terminates, faulting nowhere, with the result
    array at what region 3's write-backs leave (`out3`) and the nine argument arrays as launched — for ANY segment record
    of region 3 entered from the stage before it and left at the stage after it. The eleven items chain by construction:
    each host stretch's exit contents are the next item's entry contents by name. -/
theorem run_given_decoder
    (R3 : RegionSeg (pcfgs (F := F)) adm (stages m) () defs₀ Variants.none noPairs noLevel 3)
    (hpre3 : ∀ c : Dev nD, iprop(StableHlo.held (c : Thread nD τ) (Pipeline.ucRefs τ sig) (V10 m (left m) c) ∗ Riding c) ⊢ R3.pre c)
    (hpost3 : ∀ c : Dev nD, R3.post c ⊢ iprop(StableHlo.held (c : Thread nD τ) (Pipeline.ucRefs τ sig) (V11 m (left m) c) ∗ Riding c)) :
    θ_run defs (onTc (τ := τ) (main (F := F))) ⟨m, fun _ => 0, ρ⟩ (fun r => ∀ c : Dev nD,
      r.2.mem ((c.tc : Thread nD τ).loc main_v85) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_dev (pcfgs (F := F)) adm (stages m) () cellOf_inj emb₁ defs₀ Variants.none noPairs noLevel m ρ main
    (segs m (left m) Variants.none noPairs noLevel (fun _ c => Riding c) () (stages m) (denseSeg0 m) (denseSeg1 m) (denseSeg2 m) R3)
    (fun c Q => by
      rw [main_chain c, Seg.run_eq_chain]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Riding c))
    (Tₙ := fun c => iprop(StableHlo.held (c : Thread nD τ) (Pipeline.ucRefs τ sig) (V11 m (left m) c) ∗ ∃ r, prngReg c r))
    (hch := fun c => ⟨.rfl, .rfl, .rfl, .rfl, .rfl, .rfl, .rfl, .rfl, .rfl, .rfl, hpre3 c,
      (hpost3 c).trans (by
        iintro ⟨Hbufs, Hgen, Howes⟩
        isplitl [Hbufs Hgen]
        · isplitl [Hbufs] <;> iassumption
        iexact Howes)⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = V11 m (left m) c b)
    (hfin := fun c s' => by
      iintro ⟨⟨Hbufs, -⟩, HSI⟩
      unfold StableHlo.held
      imodintro
      iapply (pointsTo_read_all (Pipeline.ucRefs τ sig) (fun b => (((c : Thread nD τ)).1, b)) (V11 m (left m) c) s')
      isplitl [Hbufs] <;> iassumption)
    (hQ := fun s h c =>
      ⟨(h c _ (held_unscoped main_v85 (by decide))).trans (last_result m c),
       (h c _ (held_unscoped main_arg0 (by decide))).trans (V11_main_arg0 m (left m) c),
       (h c _ (held_unscoped main_arg1 (by decide))).trans (V11_main_arg1 m (left m) c),
       (h c _ (held_unscoped main_arg2 (by decide))).trans (V11_main_arg2 m (left m) c),
       (h c _ (held_unscoped main_arg3 (by decide))).trans (V11_main_arg3 m (left m) c),
       (h c _ (held_unscoped main_arg4 (by decide))).trans (V11_main_arg4 m (left m) c),
       (h c _ (held_unscoped main_arg5 (by decide))).trans (V11_main_arg5 m (left m) c),
       (h c _ (held_unscoped main_arg6 (by decide))).trans (V11_main_arg6 m (left m) c),
       (h c _ (held_unscoped main_arg7 (by decide))).trans (V11_main_arg7 m (left m) c),
       (h c _ (held_unscoped main_arg8 (by decide))).trans (V11_main_arg8 m (left m) c)⟩)

end Cert.Kernel.Hand

end
-- ==== Proof.K.Left.lean ====
/-
  What the family `left m` of region outputs holds at the four places the stage contents read it: at each, the fold of
  that region's write-backs over its output array (`out0 … out3`).
-/
import proofs.«115443_j80522046866107_1_alg».proof.Proof.K.Run

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

section
attribute [local irreducible] StableHlo.after

theorem left_first (c : Dev nD) : left m 4 main_v30 c = out0 m c := by
  show Function.update (V3 m c) (Proc.devRef .tc main_v30) (out0 m c) (Proc.devRef .tc main_v30) = _
  rw [Function.update_self]
theorem left_mean (c : Dev nD) : left m 7 main_v48 c = out1 m c := by
  show Function.update (V6 m (left0 m) c) (Proc.devRef .tc main_v48) (out1 m c) (Proc.devRef .tc main_v48) = _
  rw [Function.update_self]
theorem left_logdev (c : Dev nD) : left m 9 main_v65 c = out2 m c := by
  show Function.update (V8 m (left1 m) c) (Proc.devRef .tc main_v65) (out2 m c) (Proc.devRef .tc main_v65) = _
  rw [Function.update_self]
theorem left_result (c : Dev nD) : left m 11 main_v85 c = out3 m c := by
  show Function.update (V10 m (left2 m) c) (Proc.devRef .tc main_v85) (out3 m c) (Proc.devRef .tc main_v85) = _
  rw [Function.update_self]

/-- Each region's output as the proof data of that region at the stage contents over the WHOLE family. -/
theorem out0_eq (c : Dev nD) : out0 m c = (dense0_data (fun c b => V3 m c b) c).arrAt 2 cfg0.N := rfl
theorem out1_eq (c : Dev nD) : out1 m c = (dense1_data (fun c b => V6 m (left m) c b) c).arrAt 2 cfg1.N := rfl
theorem out2_eq (c : Dev nD) : out2 m c = (dense2_data (fun c b => V8 m (left m) c b) c).arrAt 2 cfg2.N := rfl
theorem out3_eq (c : Dev nD) : out3 m c = (decode_data (fun c b => V10 m (left m) c b) c).arrAt 2 cfg3.N := rfl

end

end Cert.Kernel.Hand

end
-- ==== Proof.K.Region3.lean ====
/-
  Region 3 of the kernel program, the decoder: the body's Hoare triple and the pipeline's body obligation.
  At the point (i, j) of the 8 × 8 grid the body finds the row tile i of z in window 0's staging buffer and the row
  tile j of the same z in window 1's, and stores logistic(left · rightᵀ) through the whole of window 2's staging buffer
  (it also reads that buffer once before the store; what it reads is not used). This module states, at the contents
  `V` the region is entered with, that the two input tiles sit in their staging buffers at every point — window 0 is
  refetched only when the row index i moves, and between two fetches its block does not change; window 1 is fetched
  at every point —, proves the body's triple on whole staging memrefs, and derives the body obligation at every
  point. Everything is generic in the float instance: nothing here computes.
-/
import proofs.«115443_j80522046866107_1_alg».proof.Proof.K.Region3Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The left row tile sits in its staging buffer at every point: it is fetched whenever the row index of the point
    moves, its block does not change while that index stays, and the body only reads it. -/
theorem left3_staged {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- The right row tile sits in its staging buffer at every point: it is fetched at every point, and the body only
    reads it. -/
theorem right3_staged {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

/-- The body's one store covers the output's staging buffer. -/
theorem decoded3_covers (p : Vec F S1024x1024 .f32) (y : S1024x1024.Idx) :
    ∃ pc ∈ ([⟨wholeTile3, p⟩] : List (View.Piece (Elt F) S1024x1024 .f32)), y ∈ pc.1.set :=
  View.cover_of_tiled [⟨wholeTile3, p⟩] S1024x1024.size (by rfl) y

set_option maxHeartbeats 1000000 in
/-- The body, on whole staging memrefs holding the left row tile `zm`, the right row tile `zn` and anything in the
    output's, runs to its end leaving the inputs as they were and the output's buffer at `decoded3 zm zn` (the body
    reads the output's buffer once before its store; what it reads is not used). -/
theorem decode_triple (c : Dev nD) (E : Set ℕ) (i : grid3.Coords) (arg2 : Memref sig .tc .vmem S1024x32 .f32) (harg2 : arg2.IsWhole)
    (arg3 : Memref sig .tc .vmem S1024x32 .f32) (harg3 : arg3.IsWhole) (arg4 : Memref sig .tc .vmem S1024x1024 .f32) (harg4 : arg4.IsWhole)
    (zm zn : Vec F S1024x32 .f32) (K : PUnit → sProp 𝕄) :
    iprop(owns (c : Thread nD τ) arg2 fullShare zm ∗ owns (c : Thread nD τ) arg3 fullShare zn ∗ (∃ d, owns (c : Thread nD τ) arg4 fullShare d)
        ∗ (iprop(owns (c : Thread nD τ) arg2 fullShare zm ∗ owns (c : Thread nD τ) arg3 fullShare zn ∗ owns (c : Thread nD τ) arg4 fullShare (decoded3 zm zn)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (decoded3_covers (F := F) _)

theorem decode_before_left (c : Dev nD) (t : Fin cfg3.N) (d) : (decode_data V c).before 0 t d = tile3 V c 0 t :=
  left3_staged V (decode_data V c) (decode_A V c 0) (decode_after_left V c) t d
theorem decode_before_right (c : Dev nD) (t : Fin cfg3.N) (d) : (decode_data V c).before 1 t d = tile3 V c 1 t :=
  right3_staged V (decode_data V c) (decode_A V c 1) (decode_after_right V c) t d

/-- What the body is called with at point `t`, the windows one by one, -/
def decodePre (c : Dev nD) (t : Fin cfg3.N) : sProp 𝕄 :=
  iprop((decode_data V c).Φ t.castSucc ∗ (decode_data V c).owesAt () t.castSucc
    ∗ (∃ d, owns (c : Thread nD τ) (st3_0 t) fullShare ((decode_data V c).before 0 t d))
    ∗ (∃ d, owns (c : Thread nD τ) (st3_1 t) fullShare ((decode_data V c).before 1 t d))
    ∗ (∃ d, owns (c : Thread nD τ) (st3_2 t) fullShare ((decode_data V c).before 2 t d)))

/-- and what it returns. -/
def decodePost (c : Dev nD) (t : Fin cfg3.N) : sProp 𝕄 :=
  iprop((decode_data V c).Φ t.succ ∗ (decode_data V c).owesAt () t.succ
    ∗ owns (c : Thread nD τ) (st3_0 t) fullShare ((decode_data V c).after 0 t)
    ∗ owns (c : Thread nD τ) (st3_1 t) fullShare ((decode_data V c).after 1 t)
    ∗ owns (c : Thread nD τ) (st3_2 t) fullShare ((decode_data V c).after 2 t))

/-- The body at any point: the inputs' buffers hold their tiles, so the triple applies; the invariant and what the core
    owes pass through unread. -/
theorem decode_at_point (c : Dev nD) (t : Fin cfg3.N) :
    decodePre V c t ⊢ wp frame (wpE (defs₀ (F := F)) Variants.none c none) Set.univ (bodyAt3 t) (fun _ => decodePost V c t) := by
  unfold decodePre decodePost bodyAt3
  simp only [decode_before_left, decode_before_right]
  rw [show (decode_data V c).Φ t.succ = (decode_data V c).Φ t.castSucc from rfl,
    show (decode_data V c).owesAt () t.succ = (decode_data V c).owesAt () t.castSucc from rfl,
    decode_after_left, decode_after_right, decode_after_out]
  iintro ⟨HΦ, Ho, ⟨%d0, H0⟩, ⟨%d1, H1⟩, ⟨%d2, H2⟩⟩
  iapply (decode_triple c Set.univ _ _ _ _ _ _ _ (tile3 V c 0 t) (tile3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem decode_obligation (c : Dev nD) : BodyObligation (decode_data (F := F) V c) (defs₀ (F := F)) Variants.none () Set.univ := fun t => by
  rw [bigSep_W3, bigSep_W3]
  exact decode_at_point V c t

end Cert.Kernel.Hand

end
-- ==== Proof.K.Region3Frame.lean ====
/-
  Region 3 of the kernel program, the decoder, as a segment of the whole program: how the region takes its arrays out
  of the core's unscoped buffers when it is entered and puts them back when it is left.
  The decoder reads ONE array z through two windows (the row tile i and the row tile j of the same z) and writes the
  output array through a third. The pipeline's rule holds each window's array separately, so the one buffer behind
  windows 0 and 1 cannot be handed to both outright. It is cut along its share instead: a buffer held at the full share
  is the same buffer held at the left half share and, separately, at the right half share, and conversely — reading
  needs only a positive share, and an input's array is never written, so at the exit both halves still hold the entry
  contents and recompose to the buffer held outright. Window 0 takes the left half, window 1 the right half, and the
  output's buffer is held outright throughout.
  The module proves the cut and the join for the pipeline's arrays, the entry and exit entailments between the core's
  unscoped buffers and the arrays beside the unscoped rest, and assembles the region's segment record: entered from
  every unscoped buffer at a valuation `W`, left at `W` updated at the output array with what the write-backs leave.
-/
import proofs.«115443_j80522046866107_1_alg».proof.Proof.K.Region3
import proofs.«115443_j80522046866107_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays are two: the one both input windows read, and the output's. -/
theorem arrRefs3 : Finset.univ.image (Pipeline.arrRef spec3) = {Pipeline.arrRef spec3 0, Pipeline.arrRef spec3 2} := by decide
theorem arrRef3_in_ne_out : Pipeline.arrRef spec3 0 ∉ ({Pipeline.arrRef spec3 2} : Finset (Ref sig .tc)) := by decide
/-- Window 1 reads the buffer window 0 reads. -/
theorem arrRef3_shared : Pipeline.arrRef spec3 1 = Pipeline.arrRef spec3 0 := by decide

theorem decode_share_left (c : Dev nD) : (decode_data V c).share 0 = fullShare.left := by
  unfold Dat.share; split
  · next h => exact absurd h (by decide)
  · exact decode_q_left V c
theorem decode_share_right (c : Dev nD) : (decode_data V c).share 1 = fullShare.right := by
  unfold Dat.share; split
  · next h => exact absurd h (by decide)
  · exact decode_q_right V c
theorem decode_share_out (c : Dev nD) : (decode_data V c).share 2 = fullShare := by
  unfold Dat.share; split
  · rfl
  · exact decode_q_out V c

/-- A window's array is a whole buffer: holding it through its view is holding the buffer behind it. -/
theorem decode_arr_whole (c : Dev nD) (w : Fin cfg3.W) (q : PosShare TreeShare) (g : Buf (Elt F) ((cfg3.win w).arr.view.loc (c : Thread nD τ))) :
    ((((cfg3.win w).arr.view.loc (c : Thread nD τ)) ↦[(cfg3.win w).arr.view.set]{q} g) : sProp 𝕄)
      = (((c : Thread nD τ).loc (Pipeline.arrRef spec3 w)) ↦{q} g) := by
  have h : (cfg3.win w).arr.view.set = Finset.univ := (arr_whole3 w).set_eq_univ
  rw [h]

/-- The pipeline's arrays as one conjunct per window, each the buffer behind the window at the window's share. -/
theorem decode_arrays_eq_bigSep (c : Dev nD) (G : (w : Fin cfg3.W) → Buf (Elt F) ((cfg3.win w).arr.view.loc (c : Thread nD τ))) :
    (decode_data V c).arrays G
      = (bigSep Finset.univ fun w : Fin cfg3.W => ((((c : Thread nD τ).loc (Pipeline.arrRef spec3 w)) ↦{(decode_data V c).share w} G w) : sProp 𝕄)) := by
  unfold Dat.arrays
  exact bigSep_congr fun w _ => decode_arr_whole c w _ _

/-- The three conjuncts, with their shares: the left half and the right half of the buffer both input windows read,
    and the output's buffer outright. -/
theorem decode_arrays_eq (c : Dev nD) (G : (w : Fin cfg3.W) → Buf (Elt F) ((cfg3.win w).arr.view.loc (c : Thread nD τ))) :
    (decode_data V c).arrays G
      = (iprop((((c : Thread nD τ).loc (Pipeline.arrRef spec3 0)) ↦{fullShare.left} G 0)
          ∗ (((c : Thread nD τ).loc (Pipeline.arrRef spec3 1)) ↦{fullShare.right} G 1)
          ∗ (((c : Thread nD τ).loc (Pipeline.arrRef spec3 2)) ↦{fullShare} G 2)) : sProp 𝕄) := by
  rw [decode_arrays_eq_bigSep, bigSep_W3]
  exact congrArg₂ _ (by rw [decode_share_left V c]) (congrArg₂ _ (by rw [decode_share_right V c]) (by rw [decode_share_out V c]))

/-- The two buffers, each held outright. -/
theorem decode_arrBufs_eq (c : Dev nD) (X : (b : Ref sig .tc) → Buf (Elt F) ((c : Thread nD τ).loc b)) :
    (Pipeline.arrBufs spec3 c X : sProp 𝕄)
      = iprop((((c : Thread nD τ).loc (Pipeline.arrRef spec3 0)) ↦{fullShare} X (Pipeline.arrRef spec3 0))
          ∗ (((c : Thread nD τ).loc (Pipeline.arrRef spec3 2)) ↦{fullShare} X (Pipeline.arrRef spec3 2))) := by
  unfold Pipeline.arrBufs
  rw [arrRefs3, bigSep_insert arrRef3_in_ne_out, bigSep_singleton]
  rfl

/-- A core's unscoped buffers are the two buffers behind the windows and the rest. -/
theorem decode_unscopedBufs_split (c : Dev nD) (X : (b : Ref sig .tc) → Buf (Elt F) ((c : Thread nD τ).loc b)) :
    (unscopedBufs c X : sProp 𝕄) = iprop(Pipeline.arrBufs spec3 c X ∗ Pipeline.unscopedRest spec3 c X) :=
  Pipeline.unscopedBufs_split₀ cfgs 3 winFacts₀3.arr_unscoped c X

/-- Window 1's buffer at any contents `X` is window 0's: they are one buffer. -/
theorem decode_shared_eq (c : Dev nD) (q : PosShare TreeShare) (X : (b : Ref sig .tc) → Buf (Elt F) ((c : Thread nD τ).loc b)) :
    ((((c : Thread nD τ).loc (Pipeline.arrRef spec3 1)) ↦{q} X (Pipeline.arrRef spec3 1)) : sProp 𝕄)
      = (((c : Thread nD τ).loc (Pipeline.arrRef spec3 0)) ↦{q} X (Pipeline.arrRef spec3 0)) := by
  rw [arrRef3_shared]

/-- THE CUT: the two buffers held outright are the pipeline's arrays at the same contents — the buffer both input
    windows read cut along its share, the left half to window 0 and the right half to window 1. -/
theorem decode_arrays_of_arrBufs (c : Dev nD) (X : (b : Ref sig .tc) → Buf (Elt F) ((c : Thread nD τ).loc b))
    (G : (w : Fin cfg3.W) → Buf (Elt F) ((cfg3.win w).arr.view.loc (c : Thread nD τ)))
    (h0 : G 0 = X (Pipeline.arrRef spec3 0)) (h1 : G 1 = X (Pipeline.arrRef spec3 1)) (h2 : G 2 = X (Pipeline.arrRef spec3 2)) :
    (Pipeline.arrBufs spec3 c X : sProp 𝕄) ⊢ (decode_data V c).arrays G := by
  rw [decode_arrBufs_eq, decode_arrays_eq, h0, h1, h2]
  iintro ⟨H0, H2⟩
  ihave H := (pointsTo_share (PosShare.mem_left_op_right fullShare)).1 $$ H0
  icases H with ⟨Hl, Hr⟩
  isplitl [Hl]; · iexact Hl
  isplitl [Hr]
  · iapply (Entails.of_eq (decode_shared_eq c fullShare.right X).symm)
    iexact Hr
  iexact H2

/-- THE JOIN, its converse: the pipeline's arrays at contents that are one function of the buffer (an input's array
    is never written, so both halves hold the same contents) are the two buffers held outright. -/
theorem decode_arrBufs_of_arrays (c : Dev nD) (X : (b : Ref sig .tc) → Buf (Elt F) ((c : Thread nD τ).loc b))
    (G : (w : Fin cfg3.W) → Buf (Elt F) ((cfg3.win w).arr.view.loc (c : Thread nD τ)))
    (h0 : G 0 = X (Pipeline.arrRef spec3 0)) (h1 : G 1 = X (Pipeline.arrRef spec3 1)) (h2 : G 2 = X (Pipeline.arrRef spec3 2)) :
    (decode_data V c).arrays G ⊢ (Pipeline.arrBufs spec3 c X : sProp 𝕄) := by
  rw [decode_arrBufs_eq, decode_arrays_eq, h0, h1, h2]
  iintro ⟨Hl, Hr, H2⟩
  isplitr [H2]
  · iapply (pointsTo_share (PosShare.mem_left_op_right fullShare)).2
    isplitl [Hl]; · iexact Hl
    iapply (Entails.of_eq (decode_shared_eq c fullShare.right X))
    iexact Hr
  iexact H2

/-- ENTRY, the arrays' part: a core's unscoped buffers at the entry contents are the pipeline's arrays at its proof
    data's entry contents and the unscoped rest. -/
theorem decode_arrays_of_unscopedBufs (c : Dev nD) :
    (unscopedBufs c (V c) : sProp 𝕄)
      ⊢ iprop((decode_data V c).arrays ((decode_data V c).arrAt · 0) ∗ Pipeline.unscopedRest spec3 c (V c)) := by
  rw [decode_unscopedBufs_split]
  exact sep_mono (decode_arrays_of_arrBufs V c (V c) _ (decode_A V c 0) (decode_A V c 1) (decode_A V c 2)) .rfl

theorem arrRef3_left_ne_out : Pipeline.arrRef spec3 0 ≠ Pipeline.arrRef spec3 2 := by decide
theorem arrRef3_right_ne_out : Pipeline.arrRef spec3 1 ≠ Pipeline.arrRef spec3 2 := by decide

/-- An input window's array is never written: after any number of points it holds the entry contents. -/
theorem decode_left_unwritten (c : Dev nD) (n : Nat) : (decode_data V c).arrAt 0 n = V c (Pipeline.arrRef spec3 0) :=
  ((decode_data V c).arrAt_in 0 rfl n).trans (decode_A V c 0)
theorem decode_right_unwritten (c : Dev nD) (n : Nat) : (decode_data V c).arrAt 1 n = V c (Pipeline.arrRef spec3 1) :=
  ((decode_data V c).arrAt_in 1 rfl n).trans (decode_A V c 1)

/-- The unscoped rest only reads the contents off the windows' buffers. -/
theorem decode_unscopedRest_congr (c : Dev nD) (X X' : (b : Ref sig .tc) → Buf (Elt F) ((c : Thread nD τ).loc b))
    (h : ∀ b, b ∉ Finset.univ.image (Pipeline.arrRef spec3) → X' b = X b) :
    (Pipeline.unscopedRest spec3 c X : sProp 𝕄) = Pipeline.unscopedRest spec3 c X' := by
  unfold Pipeline.unscopedRest
  exact bigSep_congr fun b hb => by rw [h b (Finset.mem_sdiff.mp hb).2]

set_option maxHeartbeats 1000000 in
/-- EXIT, the arrays' part: the pipeline's arrays at their final contents and the unscoped rest are the core's
    unscoped buffers at any contents `V'` that has the output's array at what the write-backs leave (`hout`) and
    agrees with the entry contents at every other buffer (`hrest`). -/
theorem decode_unscopedBufs_of_arrays (c : Dev nD) (V' : (b : Ref sig .tc) → Buf (Elt F) ((c : Thread nD τ).loc b))
    (hout : V' (Pipeline.arrRef spec3 2) = (decode_data V c).arrAt 2 cfg3.N)
    (hrest : ∀ b, b ≠ Pipeline.arrRef spec3 2 → V' b = V c b) :
    iprop((decode_data V c).arrays ((decode_data V c).arrAt · cfg3.N) ∗ Pipeline.unscopedRest spec3 c (V c))
      ⊢ (unscopedBufs c V' : sProp 𝕄) := by
  rw [decode_unscopedBufs_split,
    decode_unscopedRest_congr c (V c) V' fun b hb => hrest b fun e => hb (e ▸ Finset.mem_image.mpr ⟨2, Finset.mem_univ _, rfl⟩)]
  exact sep_mono (decode_arrBufs_of_arrays V c V' _
    ((decode_left_unwritten V c _).trans (hrest _ arrRef3_left_ne_out).symm)
    ((decode_right_unwritten V c _).trans (hrest _ arrRef3_right_ne_out).symm)
    hout.symm) .rfl

/-! ## The region as a segment of the program -/

/-- The entry contents of the TensorCore's buffers read off a valuation of the device's buffers. -/
abbrev entryOf (W : Dev nD → Valuation τ sig (Elt F)) : (c : Dev nD) → (b : Ref sig .tc) → Buf (Elt F) ((c : Thread nD τ).loc b) :=
  fun c b => W c b

/-- What the decoder leaves in the output array on core `c`, entered at the valuation `W`: every write-back folded. -/
def decodeOut (W : Dev nD → Valuation τ sig (Elt F)) (c : Dev nD) : Buf (Elt F) ((c : Thread nD τ).loc main_v85) :=
  (decode_data (entryOf W) c).arrAt 2 cfg3.N

/-- The valuation the region is left at: the entry valuation with the output array at what the decoder leaves. -/
def exitOf (W : Dev nD → Valuation τ sig (Elt F)) (c : Dev nD) : Valuation τ sig (Elt F) :=
  Function.update (W c) main_v85 (decodeOut W c)

theorem exitOf_out (W : Dev nD → Valuation τ sig (Elt F)) (c : Dev nD) :
    entryOf (exitOf W) c (Pipeline.arrRef spec3 2) = (decode_data (entryOf W) c).arrAt 2 cfg3.N := by
  unfold entryOf exitOf decodeOut
  exact Function.update_self _ _ _

theorem exitOf_rest (W : Dev nD → Valuation τ sig (Elt F)) (c : Dev nD) (b : Ref sig .tc) (hb : b ≠ Pipeline.arrRef spec3 2) :
    entryOf (exitOf W) c b = entryOf W c b := by
  unfold entryOf exitOf
  exact Function.update_of_ne (StableHlo.devRef_ne_of_ne hb) _ _

/-- What rides beside the buffers through the region: the core's generator register at some state, and the core owing
    nothing. -/
abbrev beside3 (c : Dev nD) : sProp 𝕄 :=
  iprop((∃ r, prngReg c r) ∗ ∃ W, owes (c : Thread nD τ) (0 : CellTallies nD τ sig Unit) W)

set_option maxHeartbeats 2000000 in
set_option backward.isDefEq.respectTransparency.types false in
/-- THE DECODER'S REGION as a segment: entered from every unscoped buffer at `W` (beside the generator register and
    nothing owed), left at `exitOf W` — `W` with the output array at what the write-backs leave. At entry the two
    buffers behind the windows are taken out of the unscoped buffers and the one both input windows read is cut in its
    half shares; at exit the halves are joined and the buffers put back. The generator register goes into the class
    invariant and comes out; nothing is owed; the kernel has no semaphore of its own. For any family of proof data
    whose fourth member is `decode_data` at `W`. -/
def decode_region (W : Dev nD → Valuation τ sig (Elt F))
    (pdats : (p : Fin 4) → (c : Dev nD) → Dat τ (Elt F) Unit ℕ (UR sig nD τ) ℕ (cfgs p) c)
    (h3 : ∀ c, pdats 3 c = decode_data (entryOf W) c) :
    Pipeline.RegionSeg (pcfgs (F := F)) Gen.adm pdats () defs₀ Variants.none (fun _ => ∅) (fun _ _ => 0) 3 where
  win := winFacts₀3
  block_pos := block_pos3
  stage_whole := stage_whole3
  K := PEmpty
  osem k := k.elim
  ho := Pipeline.OwnSemFacts.none _
  hbody c := by rw [h3 c]; exact (decode_obligation (entryOf W) c).loose
  hwaits := Pipeline.hwaits_of_owed_zero _ _ _ _ (fun _ => ∅) (fun _ _ => 0) 3 fun c t => by rw [h3 c]; rfl
  pre c := iprop(StableHlo.held (c : Thread nD τ) (Pipeline.ucRefs τ sig) (W c) ∗ beside3 c)
  post c := iprop(StableHlo.held (c : Thread nD τ) (Pipeline.ucRefs τ sig) (exitOf W c) ∗ beside3 c)
  X c := iprop(∃ r, prngReg c r)
  Y c := iprop(∃ r, prngReg c r)
  Z c := Pipeline.unscopedRest (Ix := Unit) (Name := ℕ) (U := UR sig nD τ) (Lvl := ℕ) spec3 c (entryOf W c)
  hentry c := by
    rw [Pipeline.ownSems0_none, h3 c]
    have hsplit := decode_arrays_of_unscopedBufs (entryOf W) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [h3 c, show (decode_data (entryOf W) c).Φ 0 = Pipeline.ΦA spec3 c from rfl]; unfold Pipeline.ΦA
    iintro ⟨Hp, -, Hr⟩
    isplitl [Hr]; · iexact Hr
    iexact Hp
  hout c := by
    rw [Pipeline.ownSems0_none, h3 c]
    show Pipeline.ΦA spec3 c ⊢ _
    unfold Pipeline.ΦA
    iintro ⟨Hr, Hp⟩
    isplitl [Hp]; · iexact Hp
    isplitr; · iempintro
    iexact Hr
  hexit c := by
    rw [h3 c]
    have hjoin := decode_unscopedBufs_of_arrays (entryOf W) c (entryOf (exitOf W) c) (exitOf_out W c) (exitOf_rest W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

/-- The thread states the region is entered from and left at, by name. -/
theorem decode_region_pre (W : Dev nD → Valuation τ sig (Elt F))
    (pdats : (p : Fin 4) → (c : Dev nD) → Dat τ (Elt F) Unit ℕ (UR sig nD τ) ℕ (cfgs p) c)
    (h3 : ∀ c, pdats 3 c = decode_data (entryOf W) c) (c : Dev nD) :
    (decode_region W pdats h3).pre c = iprop(StableHlo.held (c : Thread nD τ) (Pipeline.ucRefs τ sig) (W c) ∗ beside3 c) := rfl
theorem decode_region_post (W : Dev nD → Valuation τ sig (Elt F))
    (pdats : (p : Fin 4) → (c : Dev nD) → Dat τ (Elt F) Unit ℕ (UR sig nD τ) ℕ (cfgs p) c)
    (h3 : ∀ c, pdats 3 c = decode_data (entryOf W) c) (c : Dev nD) :
    (decode_region W pdats h3).post c = iprop(StableHlo.held (c : Thread nD τ) (Pipeline.ucRefs τ sig) (exitOf W c) ∗ beside3 c) := rfl
theorem exitOf_eq (W : Dev nD → Valuation τ sig (Elt F)) (c : Dev nD) :
    exitOf W c = Function.update (W c) main_v85 (decodeOut W c) := rfl

end Cert.Kernel.Hand

end
-- ==== Proof.K.Decoder.lean ====
/-
  The decoder (region 3) as a segment of @main at the stage contents, and with it the whole run: every weakly fair
  execution of @main terminates with the result array at what the decoder's sixty-four write-backs leave and the nine
  argument arrays as launched.
-/
import proofs.«115443_j80522046866107_1_alg».proof.Proof.K.Run
import proofs.«115443_j80522046866107_1_alg».proof.Proof.K.Left
import proofs.«115443_j80522046866107_1_alg».proof.Proof.K.Region3Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The fourth pipeline's proof data are the decoder's, at the contents after the last stretch of host operations. -/
theorem stage3_eq (c : Dev nD) : stages m 3 c = decode_data (entryOf (V10 m (left m))) c := rfl

/-- The decoder's segment, entered from the contents after the last stretch of host operations. -/
def decodeSeg : RegionSeg (pcfgs (F := F)) adm (stages m) () defs₀ Variants.none noPairs noLevel 3 :=
  decode_region (V10 m (left m)) (stages m) (stage3_eq m)

section
attribute [local irreducible] StableHlo.after

/-- The contents the decoder's segment is left at are the last stage's: the result array at what the write-backs leave,
    every other buffer as the decoder found it. -/
theorem decode_exit_contents (c : Dev nD) : exitOf (V10 m (left m)) c = V11 m (left m) c := by
  rw [exitOf_eq]
  show Function.update (V10 m (left m) c) (Proc.devRef .tc main_v85) (decodeOut (V10 m (left m)) c)
    = Function.update (V10 m (left m) c) (Proc.devRef .tc main_v85) (left m 11 main_v85 c)
  rw [left_result, out3_eq]
  rfl

end

/-- THE RUN of the kernel program, at any float instance: it terminates, faulting nowhere, with the result array at the
    decoder's output `out3` and every argument array as launched. -/
theorem run : θ_run defs (onTc (τ := τ) (main (F := F))) ⟨m, fun _ => 0, ρ⟩ (fun r => ∀ c : Dev nD,
      r.2.mem ((c.tc : Thread nD τ).loc main_v85) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_given_decoder m ρ (decodeSeg m)
    (fun c => Entails.of_eq (decode_region_pre (V10 m (left m)) (stages m) (stage3_eq m) c).symm)
    (fun c => (Entails.of_eq (decode_region_post (V10 m (left m)) (stages m) (stage3_eq m) c)).trans
      (Entails.of_eq (by rw [decode_exit_contents])))

end Cert.Kernel.Hand

end
-- ==== Proof.KI.Region0.lean ====
/-
  Region 0 of the kernel program: one dense product, out = x · w, computed tile by tile. The grid has 8 points;
  point t sees rows 1024·t … 1024·t + 1023 of x (window 0, fetched at every point), the whole weight w (window 1,
  fetched once, at the first point, and left in place) and writes rows 1024·t … 1024·t + 1023 of the output (window 2,
  written back at every point). This module states, at the contents `V` the region is entered with, what the body leaves
  in the output's staging buffer — the product of the point's row tile with the weight, the body's one store — and
  proves the body's Hoare triple and the pipeline's body obligation from it. Everything is generic in the float
  instance: nothing here computes.
-/
import proofs.«115443_j80522046866107_1_alg».proof.Proof.Gen.KernelIdeal.Launch
import proofs.«115443_j80522046866107_1_alg».proof.Proof.Gen.KernelIdeal.Skeleton
import proofs.«115443_j80522046866107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of window `w`'s array that point `t` sees: the block the window's index map assigns to the point,
    read off the array's contents at the region's entry. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of x sits in its staging buffer at every point: the window is fetched at every point, and the body
    only reads it. -/
theorem rows0_staged {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)

/-- The weight sits in its staging buffer at every point: it is fetched at the first point, its block is the whole
    array at every point (the index does not move), and the body only reads it. -/
theorem weight0_staged {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)

/-- The rectangles the body loads through: the whole row tile and the whole weight. -/
abbrev wholeRows0 : Rect S1024x256 := Rect.unit (s := S1024x256) ![0, 0] S1024x256.size inb_S1024x256_S1024x256_0_0
abbrev wholeWeight0 : Rect S256x64 := Rect.unit (s := S256x64) ![0, 0] S256x64.size inb_S256x64_S256x64_0_0

/-- The one rectangle the body stores through: the whole output tile. -/
abbrev wholeTile0 : Rect S1024x64 := Rect.unit (s := S1024x64) ![0, 0] S1024x64.size inb_S1024x64_S1024x64_0_0

/-- What the body leaves in the output's staging buffer: its one store, of the product of the row tile `x` with the
    weight `w` (the two operands rounded to bf16 first, the accumulator starting at zero), through the whole tile. -/
def prod0 (x : Vec F S1024x256 .f32) (w : Vec F S256x64 .f32) : Vec F S1024x64 .f32 :=
  View.canon [⟨wholeTile0, k0_pay1 (View.ld x wholeRows0) (View.ld w wholeWeight0)⟩]

/-- That store covers the buffer. -/
theorem prod0_covers (p : Vec F S1024x64 .f32) (y : S1024x64.Idx) :
    ∃ pc ∈ ([⟨wholeTile0, p⟩] : List (View.Piece (Elt F) S1024x64 .f32)), y ∈ pc.1.set :=
  View.cover_of_tiled [⟨wholeTile0, p⟩] S1024x64.size (by rfl) y

set_option maxHeartbeats 1000000 in
/-- The body, on whole staging memrefs holding the row tile `x`, the weight `w` and anything in the output's, runs to
    its end leaving the inputs as they were and the output's buffer at `prod0 x w`. -/
theorem dense0_triple (c : Dev nD) (E : Set ℕ) (i : grid0.Coords) (arg1 : Memref sig .tc .vmem S1024x256 .f32) (harg1 : arg1.IsWhole)
    (arg2 : Memref sig .tc .vmem S256x64 .f32) (harg2 : arg2.IsWhole) (arg3 : Memref sig .tc .vmem S1024x64 .f32) (harg3 : arg3.IsWhole)
    (x : Vec F S1024x256 .f32) (w : Vec F S256x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod0 x w)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod0_covers (F := F) _)

/-- The pipeline's proof data at entry contents `V`: the arrays as found; after the body at point `t` the two inputs'
    buffers still hold their tiles and the output's holds the product of the point's row tile with the weight; the
    invariant is the scoped rest and the generator register, untouched; nothing is owed; every share is whole. -/
def dense0_data (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => prod0 (tile0 V c 0 t) (tile0 V c 1 t)
  Φ _ := Pipeline.ΦA spec0 c
  q _ := fullShare
  owed _ := 0

theorem dense0_A (c : Dev nD) (w : Fin cfg0.W) : (dense0_data V c).A w = V c (Pipeline.arrRef spec0 w) := by
  dsimp only [dense0_data]
theorem dense0_after_rows (c : Dev nD) (t : Fin cfg0.N) : (dense0_data V c).after 0 t = tile0 V c 0 t := by dsimp only [dense0_data]
theorem dense0_after_weight (c : Dev nD) (t : Fin cfg0.N) : (dense0_data V c).after 1 t = tile0 V c 1 t := by dsimp only [dense0_data]
theorem dense0_after_out (c : Dev nD) (t : Fin cfg0.N) :
    (dense0_data V c).after 2 t = prod0 (tile0 V c 0 t) (tile0 V c 1 t) := by dsimp only [dense0_data]
theorem dense0_before_rows (c : Dev nD) (t : Fin cfg0.N) (d) : (dense0_data V c).before 0 t d = tile0 V c 0 t :=
  rows0_staged V (dense0_data V c) (dense0_A V c 0) (dense0_after_rows V c) t d
theorem dense0_before_weight (c : Dev nD) (t : Fin cfg0.N) (d) : (dense0_data V c).before 1 t d = tile0 V c 1 t :=
  weight0_staged V (dense0_data V c) (dense0_A V c 1) (dense0_after_weight V c) t d

/-- What the body is called with at point `t`, the windows one by one, -/
def densePre0 (c : Dev nD) (t : Fin cfg0.N) : sProp 𝕄 :=
  iprop((dense0_data V c).Φ t.castSucc ∗ (dense0_data V c).owesAt () t.castSucc
    ∗ (∃ d, owns (c : Thread nD τ) (st0_0 t) fullShare ((dense0_data V c).before 0 t d))
    ∗ (∃ d, owns (c : Thread nD τ) (st0_1 t) fullShare ((dense0_data V c).before 1 t d))
    ∗ (∃ d, owns (c : Thread nD τ) (st0_2 t) fullShare ((dense0_data V c).before 2 t d)))

/-- and what it returns. -/
def densePost0 (c : Dev nD) (t : Fin cfg0.N) : sProp 𝕄 :=
  iprop((dense0_data V c).Φ t.succ ∗ (dense0_data V c).owesAt () t.succ
    ∗ owns (c : Thread nD τ) (st0_0 t) fullShare ((dense0_data V c).after 0 t)
    ∗ owns (c : Thread nD τ) (st0_1 t) fullShare ((dense0_data V c).after 1 t)
    ∗ owns (c : Thread nD τ) (st0_2 t) fullShare ((dense0_data V c).after 2 t))

/-- The body at any point: the inputs' buffers hold their tiles, so the triple applies; the invariant and what the core
    owes pass through unread. -/
theorem dense0_at_point (c : Dev nD) (t : Fin cfg0.N) :
    densePre0 V c t ⊢ wp frame (wpE (defs₀ (F := F)) Variants.none c none) Set.univ (bodyAt0 t) (fun _ => densePost0 V c t) := by
  unfold densePre0 densePost0 bodyAt0
  simp only [dense0_before_rows, dense0_before_weight]
  rw [show (dense0_data V c).Φ t.succ = (dense0_data V c).Φ t.castSucc from rfl,
    show (dense0_data V c).owesAt () t.succ = (dense0_data V c).owesAt () t.castSucc from rfl,
    dense0_after_rows, dense0_after_weight, dense0_after_out]
  iintro ⟨HΦ, Ho, ⟨%d0, H0⟩, ⟨%d1, H1⟩, ⟨%d2, H2⟩⟩
  iapply (dense0_triple c Set.univ _ _ _ _ _ _ _ (tile0 V c 0 t) (tile0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem dense0_obligation (c : Dev nD) : BodyObligation (dense0_data (F := F) V c) (defs₀ (F := F)) Variants.none () Set.univ := fun t => by
  rw [bigSep_W0, bigSep_W0]
  exact dense0_at_point V c t

end Cert.KernelIdeal.Hand

end
-- ==== Proof.KI.Region1.lean ====
/-
  Region 1 of the kernel program: one dense product, out = x · w, computed tile by tile. The grid has 8 points;
  point t sees rows 1024·t … 1024·t + 1023 of x (window 0, fetched at every point), the whole weight w (window 1,
  fetched once, at the first point, and left in place) and writes rows 1024·t … 1024·t + 1023 of the output (window 2,
  written back at every point). This module states, at the contents `V` the region is entered with, what the body leaves
  in the output's staging buffer — the product of the point's row tile with the weight, the body's one store — and
  proves the body's Hoare triple and the pipeline's body obligation from it. Everything is generic in the float
  instance: nothing here computes.
-/
import proofs.«115443_j80522046866107_1_alg».proof.Proof.Gen.KernelIdeal.Launch
import proofs.«115443_j80522046866107_1_alg».proof.Proof.Gen.KernelIdeal.Skeleton
import proofs.«115443_j80522046866107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of window `w`'s array that point `t` sees: the block the window's index map assigns to the point,
    read off the array's contents at the region's entry. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row tile of x sits in its staging buffer at every point: the window is fetched at every point, and the body
    only reads it. -/
theorem rows1_staged {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The weight sits in its staging buffer at every point: it is fetched at the first point, its block is the whole
    array at every point (the index does not move), and the body only reads it. -/
theorem weight1_staged {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)

/-- The rectangles the body loads through: the whole row tile and the whole weight. -/
abbrev wholeRows1 : Rect S1024x64 := Rect.unit (s := S1024x64) ![0, 0] S1024x64.size inb_S1024x64_S1024x64_0_0
abbrev wholeWeight1 : Rect S64x32 := Rect.unit (s := S64x32) ![0, 0] S64x32.size inb_S64x32_S64x32_0_0

/-- The one rectangle the body stores through: the whole output tile. -/
abbrev wholeTile1 : Rect S1024x32 := Rect.unit (s := S1024x32) ![0, 0] S1024x32.size inb_S1024x32_S1024x32_0_0

/-- What the body leaves in the output's staging buffer: its one store, of the product of the row tile `x` with the
    weight `w` (the two operands rounded to bf16 first, the accumulator starting at zero), through the whole tile. -/
def prod1 (x : Vec F S1024x64 .f32) (w : Vec F S64x32 .f32) : Vec F S1024x32 .f32 :=
  View.canon [⟨wholeTile1, k1_pay1 (View.ld x wholeRows1) (View.ld w wholeWeight1)⟩]

/-- That store covers the buffer. -/
theorem prod1_covers (p : Vec F S1024x32 .f32) (y : S1024x32.Idx) :
    ∃ pc ∈ ([⟨wholeTile1, p⟩] : List (View.Piece (Elt F) S1024x32 .f32)), y ∈ pc.1.set :=
  View.cover_of_tiled [⟨wholeTile1, p⟩] S1024x32.size (by rfl) y

set_option maxHeartbeats 1000000 in
/-- The body, on whole staging memrefs holding the row tile `x`, the weight `w` and anything in the output's, runs to
    its end leaving the inputs as they were and the output's buffer at `prod1 x w`. -/
theorem dense1_triple (c : Dev nD) (E : Set ℕ) (i : grid1.Coords) (arg1 : Memref sig .tc .vmem S1024x64 .f32) (harg1 : arg1.IsWhole)
    (arg2 : Memref sig .tc .vmem S64x32 .f32) (harg2 : arg2.IsWhole) (arg3 : Memref sig .tc .vmem S1024x32 .f32) (harg3 : arg3.IsWhole)
    (x : Vec F S1024x64 .f32) (w : Vec F S64x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod1 x w)) -∗ K ⟨⟩))
      ⊢ wp frame (wpE (defs₀ (F := F)) Variants.none c none) E (cc1__dense_kernel i arg1 harg1 arg2 harg2 arg3 harg3) K := by
  simp only [cc1__dense_kernel_eq_skeleton]; unfold cc1__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod1_covers (F := F) _)

/-- The pipeline's proof data at entry contents `V`: the arrays as found; after the body at point `t` the two inputs'
    buffers still hold their tiles and the output's holds the product of the point's row tile with the weight; the
    invariant is the scoped rest and the generator register, untouched; nothing is owed; every share is whole. -/
def dense1_data (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => prod1 (tile1 V c 0 t) (tile1 V c 1 t)
  Φ _ := Pipeline.ΦA spec1 c
  q _ := fullShare
  owed _ := 0

theorem dense1_A (c : Dev nD) (w : Fin cfg1.W) : (dense1_data V c).A w = V c (Pipeline.arrRef spec1 w) := by
  dsimp only [dense1_data]
theorem dense1_after_rows (c : Dev nD) (t : Fin cfg1.N) : (dense1_data V c).after 0 t = tile1 V c 0 t := by dsimp only [dense1_data]
theorem dense1_after_weight (c : Dev nD) (t : Fin cfg1.N) : (dense1_data V c).after 1 t = tile1 V c 1 t := by dsimp only [dense1_data]
theorem dense1_after_out (c : Dev nD) (t : Fin cfg1.N) :
    (dense1_data V c).after 2 t = prod1 (tile1 V c 0 t) (tile1 V c 1 t) := by dsimp only [dense1_data]
theorem dense1_before_rows (c : Dev nD) (t : Fin cfg1.N) (d) : (dense1_data V c).before 0 t d = tile1 V c 0 t :=
  rows1_staged V (dense1_data V c) (dense1_A V c 0) (dense1_after_rows V c) t d
theorem dense1_before_weight (c : Dev nD) (t : Fin cfg1.N) (d) : (dense1_data V c).before 1 t d = tile1 V c 1 t :=
  weight1_staged V (dense1_data V c) (dense1_A V c 1) (dense1_after_weight V c) t d

/-- What the body is called with at point `t`, the windows one by one, -/
def densePre1 (c : Dev nD) (t : Fin cfg1.N) : sProp 𝕄 :=
  iprop((dense1_data V c).Φ t.castSucc ∗ (dense1_data V c).owesAt () t.castSucc
    ∗ (∃ d, owns (c : Thread nD τ) (st1_0 t) fullShare ((dense1_data V c).before 0 t d))
    ∗ (∃ d, owns (c : Thread nD τ) (st1_1 t) fullShare ((dense1_data V c).before 1 t d))
    ∗ (∃ d, owns (c : Thread nD τ) (st1_2 t) fullShare ((dense1_data V c).before 2 t d)))

/-- and what it returns. -/
def densePost1 (c : Dev nD) (t : Fin cfg1.N) : sProp 𝕄 :=
  iprop((dense1_data V c).Φ t.succ ∗ (dense1_data V c).owesAt () t.succ
    ∗ owns (c : Thread nD τ) (st1_0 t) fullShare ((dense1_data V c).after 0 t)
    ∗ owns (c : Thread nD τ) (st1_1 t) fullShare ((dense1_data V c).after 1 t)
    ∗ owns (c : Thread nD τ) (st1_2 t) fullShare ((dense1_data V c).after 2 t))

/-- The body at any point: the inputs' buffers hold their tiles, so the triple applies; the invariant and what the core
    owes pass through unread. -/
theorem dense1_at_point (c : Dev nD) (t : Fin cfg1.N) :
    densePre1 V c t ⊢ wp frame (wpE (defs₀ (F := F)) Variants.none c none) Set.univ (bodyAt1 t) (fun _ => densePost1 V c t) := by
  unfold densePre1 densePost1 bodyAt1
  simp only [dense1_before_rows, dense1_before_weight]
  rw [show (dense1_data V c).Φ t.succ = (dense1_data V c).Φ t.castSucc from rfl,
    show (dense1_data V c).owesAt () t.succ = (dense1_data V c).owesAt () t.castSucc from rfl,
    dense1_after_rows, dense1_after_weight, dense1_after_out]
  iintro ⟨HΦ, Ho, ⟨%d0, H0⟩, ⟨%d1, H1⟩, ⟨%d2, H2⟩⟩
  iapply (dense1_triple c Set.univ _ _ _ _ _ _ _ (tile1 V c 0 t) (tile1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem dense1_obligation (c : Dev nD) : BodyObligation (dense1_data (F := F) V c) (defs₀ (F := F)) Variants.none () Set.univ := fun t => by
  rw [bigSep_W1, bigSep_W1]
  exact dense1_at_point V c t

end Cert.KernelIdeal.Hand

end
-- ==== Proof.KI.Region2.lean ====
/-
  Region 2 of the kernel program: one dense product, out = x · w, computed tile by tile. The grid has 8 points;
  point t sees rows 1024·t … 1024·t + 1023 of x (window 0, fetched at every point), the whole weight w (window 1,
  fetched once, at the first point, and left in place) and writes rows 1024·t … 1024·t + 1023 of the output (window 2,
  written back at every point). This module states, at the contents `V` the region is entered with, what the body leaves
  in the output's staging buffer — the product of the point's row tile with the weight, the body's one store — and
  proves the body's Hoare triple and the pipeline's body obligation from it. Everything is generic in the float
  instance: nothing here computes.
-/
import proofs.«115443_j80522046866107_1_alg».proof.Proof.Gen.KernelIdeal.Launch
import proofs.«115443_j80522046866107_1_alg».proof.Proof.Gen.KernelIdeal.Skeleton
import proofs.«115443_j80522046866107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of window `w`'s array that point `t` sees: the block the window's index map assigns to the point,
    read off the array's contents at the region's entry. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile of x sits in its staging buffer at every point: the window is fetched at every point, and the body
    only reads it. -/
theorem rows2_staged {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)

/-- The weight sits in its staging buffer at every point: it is fetched at the first point, its block is the whole
    array at every point (the index does not move), and the body only reads it. -/
theorem weight2_staged {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)

/-- The rectangles the body loads through: the whole row tile and the whole weight. -/
abbrev wholeRows2 : Rect S1024x64 := Rect.unit (s := S1024x64) ![0, 0] S1024x64.size inb_S1024x64_S1024x64_0_0
abbrev wholeWeight2 : Rect S64x32 := Rect.unit (s := S64x32) ![0, 0] S64x32.size inb_S64x32_S64x32_0_0

/-- The one rectangle the body stores through: the whole output tile. -/
abbrev wholeTile2 : Rect S1024x32 := Rect.unit (s := S1024x32) ![0, 0] S1024x32.size inb_S1024x32_S1024x32_0_0

/-- What the body leaves in the output's staging buffer: its one store, of the product of the row tile `x` with the
    weight `w` (the two operands rounded to bf16 first, the accumulator starting at zero), through the whole tile. -/
def prod2 (x : Vec F S1024x64 .f32) (w : Vec F S64x32 .f32) : Vec F S1024x32 .f32 :=
  View.canon [⟨wholeTile2, k2_pay1 (View.ld x wholeRows2) (View.ld w wholeWeight2)⟩]

/-- That store covers the buffer. -/
theorem prod2_covers (p : Vec F S1024x32 .f32) (y : S1024x32.Idx) :
    ∃ pc ∈ ([⟨wholeTile2, p⟩] : List (View.Piece (Elt F) S1024x32 .f32)), y ∈ pc.1.set :=
  View.cover_of_tiled [⟨wholeTile2, p⟩] S1024x32.size (by rfl) y

set_option maxHeartbeats 1000000 in
/-- The body, on whole staging memrefs holding the row tile `x`, the weight `w` and anything in the output's, runs to
    its end leaving the inputs as they were and the output's buffer at `prod2 x w`. -/
theorem dense2_triple (c : Dev nD) (E : Set ℕ) (i : grid2.Coords) (arg1 : Memref sig .tc .vmem S1024x64 .f32) (harg1 : arg1.IsWhole)
    (arg2 : Memref sig .tc .vmem S64x32 .f32) (harg2 : arg2.IsWhole) (arg3 : Memref sig .tc .vmem S1024x32 .f32) (harg3 : arg3.IsWhole)
    (x : Vec F S1024x64 .f32) (w : Vec F S64x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (prod2 x w)) -∗ K ⟨⟩))
      ⊢ wp frame (wpE (defs₀ (F := F)) Variants.none c none) E (cc2__dense_kernel i arg1 harg1 arg2 harg2 arg3 harg3) K := by
  simp only [cc2__dense_kernel_eq_skeleton]; unfold cc2__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod2_covers (F := F) _)

/-- The pipeline's proof data at entry contents `V`: the arrays as found; after the body at point `t` the two inputs'
    buffers still hold their tiles and the output's holds the product of the point's row tile with the weight; the
    invariant is the scoped rest and the generator register, untouched; nothing is owed; every share is whole. -/
def dense2_data (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => prod2 (tile2 V c 0 t) (tile2 V c 1 t)
  Φ _ := Pipeline.ΦA spec2 c
  q _ := fullShare
  owed _ := 0

theorem dense2_A (c : Dev nD) (w : Fin cfg2.W) : (dense2_data V c).A w = V c (Pipeline.arrRef spec2 w) := by
  dsimp only [dense2_data]
theorem dense2_after_rows (c : Dev nD) (t : Fin cfg2.N) : (dense2_data V c).after 0 t = tile2 V c 0 t := by dsimp only [dense2_data]
theorem dense2_after_weight (c : Dev nD) (t : Fin cfg2.N) : (dense2_data V c).after 1 t = tile2 V c 1 t := by dsimp only [dense2_data]
theorem dense2_after_out (c : Dev nD) (t : Fin cfg2.N) :
    (dense2_data V c).after 2 t = prod2 (tile2 V c 0 t) (tile2 V c 1 t) := by dsimp only [dense2_data]
theorem dense2_before_rows (c : Dev nD) (t : Fin cfg2.N) (d) : (dense2_data V c).before 0 t d = tile2 V c 0 t :=
  rows2_staged V (dense2_data V c) (dense2_A V c 0) (dense2_after_rows V c) t d
theorem dense2_before_weight (c : Dev nD) (t : Fin cfg2.N) (d) : (dense2_data V c).before 1 t d = tile2 V c 1 t :=
  weight2_staged V (dense2_data V c) (dense2_A V c 1) (dense2_after_weight V c) t d

/-- What the body is called with at point `t`, the windows one by one, -/
def densePre2 (c : Dev nD) (t : Fin cfg2.N) : sProp 𝕄 :=
  iprop((dense2_data V c).Φ t.castSucc ∗ (dense2_data V c).owesAt () t.castSucc
    ∗ (∃ d, owns (c : Thread nD τ) (st2_0 t) fullShare ((dense2_data V c).before 0 t d))
    ∗ (∃ d, owns (c : Thread nD τ) (st2_1 t) fullShare ((dense2_data V c).before 1 t d))
    ∗ (∃ d, owns (c : Thread nD τ) (st2_2 t) fullShare ((dense2_data V c).before 2 t d)))

/-- and what it returns. -/
def densePost2 (c : Dev nD) (t : Fin cfg2.N) : sProp 𝕄 :=
  iprop((dense2_data V c).Φ t.succ ∗ (dense2_data V c).owesAt () t.succ
    ∗ owns (c : Thread nD τ) (st2_0 t) fullShare ((dense2_data V c).after 0 t)
    ∗ owns (c : Thread nD τ) (st2_1 t) fullShare ((dense2_data V c).after 1 t)
    ∗ owns (c : Thread nD τ) (st2_2 t) fullShare ((dense2_data V c).after 2 t))

/-- The body at any point: the inputs' buffers hold their tiles, so the triple applies; the invariant and what the core
    owes pass through unread. -/
theorem dense2_at_point (c : Dev nD) (t : Fin cfg2.N) :
    densePre2 V c t ⊢ wp frame (wpE (defs₀ (F := F)) Variants.none c none) Set.univ (bodyAt2 t) (fun _ => densePost2 V c t) := by
  unfold densePre2 densePost2 bodyAt2
  simp only [dense2_before_rows, dense2_before_weight]
  rw [show (dense2_data V c).Φ t.succ = (dense2_data V c).Φ t.castSucc from rfl,
    show (dense2_data V c).owesAt () t.succ = (dense2_data V c).owesAt () t.castSucc from rfl,
    dense2_after_rows, dense2_after_weight, dense2_after_out]
  iintro ⟨HΦ, Ho, ⟨%d0, H0⟩, ⟨%d1, H1⟩, ⟨%d2, H2⟩⟩
  iapply (dense2_triple c Set.univ _ _ _ _ _ _ _ (tile2 V c 0 t) (tile2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem dense2_obligation (c : Dev nD) : BodyObligation (dense2_data (F := F) V c) (defs₀ (F := F)) Variants.none () Set.univ := fun t => by
  rw [bigSep_W2, bigSep_W2]
  exact dense2_at_point V c t

end Cert.KernelIdeal.Hand

end
-- ==== Proof.KI.Region3Data.lean ====
/-
  Region 3 of the kernel program: the decoder. One array z (8192 rows of 32 numbers) is read through TWO windows:
  window 0 hands the body the row tile 1024·i … 1024·i + 1023 of z, window 1 the row tile 1024·j … 1024·j + 1023 of the
  same z, at the point (i, j) of an 8 × 8 grid; window 2 is the 1024 × 1024 tile (i, j) of the output, written back at
  every point. The body stores logistic(left · rightᵀ) (both operands rounded to bf16 first, the accumulator starting
  at zero) through the whole output tile. This module holds the definitions only: the tile a window sees at a point,
  what the body leaves in the output's staging buffer, and the pipeline's proof data at the contents `V` the region is
  entered with. Because the two input windows read ONE buffer, neither can hold it outright: the buffer's full share
  is cut in its two halves, window 0 holding the left half and window 1 the right half (reading needs any positive
  share; the halves recompose to the full share when the region is left).
-/
import proofs.«115443_j80522046866107_1_alg».proof.Proof.Gen.KernelIdeal.Launch
import proofs.«115443_j80522046866107_1_alg».proof.Proof.Gen.KernelIdeal.Skeleton
import proofs.«115443_j80522046866107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The part of window `w`'s array that point `t` sees: the block the window's index map assigns to the point,
    read off the array's contents at the region's entry. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rectangle the body loads each input tile through: the whole 1024 × 32 tile. -/
abbrev wholeRows3 : Rect S1024x32 := Rect.unit (s := S1024x32) ![0, 0] S1024x32.size inb_S1024x32_S1024x32_0_0

/-- The one rectangle the body stores through: the whole 1024 × 1024 output tile. -/
abbrev wholeTile3 : Rect S1024x1024 := Rect.unit (s := S1024x1024) ![0, 0] S1024x1024.size inb_S1024x1024_S1024x1024_0_0

/-- What the body leaves in the output's staging buffer: its one store, of logistic(left · rightᵀ) — the left row tile
    `zm` and the right row tile `zn` each loaded through its whole rectangle and rounded to bf16, the right one
    transposed, the accumulator starting at zero — through the whole output tile. -/
def decoded3 (zm zn : Vec F S1024x32 .f32) : Vec F S1024x1024 .f32 :=
  View.canon [⟨wholeTile3, k3_pay1 (View.ld zm wholeRows3) (View.ld zn wholeRows3)⟩]

/-- The pipeline's proof data at entry contents `V`: the arrays as found; after the body at point `t` the two inputs'
    buffers still hold their tiles and the output's holds `decoded3` of them; the invariant is the scoped rest and the
    generator register, untouched; nothing is owed. The two input windows read one buffer: window 0 holds the left
    half of its full share and window 1 the right half (the output's array is held outright whatever is said here). -/
def decode_data (c : Dev nD) : Dat τ (Elt F) Unit ℕ (UR sig nD τ) ℕ cfg3 c where
  A w := V c (Pipeline.arrRef spec3 w)
  after w t := match w with
    | ⟨0, _⟩ => tile3 V c 0 t
    | ⟨1, _⟩ => tile3 V c 1 t
    | ⟨2, _⟩ => decoded3 (tile3 V c 0 t) (tile3 V c 1 t)
  Φ _ := Pipeline.ΦA spec3 c
  q w := match w with
    | ⟨0, _⟩ => fullShare.left
    | ⟨1, _⟩ => fullShare.right
    | ⟨2, _⟩ => fullShare
  owed _ := 0

theorem decode_A (c : Dev nD) (w : Fin cfg3.W) : (decode_data V c).A w = V c (Pipeline.arrRef spec3 w) := by
  dsimp only [decode_data]
theorem decode_after_left (c : Dev nD) (t : Fin cfg3.N) : (decode_data V c).after 0 t = tile3 V c 0 t := by dsimp only [decode_data]
theorem decode_after_right (c : Dev nD) (t : Fin cfg3.N) : (decode_data V c).after 1 t = tile3 V c 1 t := by dsimp only [decode_data]
theorem decode_after_out (c : Dev nD) (t : Fin cfg3.N) :
    (decode_data V c).after 2 t = decoded3 (tile3 V c 0 t) (tile3 V c 1 t) := by dsimp only [decode_data]

/-- The shares: the left half, the right half, and (unread) the whole. -/
theorem decode_q_left (c : Dev nD) : (decode_data V c).q 0 = fullShare.left := by dsimp only [decode_data]
theorem decode_q_right (c : Dev nD) : (decode_data V c).q 1 = fullShare.right := by dsimp only [decode_data]
theorem decode_q_out (c : Dev nD) : (decode_data V c).q 2 = fullShare := by dsimp only [decode_data]

/-- Nothing is owed at any point. -/
theorem decode_owed (c : Dev nD) (t : Fin (cfg3.N + 1)) : (decode_data V c).owed t = 0 := rfl

end Cert.KernelIdeal.Hand

end
-- ==== Proof.KI.Run.lean ====
/-
  The kernel program's run, segment by segment. @main is eleven items: three stretches of host operations (the edge
  lists with their self loops, the degrees and the normalisation coefficients), the first dense product (region 0), two
  stretches (gather, scale, scatter-add, bias; the rectifier), the two heads' dense products (regions 1 and 2) each
  followed or preceded by its stretch of host operations, and the decoder (region 3). Between two items every unscoped
  buffer of a TensorCore is held whole at known contents: the launch memory, then what each stretch of host operations
  computes from them, then — after a region — the same contents with the region's output array replaced by what the
  region's write-backs leave. This module defines those contents stage by stage, gives regions 0, 1 and 2 as segments
  (their arrays split out of the unscoped buffers at entry and put back at exit), and proves that @main runs to its end
  with the result array and the nine argument arrays at the last stage's contents, GIVEN the decoder's segment.
-/
import proofs.«115443_j80522046866107_1_alg».proof.Proof.Gen.KernelIdeal.Regions
import proofs.«115443_j80522046866107_1_alg».proof.Proof.KI.Region0
import proofs.«115443_j80522046866107_1_alg».proof.Proof.KI.Region1
import proofs.«115443_j80522046866107_1_alg».proof.Proof.KI.Region2
import proofs.«115443_j80522046866107_1_alg».proof.Proof.KI.Region3Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave, stage by stage

The contents between two items are the generated valuations `V0 … V11`, which are written over an unknown family
`outs` read only at the four places "what region K leaves in its output array". The family is defined here one region
at a time: each region's entry contents only read what the earlier regions left. -/

/-- What region 0 leaves in `main_v30`: the fold of its eight write-backs over the array as found. -/
def out0 (c : Dev nD) : Buf (Elt F) ((c : Thread nD τ).loc main_v30) :=
  (dense0_data (fun c b => V3 m c b) c).arrAt 2 cfg0.N
/-- The family after region 0. -/
def left0 : Outs (F := F) := fun _ r c => Function.update (V3 m c) (Proc.devRef .tc main_v30) (out0 m c) (Proc.devRef .tc r)

/-- What region 1 leaves in `main_v48`. -/
def out1 (c : Dev nD) : Buf (Elt F) ((c : Thread nD τ).loc main_v48) :=
  (dense1_data (fun c b => V6 m (left0 m) c b) c).arrAt 2 cfg1.N
/-- The family after regions 0 and 1. -/
def left1 : Outs (F := F) := fun J r c => match J with
  | 4 => left0 m 4 r c
  | _ => Function.update (V6 m (left0 m) c) (Proc.devRef .tc main_v48) (out1 m c) (Proc.devRef .tc r)

/-- What region 2 leaves in `main_v65`. -/
def out2 (c : Dev nD) : Buf (Elt F) ((c : Thread nD τ).loc main_v65) :=
  (dense2_data (fun c b => V8 m (left1 m) c b) c).arrAt 2 cfg2.N
/-- The family after regions 0, 1 and 2. -/
def left2 : Outs (F := F) := fun J r c => match J with
  | 4 => left0 m 4 r c
  | 7 => left1 m 7 r c
  | _ => Function.update (V8 m (left1 m) c) (Proc.devRef .tc main_v65) (out2 m c) (Proc.devRef .tc r)

/-- What region 3 leaves in `main_v85`: the program's result. -/
def out3 (c : Dev nD) : Buf (Elt F) ((c : Thread nD τ).loc main_v85) :=
  (decode_data (fun c b => V10 m (left2 m) c b) c).arrAt 2 cfg3.N
/-- The whole family. -/
def left : Outs (F := F) := fun J r c => match J with
  | 4 => left0 m 4 r c
  | 7 => left1 m 7 r c
  | 9 => left2 m 9 r c
  | _ => Function.update (V10 m (left2 m) c) (Proc.devRef .tc main_v85) (out3 m c) (Proc.devRef .tc r)

/-- The earlier stages do not read what the later regions leave. -/
theorem V6_left (c : Dev nD) : V6 m (left m) c = V6 m (left0 m) c := rfl
theorem V8_left (c : Dev nD) : V8 m (left m) c = V8 m (left1 m) c := rfl
theorem V10_left (c : Dev nD) : V10 m (left m) c = V10 m (left2 m) c := rfl

/-- Every pipeline's proof data, each at its region's entry contents. -/
def stages : (p : Fin 4) → (c : Dev nD) → Dat τ (Elt F) Unit ℕ (UR sig nD τ) ℕ (cfgs p) c
  | ⟨0, _⟩ => fun c => dense0_data (fun c b => V3 m c b) c
  | ⟨1, _⟩ => fun c => dense1_data (fun c b => V6 m (left m) c b) c
  | ⟨2, _⟩ => fun c => dense2_data (fun c b => V8 m (left m) c b) c
  | ⟨3, _⟩ => fun c => decode_data (fun c b => V10 m (left m) c b) c

/-- No core owes another anything: no pair carries a level. -/
abbrev noPairs : GSem nD τ sig → Finset Unit := fun _ => ∅
abbrev noLevel : GSem nD τ sig → Unit → ℕ := fun _ _ => 0

/-- What rides beside the buffers through every item: the core's generator register at some state, and its debts: none. -/
abbrev Riding (c : Dev nD) : sProp 𝕄 := iprop((∃ r, prngReg c r) ∗ ∃ W, owes (c : Thread nD τ) (0 : CellTallies nD τ sig Unit) W)

/-! ## Region 0 as a segment of @main -/

/-- The TensorCore's buffers when region 0 is entered, and when it is left. -/
abbrev entry0 : (c : Dev nD) → (b : Ref sig .tc) → Buf (Elt F) ((c : Thread nD τ).loc b) := fun c b => V3 m c b
abbrev exit0 : (c : Dev nD) → (b : Ref sig .tc) → Buf (Elt F) ((c : Thread nD τ).loc b) := fun c b => V4 m (left m) c b

section
attribute [local irreducible] StableHlo.after

/-- An input array is never written: after the last point it holds what it held at entry, which the exit contents keep. -/
theorem exit0_rows (c : Dev nD) : (stages m 0 c).arrAt 0 cfg0.N = exit0 m c (Pipeline.arrRef spec0 0) := by
  show (dense0_data (entry0 m) c).arrAt 0 cfg0.N = _
  rw [(dense0_data (entry0 m) c).arrAt_in 0 rfl, dense0_A]
  exact (V4_of m (left m) c _ (by decide)).symm
theorem exit0_weight (c : Dev nD) : (stages m 0 c).arrAt 1 cfg0.N = exit0 m c (Pipeline.arrRef spec0 1) := by
  show (dense0_data (entry0 m) c).arrAt 1 cfg0.N = _
  rw [(dense0_data (entry0 m) c).arrAt_in 1 rfl, dense0_A]
  exact (V4_of m (left m) c _ (by decide)).symm
/-- The output array holds the fold of the write-backs, which is what the exit contents put there. -/
theorem exit0_out (c : Dev nD) : (stages m 0 c).arrAt 2 cfg0.N = exit0 m c (Pipeline.arrRef spec0 2) := by
  show out0 m c = Function.update (V3 m c) (Proc.devRef .tc main_v30) (left m 4 main_v30 c) (Proc.devRef .tc main_v30)
  rw [Function.update_self]
  show out0 m c = Function.update (V3 m c) (Proc.devRef .tc main_v30) (out0 m c) (Proc.devRef .tc main_v30)
  rw [Function.update_self]

end

/-- After the last point each of the region's arrays holds what the exit contents say. -/
theorem exit0_arrays (c : Dev nD) (w : Fin cfg0.W) : (stages m 0 c).arrAt w cfg0.N = exit0 m c (Pipeline.arrRef spec0 w) := by
  obtain ⟨i, hi⟩ := w
  have h3 : i = 0 ∨ i = 1 ∨ i = 2 := by
    have : i < 3 := hi
    omega
  rcases h3 with rfl | rfl | rfl
  · exact exit0_rows m c
  · exact exit0_weight m c
  · exact exit0_out m c

/-- Every buffer that is none of the region's arrays is left as it was found. -/
theorem exit0_rest (c : Dev nD) : ∀ b, b ∉ Finset.univ.image (Pipeline.arrRef spec0) → exit0 m c b = entry0 m c b :=
  fun b hb => V4_of m (left m) c b fun h => hb (Finset.mem_image.mpr ⟨2, Finset.mem_univ _, (List.mem_singleton.mp h).symm⟩)

set_option backward.isDefEq.respectTransparency.types false in
/-- Entering region 0: the thread state "every unscoped buffer at the entry contents, the generator register, nothing
    owed" yields the region's arrays at their entry contents, no prefetched table, the first tallies, the generator
    register (which goes into the invariant) and the unscoped buffers the region does not window (which go round it). -/
theorem enter0 (c : Dev nD) :
    iprop(StableHlo.held (c : Thread nD τ) (Pipeline.ucRefs τ sig) (V3 m c) ∗ Riding c)
      ⊢ (iprop((stages m 0 c).arrays ((stages m 0 c).arrAt · 0) ∗ Pipeline.prefHeld (pcfgs (F := F) 0).pre c (fun _ => fullShare) (adm 0).1
          ∗ (stages m 0 c).owesAt () 0 ∗ (∃ r, prngReg c r)
          ∗ Pipeline.unscopedRest (Ix := Unit) (Name := ℕ) (U := UR sig nD τ) (Lvl := ℕ) spec0 c (entry0 m c)) : sProp 𝕄) := by
  have hsplit := Pipeline.arrays_of_unscopedBufs (p := 0) (pcfgs (F := F)) adm (stages m) launch0.win launch0.arr_whole c
    ((stages m 0 c).share_full fun _ => rfl) (entry0 m c) fun _ => rfl
  rw [Pipeline.unscopedBufs_held] at hsplit
  iintro ⟨Hbufs, Hgen, Howes⟩
  ihave H := hsplit $$ Hbufs
  icases H with ⟨Harr, Hround⟩
  isplitl [Harr]; · iexact Harr
  isplitr; · unfold Pipeline.prefHeld; rw [show (Finset.univ : Finset (Fin 0)) = ∅ from rfl, BI.bigSep_empty]; iempintro
  isplitl [Howes]
  · unfold Pipeline.Dat.owesAt Pipeline.owesWithin
    icases Howes with ⟨%W, Howes⟩; iexists W; isplitr; · ipureintro; exact fun _ _ => Or.inl trivial
    iexact Howes
  isplitl [Hgen]; · iexact Hgen
  iexact Hround

set_option backward.isDefEq.respectTransparency.types false in
/-- Leaving region 0: the arrays at what the write-backs left, beside the buffers that went round the region, are
    every unscoped buffer at the exit contents; the generator register and the (empty) debt ride on. -/
theorem leave0 (c : Dev nD) :
    (iprop((stages m 0 c).arrays ((stages m 0 c).arrAt · cfg0.N) ∗ (stages m 0 c).owesAt () (Fin.last cfg0.N) ∗ (∃ r, prngReg c r)
        ∗ Pipeline.unscopedRest (Ix := Unit) (Name := ℕ) (U := UR sig nD τ) (Lvl := ℕ) spec0 c (entry0 m c)) : sProp 𝕄)
      ⊢ iprop(StableHlo.held (c : Thread nD τ) (Pipeline.ucRefs τ sig) (V4 m (left m) c) ∗ Riding c) := by
  have hjoin := Pipeline.unscopedBufs_of_arrays (p := 0) (pcfgs (F := F)) adm (Ix := Unit) (Name := ℕ) (U := UR sig nD τ) (Lvl := ℕ)
    launch0.win launch0.arr_whole c (stages m) ((stages m 0 c).share_full fun _ => rfl)
    (entry0 m c) (exit0 m c) ((stages m 0 c).arrAt · cfg0.N) (exit0_arrays m c) (exit0_rest m c)
  rw [Pipeline.unscopedBufs_held] at hjoin
  iintro ⟨Harr, Howes, Hgen, Hround⟩
  isplitl [Harr Hround]
  · iapply hjoin; isplitl [Harr] <;> iassumption
  isplitl [Hgen]; · iexact Hgen
  unfold Pipeline.Dat.owesAt Pipeline.owesWithin
  icases Howes with ⟨%W, -, Howes⟩; iexists W; iexact Howes

set_option backward.isDefEq.respectTransparency.types false in
/-- Region 0 as a segment: the launch's layout facts, no semaphore of the kernel's own, the body obligation, nothing to
    wait for, and the four entailments around the two thread states (the generator register goes into the class's
    invariant and comes back; the unwindowed buffers go round). -/
def denseSeg0 : RegionSeg (pcfgs (F := F)) adm (stages m) () defs₀ Variants.none noPairs noLevel 0 where
  win := launch0.win.to₀
  block_pos := launch0.block_pos
  stage_whole := launch0.stage_whole
  K := PEmpty
  osem k := k.elim
  ho := Pipeline.OwnSemFacts.none _
  hbody c := (dense0_obligation (entry0 m) c).loose
  hwaits := Pipeline.hwaits_of_owed_zero _ _ _ _ noPairs noLevel 0 fun _ _ => rfl
  pre c := iprop(StableHlo.held (c : Thread nD τ) (Pipeline.ucRefs τ sig) (V3 m c) ∗ Riding c)
  post c := iprop(StableHlo.held (c : Thread nD τ) (Pipeline.ucRefs τ sig) (V4 m (left m) c) ∗ Riding c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    iintro ⟨Hpre, -, -⟩
    imodintro
    iapply (enter0 m c); iexact Hpre
  hin c := by
    rw [show (stages m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (stages m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    iintro H
    imodintro
    iapply (leave0 m c); iexact H

/-! ## Region 1 as a segment of @main -/

/-- The TensorCore's buffers when region 1 is entered, and when it is left. -/
abbrev entry1 : (c : Dev nD) → (b : Ref sig .tc) → Buf (Elt F) ((c : Thread nD τ).loc b) := fun c b => V6 m (left m) c b
abbrev exit1 : (c : Dev nD) → (b : Ref sig .tc) → Buf (Elt F) ((c : Thread nD τ).loc b) := fun c b => V7 m (left m) c b

section
attribute [local irreducible] StableHlo.after

/-- An input array is never written: after the last point it holds what it held at entry, which the exit contents keep. -/
theorem exit1_rows (c : Dev nD) : (stages m 1 c).arrAt 0 cfg1.N = exit1 m c (Pipeline.arrRef spec1 0) := by
  show (dense1_data (entry1 m) c).arrAt 0 cfg1.N = _
  rw [(dense1_data (entry1 m) c).arrAt_in 0 rfl, dense1_A]
  exact (V7_of m (left m) c _ (by decide)).symm
theorem exit1_weight (c : Dev nD) : (stages m 1 c).arrAt 1 cfg1.N = exit1 m c (Pipeline.arrRef spec1 1) := by
  show (dense1_data (entry1 m) c).arrAt 1 cfg1.N = _
  rw [(dense1_data (entry1 m) c).arrAt_in 1 rfl, dense1_A]
  exact (V7_of m (left m) c _ (by decide)).symm
/-- The output array holds the fold of the write-backs, which is what the exit contents put there. -/
theorem exit1_out (c : Dev nD) : (stages m 1 c).arrAt 2 cfg1.N = exit1 m c (Pipeline.arrRef spec1 2) := by
  show out1 m c = Function.update (V6 m (left m) c) (Proc.devRef .tc main_v48) (left m 7 main_v48 c) (Proc.devRef .tc main_v48)
  rw [Function.update_self]
  show out1 m c = Function.update (V6 m (left0 m) c) (Proc.devRef .tc main_v48) (out1 m c) (Proc.devRef .tc main_v48)
  rw [Function.update_self]

end

/-- After the last point each of the region's arrays holds what the exit contents say. -/
theorem exit1_arrays (c : Dev nD) (w : Fin cfg1.W) : (stages m 1 c).arrAt w cfg1.N = exit1 m c (Pipeline.arrRef spec1 w) := by
  obtain ⟨i, hi⟩ := w
  have h3 : i = 0 ∨ i = 1 ∨ i = 2 := by
    have : i < 3 := hi
    omega
  rcases h3 with rfl | rfl | rfl
  · exact exit1_rows m c
  · exact exit1_weight m c
  · exact exit1_out m c

/-- Every buffer that is none of the region's arrays is left as it was found. -/
theorem exit1_rest (c : Dev nD) : ∀ b, b ∉ Finset.univ.image (Pipeline.arrRef spec1) → exit1 m c b = entry1 m c b :=
  fun b hb => V7_of m (left m) c b fun h => hb (Finset.mem_image.mpr ⟨2, Finset.mem_univ _, (List.mem_singleton.mp h).symm⟩)

set_option backward.isDefEq.respectTransparency.types false in
/-- Entering region 1: the thread state "every unscoped buffer at the entry contents, the generator register, nothing
    owed" yields the region's arrays at their entry contents, no prefetched table, the first tallies, the generator
    register (which goes into the invariant) and the unscoped buffers the region does not window (which go round it). -/
theorem enter1 (c : Dev nD) :
    iprop(StableHlo.held (c : Thread nD τ) (Pipeline.ucRefs τ sig) (V6 m (left m) c) ∗ Riding c)
      ⊢ (iprop((stages m 1 c).arrays ((stages m 1 c).arrAt · 0) ∗ Pipeline.prefHeld (pcfgs (F := F) 1).pre c (fun _ => fullShare) (adm 1).1
          ∗ (stages m 1 c).owesAt () 0 ∗ (∃ r, prngReg c r)
          ∗ Pipeline.unscopedRest (Ix := Unit) (Name := ℕ) (U := UR sig nD τ) (Lvl := ℕ) spec1 c (entry1 m c)) : sProp 𝕄) := by
  have hsplit := Pipeline.arrays_of_unscopedBufs (p := 1) (pcfgs (F := F)) adm (stages m) launch1.win launch1.arr_whole c
    ((stages m 1 c).share_full fun _ => rfl) (entry1 m c) fun _ => rfl
  rw [Pipeline.unscopedBufs_held] at hsplit
  iintro ⟨Hbufs, Hgen, Howes⟩
  ihave H := hsplit $$ Hbufs
  icases H with ⟨Harr, Hround⟩
  isplitl [Harr]; · iexact Harr
  isplitr; · unfold Pipeline.prefHeld; rw [show (Finset.univ : Finset (Fin 0)) = ∅ from rfl, BI.bigSep_empty]; iempintro
  isplitl [Howes]
  · unfold Pipeline.Dat.owesAt Pipeline.owesWithin
    icases Howes with ⟨%W, Howes⟩; iexists W; isplitr; · ipureintro; exact fun _ _ => Or.inl trivial
    iexact Howes
  isplitl [Hgen]; · iexact Hgen
  iexact Hround

set_option backward.isDefEq.respectTransparency.types false in
/-- Leaving region 1: the arrays at what the write-backs left, beside the buffers that went round the region, are
    every unscoped buffer at the exit contents; the generator register and the (empty) debt ride on. -/
theorem leave1 (c : Dev nD) :
    (iprop((stages m 1 c).arrays ((stages m 1 c).arrAt · cfg1.N) ∗ (stages m 1 c).owesAt () (Fin.last cfg1.N) ∗ (∃ r, prngReg c r)
        ∗ Pipeline.unscopedRest (Ix := Unit) (Name := ℕ) (U := UR sig nD τ) (Lvl := ℕ) spec1 c (entry1 m c)) : sProp 𝕄)
      ⊢ iprop(StableHlo.held (c : Thread nD τ) (Pipeline.ucRefs τ sig) (V7 m (left m) c) ∗ Riding c) := by
  have hjoin := Pipeline.unscopedBufs_of_arrays (p := 1) (pcfgs (F := F)) adm (Ix := Unit) (Name := ℕ) (U := UR sig nD τ) (Lvl := ℕ)
    launch1.win launch1.arr_whole c (stages m) ((stages m 1 c).share_full fun _ => rfl)
    (entry1 m c) (exit1 m c) ((stages m 1 c).arrAt · cfg1.N) (exit1_arrays m c) (exit1_rest m c)
  rw [Pipeline.unscopedBufs_held] at hjoin
  iintro ⟨Harr, Howes, Hgen, Hround⟩
  isplitl [Harr Hround]
  · iapply hjoin; isplitl [Harr] <;> iassumption
  isplitl [Hgen]; · iexact Hgen
  unfold Pipeline.Dat.owesAt Pipeline.owesWithin
  icases Howes with ⟨%W, -, Howes⟩; iexists W; iexact Howes

set_option backward.isDefEq.respectTransparency.types false in
/-- Region 1 as a segment: the launch's layout facts, no semaphore of the kernel's own, the body obligation, nothing to
    wait for, and the four entailments around the two thread states (the generator register goes into the class's
    invariant and comes back; the unwindowed buffers go round). -/
def denseSeg1 : RegionSeg (pcfgs (F := F)) adm (stages m) () defs₀ Variants.none noPairs noLevel 1 where
  win := launch1.win.to₀
  block_pos := launch1.block_pos
  stage_whole := launch1.stage_whole
  K := PEmpty
  osem k := k.elim
  ho := Pipeline.OwnSemFacts.none _
  hbody c := (dense1_obligation (entry1 m) c).loose
  hwaits := Pipeline.hwaits_of_owed_zero _ _ _ _ noPairs noLevel 1 fun _ _ => rfl
  pre c := iprop(StableHlo.held (c : Thread nD τ) (Pipeline.ucRefs τ sig) (V6 m (left m) c) ∗ Riding c)
  post c := iprop(StableHlo.held (c : Thread nD τ) (Pipeline.ucRefs τ sig) (V7 m (left m) c) ∗ Riding c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    iintro ⟨Hpre, -, -⟩
    imodintro
    iapply (enter1 m c); iexact Hpre
  hin c := by
    rw [show (stages m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (stages m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    iintro H
    imodintro
    iapply (leave1 m c); iexact H

/-! ## Region 2 as a segment of @main -/

/-- The TensorCore's buffers when region 2 is entered, and when it is left. -/
abbrev entry2 : (c : Dev nD) → (b : Ref sig .tc) → Buf (Elt F) ((c : Thread nD τ).loc b) := fun c b => V8 m (left m) c b
abbrev exit2 : (c : Dev nD) → (b : Ref sig .tc) → Buf (Elt F) ((c : Thread nD τ).loc b) := fun c b => V9 m (left m) c b

section
attribute [local irreducible] StableHlo.after

/-- An input array is never written: after the last point it holds what it held at entry, which the exit contents keep. -/
theorem exit2_rows (c : Dev nD) : (stages m 2 c).arrAt 0 cfg2.N = exit2 m c (Pipeline.arrRef spec2 0) := by
  show (dense2_data (entry2 m) c).arrAt 0 cfg2.N = _
  rw [(dense2_data (entry2 m) c).arrAt_in 0 rfl, dense2_A]
  exact (V9_of m (left m) c _ (by decide)).symm
theorem exit2_weight (c : Dev nD) : (stages m 2 c).arrAt 1 cfg2.N = exit2 m c (Pipeline.arrRef spec2 1) := by
  show (dense2_data (entry2 m) c).arrAt 1 cfg2.N = _
  rw [(dense2_data (entry2 m) c).arrAt_in 1 rfl, dense2_A]
  exact (V9_of m (left m) c _ (by decide)).symm
/-- The output array holds the fold of the write-backs, which is what the exit contents put there. -/
theorem exit2_out (c : Dev nD) : (stages m 2 c).arrAt 2 cfg2.N = exit2 m c (Pipeline.arrRef spec2 2) := by
  show out2 m c = Function.update (V8 m (left m) c) (Proc.devRef .tc main_v65) (left m 9 main_v65 c) (Proc.devRef .tc main_v65)
  rw [Function.update_self]
  show out2 m c = Function.update (V8 m (left1 m) c) (Proc.devRef .tc main_v65) (out2 m c) (Proc.devRef .tc main_v65)
  rw [Function.update_self]

end

/-- After the last point each of the region's arrays holds what the exit contents say. -/
theorem exit2_arrays (c : Dev nD) (w : Fin cfg2.W) : (stages m 2 c).arrAt w cfg2.N = exit2 m c (Pipeline.arrRef spec2 w) := by
  obtain ⟨i, hi⟩ := w
  have h3 : i = 0 ∨ i = 1 ∨ i = 2 := by
    have : i < 3 := hi
    omega
  rcases h3 with rfl | rfl | rfl
  · exact exit2_rows m c
  · exact exit2_weight m c
  · exact exit2_out m c

/-- Every buffer that is none of the region's arrays is left as it was found. -/
theorem exit2_rest (c : Dev nD) : ∀ b, b ∉ Finset.univ.image (Pipeline.arrRef spec2) → exit2 m c b = entry2 m c b :=
  fun b hb => V9_of m (left m) c b fun h => hb (Finset.mem_image.mpr ⟨2, Finset.mem_univ _, (List.mem_singleton.mp h).symm⟩)

set_option backward.isDefEq.respectTransparency.types false in
/-- Entering region 2: the thread state "every unscoped buffer at the entry contents, the generator register, nothing
    owed" yields the region's arrays at their entry contents, no prefetched table, the first tallies, the generator
    register (which goes into the invariant) and the unscoped buffers the region does not window (which go round it). -/
theorem enter2 (c : Dev nD) :
    iprop(StableHlo.held (c : Thread nD τ) (Pipeline.ucRefs τ sig) (V8 m (left m) c) ∗ Riding c)
      ⊢ (iprop((stages m 2 c).arrays ((stages m 2 c).arrAt · 0) ∗ Pipeline.prefHeld (pcfgs (F := F) 2).pre c (fun _ => fullShare) (adm 2).1
          ∗ (stages m 2 c).owesAt () 0 ∗ (∃ r, prngReg c r)
          ∗ Pipeline.unscopedRest (Ix := Unit) (Name := ℕ) (U := UR sig nD τ) (Lvl := ℕ) spec2 c (entry2 m c)) : sProp 𝕄) := by
  have hsplit := Pipeline.arrays_of_unscopedBufs (p := 2) (pcfgs (F := F)) adm (stages m) launch2.win launch2.arr_whole c
    ((stages m 2 c).share_full fun _ => rfl) (entry2 m c) fun _ => rfl
  rw [Pipeline.unscopedBufs_held] at hsplit
  iintro ⟨Hbufs, Hgen, Howes⟩
  ihave H := hsplit $$ Hbufs
  icases H with ⟨Harr, Hround⟩
  isplitl [Harr]; · iexact Harr
  isplitr; · unfold Pipeline.prefHeld; rw [show (Finset.univ : Finset (Fin 0)) = ∅ from rfl, BI.bigSep_empty]; iempintro
  isplitl [Howes]
  · unfold Pipeline.Dat.owesAt Pipeline.owesWithin
    icases Howes with ⟨%W, Howes⟩; iexists W; isplitr; · ipureintro; exact fun _ _ => Or.inl trivial
    iexact Howes
  isplitl [Hgen]; · iexact Hgen
  iexact Hround

set_option backward.isDefEq.respectTransparency.types false in
/-- Leaving region 2: the arrays at what the write-backs left, beside the buffers that went round the region, are
    every unscoped buffer at the exit contents; the generator register and the (empty) debt ride on. -/
theorem leave2 (c : Dev nD) :
    (iprop((stages m 2 c).arrays ((stages m 2 c).arrAt · cfg2.N) ∗ (stages m 2 c).owesAt () (Fin.last cfg2.N) ∗ (∃ r, prngReg c r)
        ∗ Pipeline.unscopedRest (Ix := Unit) (Name := ℕ) (U := UR sig nD τ) (Lvl := ℕ) spec2 c (entry2 m c)) : sProp 𝕄)
      ⊢ iprop(StableHlo.held (c : Thread nD τ) (Pipeline.ucRefs τ sig) (V9 m (left m) c) ∗ Riding c) := by
  have hjoin := Pipeline.unscopedBufs_of_arrays (p := 2) (pcfgs (F := F)) adm (Ix := Unit) (Name := ℕ) (U := UR sig nD τ) (Lvl := ℕ)
    launch2.win launch2.arr_whole c (stages m) ((stages m 2 c).share_full fun _ => rfl)
    (entry2 m c) (exit2 m c) ((stages m 2 c).arrAt · cfg2.N) (exit2_arrays m c) (exit2_rest m c)
  rw [Pipeline.unscopedBufs_held] at hjoin
  iintro ⟨Harr, Howes, Hgen, Hround⟩
  isplitl [Harr Hround]
  · iapply hjoin; isplitl [Harr] <;> iassumption
  isplitl [Hgen]; · iexact Hgen
  unfold Pipeline.Dat.owesAt Pipeline.owesWithin
  icases Howes with ⟨%W, -, Howes⟩; iexists W; iexact Howes

set_option backward.isDefEq.respectTransparency.types false in
/-- Region 2 as a segment: the launch's layout facts, no semaphore of the kernel's own, the body obligation, nothing to
    wait for, and the four entailments around the two thread states (the generator register goes into the class's
    invariant and comes back; the unwindowed buffers go round). -/
def denseSeg2 : RegionSeg (pcfgs (F := F)) adm (stages m) () defs₀ Variants.none noPairs noLevel 2 where
  win := launch2.win.to₀
  block_pos := launch2.block_pos
  stage_whole := launch2.stage_whole
  K := PEmpty
  osem k := k.elim
  ho := Pipeline.OwnSemFacts.none _
  hbody c := (dense2_obligation (entry2 m) c).loose
  hwaits := Pipeline.hwaits_of_owed_zero _ _ _ _ noPairs noLevel 2 fun _ _ => rfl
  pre c := iprop(StableHlo.held (c : Thread nD τ) (Pipeline.ucRefs τ sig) (V8 m (left m) c) ∗ Riding c)
  post c := iprop(StableHlo.held (c : Thread nD τ) (Pipeline.ucRefs τ sig) (V9 m (left m) c) ∗ Riding c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    iintro ⟨Hpre, -, -⟩
    imodintro
    iapply (enter2 m c); iexact Hpre
  hin c := by
    rw [show (stages m 2 c).Φ 0 = Pipeline.ΦA spec2 c from rfl]; unfold Pipeline.ΦA
    iintro ⟨Hgen, -, Hscoped⟩
    isplitl [Hscoped]; · iexact Hscoped
    iexact Hgen
  hout c := by
    rw [Pipeline.ownSems0_none, show (stages m 2 c).Φ (Fin.last _) = Pipeline.ΦA spec2 c from rfl]; unfold Pipeline.ΦA
    iintro ⟨Hscoped, Hgen⟩
    isplitl [Hgen]; · iexact Hgen
    isplitr; · iempintro
    iexact Hscoped
  hexit c := by
    iintro H
    imodintro
    iapply (leave2 m c); iexact H

/-! ## The run, given the decoder's segment -/

/-- An unscoped TensorCore buffer is among those the thread states hold. -/
theorem held_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the last stage the result array holds what region 3 left. -/
theorem last_result (c : Dev nD) : V11 m (left m) c (Proc.devRef .tc main_v85) = out3 m c := by
  show Function.update (V10 m (left m) c) (Proc.devRef .tc main_v85) (left m 11 main_v85 c) (Proc.devRef .tc main_v85) = _
  rw [Function.update_self]
  show Function.update (V10 m (left2 m) c) (Proc.devRef .tc main_v85) (out3 m c) (Proc.devRef .tc main_v85) = _
  rw [Function.update_self]

variable (ρ : Dev nD → PrngReg)

set_option backward.isDefEq.respectTransparency.types false in
/-- Every weakly fair execution of @main from memory `m` with zero counters terminates, faulting nowhere, with the result
    array at what region 3's write-backs leave (`out3`) and the nine argument arrays as launched — for ANY segment record
    of region 3 entered from the stage before it and left at the stage after it. The eleven items chain by construction:
    each host stretch's exit contents are the next item's entry contents by name. -/
theorem run_given_decoder
    (R3 : RegionSeg (pcfgs (F := F)) adm (stages m) () defs₀ Variants.none noPairs noLevel 3)
    (hpre3 : ∀ c : Dev nD, iprop(StableHlo.held (c : Thread nD τ) (Pipeline.ucRefs τ sig) (V10 m (left m) c) ∗ Riding c) ⊢ R3.pre c)
    (hpost3 : ∀ c : Dev nD, R3.post c ⊢ iprop(StableHlo.held (c : Thread nD τ) (Pipeline.ucRefs τ sig) (V11 m (left m) c) ∗ Riding c)) :
    θ_run defs (onTc (τ := τ) (main (F := F))) ⟨m, fun _ => 0, ρ⟩ (fun r => ∀ c : Dev nD,
      r.2.mem ((c.tc : Thread nD τ).loc main_v85) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_dev (pcfgs (F := F)) adm (stages m) () cellOf_inj emb₁ defs₀ Variants.none noPairs noLevel m ρ main
    (segs m (left m) Variants.none noPairs noLevel (fun _ c => Riding c) () (stages m) (denseSeg0 m) (denseSeg1 m) (denseSeg2 m) R3)
    (fun c Q => by
      rw [main_chain c, Seg.run_eq_chain]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Riding c))
    (Tₙ := fun c => iprop(StableHlo.held (c : Thread nD τ) (Pipeline.ucRefs τ sig) (V11 m (left m) c) ∗ ∃ r, prngReg c r))
    (hch := fun c => ⟨.rfl, .rfl, .rfl, .rfl, .rfl, .rfl, .rfl, .rfl, .rfl, .rfl, hpre3 c,
      (hpost3 c).trans (by
        iintro ⟨Hbufs, Hgen, Howes⟩
        isplitl [Hbufs Hgen]
        · isplitl [Hbufs] <;> iassumption
        iexact Howes)⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = V11 m (left m) c b)
    (hfin := fun c s' => by
      iintro ⟨⟨Hbufs, -⟩, HSI⟩
      unfold StableHlo.held
      imodintro
      iapply (pointsTo_read_all (Pipeline.ucRefs τ sig) (fun b => (((c : Thread nD τ)).1, b)) (V11 m (left m) c) s')
      isplitl [Hbufs] <;> iassumption)
    (hQ := fun s h c =>
      ⟨(h c _ (held_unscoped main_v85 (by decide))).trans (last_result m c),
       (h c _ (held_unscoped main_arg0 (by decide))).trans (V11_main_arg0 m (left m) c),
       (h c _ (held_unscoped main_arg1 (by decide))).trans (V11_main_arg1 m (left m) c),
       (h c _ (held_unscoped main_arg2 (by decide))).trans (V11_main_arg2 m (left m) c),
       (h c _ (held_unscoped main_arg3 (by decide))).trans (V11_main_arg3 m (left m) c),
       (h c _ (held_unscoped main_arg4 (by decide))).trans (V11_main_arg4 m (left m) c),
       (h c _ (held_unscoped main_arg5 (by decide))).trans (V11_main_arg5 m (left m) c),
       (h c _ (held_unscoped main_arg6 (by decide))).trans (V11_main_arg6 m (left m) c),
       (h c _ (held_unscoped main_arg7 (by decide))).trans (V11_main_arg7 m (left m) c),
       (h c _ (held_unscoped main_arg8 (by decide))).trans (V11_main_arg8 m (left m) c)⟩)

end Cert.KernelIdeal.Hand

end
-- ==== Proof.KI.Left.lean ====
/-
  What the family `left m` of region outputs holds at the four places the stage contents read it: at each, the fold of
  that region's write-backs over its output array (`out0 … out3`).
-/
import proofs.«115443_j80522046866107_1_alg».proof.Proof.KI.Run

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

section
attribute [local irreducible] StableHlo.after

theorem left_first (c : Dev nD) : left m 4 main_v30 c = out0 m c := by
  show Function.update (V3 m c) (Proc.devRef .tc main_v30) (out0 m c) (Proc.devRef .tc main_v30) = _
  rw [Function.update_self]
theorem left_mean (c : Dev nD) : left m 7 main_v48 c = out1 m c := by
  show Function.update (V6 m (left0 m) c) (Proc.devRef .tc main_v48) (out1 m c) (Proc.devRef .tc main_v48) = _
  rw [Function.update_self]
theorem left_logdev (c : Dev nD) : left m 9 main_v65 c = out2 m c := by
  show Function.update (V8 m (left1 m) c) (Proc.devRef .tc main_v65) (out2 m c) (Proc.devRef .tc main_v65) = _
  rw [Function.update_self]
theorem left_result (c : Dev nD) : left m 11 main_v85 c = out3 m c := by
  show Function.update (V10 m (left2 m) c) (Proc.devRef .tc main_v85) (out3 m c) (Proc.devRef .tc main_v85) = _
  rw [Function.update_self]

/-- Each region's output as the proof data of that region at the stage contents over the WHOLE family. -/
theorem out0_eq (c : Dev nD) : out0 m c = (dense0_data (fun c b => V3 m c b) c).arrAt 2 cfg0.N := rfl
theorem out1_eq (c : Dev nD) : out1 m c = (dense1_data (fun c b => V6 m (left m) c b) c).arrAt 2 cfg1.N := rfl
theorem out2_eq (c : Dev nD) : out2 m c = (dense2_data (fun c b => V8 m (left m) c b) c).arrAt 2 cfg2.N := rfl
theorem out3_eq (c : Dev nD) : out3 m c = (decode_data (fun c b => V10 m (left m) c b) c).arrAt 2 cfg3.N := rfl

end

end Cert.KernelIdeal.Hand

end
-- ==== Proof.KI.Region3.lean ====
/-
  Region 3 of the kernel program, the decoder: the body's Hoare triple and the pipeline's body obligation.
  At the point (i, j) of the 8 × 8 grid the body finds the row tile i of z in window 0's staging buffer and the row
  tile j of the same z in window 1's, and stores logistic(left · rightᵀ) through the whole of window 2's staging buffer
  (it also reads that buffer once before the store; what it reads is not used). This module states, at the contents
  `V` the region is entered with, that the two input tiles sit in their staging buffers at every point — window 0 is
  refetched only when the row index i moves, and between two fetches its block does not change; window 1 is fetched
  at every point —, proves the body's triple on whole staging memrefs, and derives the body obligation at every
  point. Everything is generic in the float instance: nothing here computes.
-/
import proofs.«115443_j80522046866107_1_alg».proof.Proof.KI.Region3Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The left row tile sits in its staging buffer at every point: it is fetched whenever the row index of the point
    moves, its block does not change while that index stays, and the body only reads it. -/
theorem left3_staged {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- The right row tile sits in its staging buffer at every point: it is fetched at every point, and the body only
    reads it. -/
theorem right3_staged {c : Dev nD} (dat : Dat τ (Elt F) Unit ℕ (UR sig nD τ) ℕ cfg3 c) (hA : dat.A 1 = V c (Pipeline.arrRef spec3 1))
    (hafter : ∀ t, dat.after 1 t = tile3 V c 1 t) (t : Fin cfg3.N) (d) : dat.before 1 t d = tile3 V c 1 t :=
  (dat.before_in_eq_fetched 1 rfl (fun _ => rfl) (fun _ _ _ => rfl) (fun t => by rw [hafter]; unfold Dat.blockOf tile3; rw [hA]; try rfl) t d).trans
    (by unfold Dat.fetched Dat.blockOf tile3; rw [hA]; try rfl)

/-- The body's one store covers the output's staging buffer. -/
theorem decoded3_covers (p : Vec F S1024x1024 .f32) (y : S1024x1024.Idx) :
    ∃ pc ∈ ([⟨wholeTile3, p⟩] : List (View.Piece (Elt F) S1024x1024 .f32)), y ∈ pc.1.set :=
  View.cover_of_tiled [⟨wholeTile3, p⟩] S1024x1024.size (by rfl) y

set_option maxHeartbeats 1000000 in
/-- The body, on whole staging memrefs holding the left row tile `zm`, the right row tile `zn` and anything in the
    output's, runs to its end leaving the inputs as they were and the output's buffer at `decoded3 zm zn` (the body
    reads the output's buffer once before its store; what it reads is not used). -/
theorem decode_triple (c : Dev nD) (E : Set ℕ) (i : grid3.Coords) (arg2 : Memref sig .tc .vmem S1024x32 .f32) (harg2 : arg2.IsWhole)
    (arg3 : Memref sig .tc .vmem S1024x32 .f32) (harg3 : arg3.IsWhole) (arg4 : Memref sig .tc .vmem S1024x1024 .f32) (harg4 : arg4.IsWhole)
    (zm zn : Vec F S1024x32 .f32) (K : PUnit → sProp 𝕄) :
    iprop(owns (c : Thread nD τ) arg2 fullShare zm ∗ owns (c : Thread nD τ) arg3 fullShare zn ∗ (∃ d, owns (c : Thread nD τ) arg4 fullShare d)
        ∗ (iprop(owns (c : Thread nD τ) arg2 fullShare zm ∗ owns (c : Thread nD τ) arg3 fullShare zn ∗ owns (c : Thread nD τ) arg4 fullShare (decoded3 zm zn)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f2, %hf2, H2⟩, ⟨%f3, %hf3, H3⟩, ⟨%d4, %f4, -, H4⟩, Hk⟩
  subst hf2; subst hf3
  sl_exec
  sl_step
  iapply Hk
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (decoded3_covers (F := F) _)

theorem decode_before_left (c : Dev nD) (t : Fin cfg3.N) (d) : (decode_data V c).before 0 t d = tile3 V c 0 t :=
  left3_staged V (decode_data V c) (decode_A V c 0) (decode_after_left V c) t d
theorem decode_before_right (c : Dev nD) (t : Fin cfg3.N) (d) : (decode_data V c).before 1 t d = tile3 V c 1 t :=
  right3_staged V (decode_data V c) (decode_A V c 1) (decode_after_right V c) t d

/-- What the body is called with at point `t`, the windows one by one, -/
def decodePre (c : Dev nD) (t : Fin cfg3.N) : sProp 𝕄 :=
  iprop((decode_data V c).Φ t.castSucc ∗ (decode_data V c).owesAt () t.castSucc
    ∗ (∃ d, owns (c : Thread nD τ) (st3_0 t) fullShare ((decode_data V c).before 0 t d))
    ∗ (∃ d, owns (c : Thread nD τ) (st3_1 t) fullShare ((decode_data V c).before 1 t d))
    ∗ (∃ d, owns (c : Thread nD τ) (st3_2 t) fullShare ((decode_data V c).before 2 t d)))

/-- and what it returns. -/
def decodePost (c : Dev nD) (t : Fin cfg3.N) : sProp 𝕄 :=
  iprop((decode_data V c).Φ t.succ ∗ (decode_data V c).owesAt () t.succ
    ∗ owns (c : Thread nD τ) (st3_0 t) fullShare ((decode_data V c).after 0 t)
    ∗ owns (c : Thread nD τ) (st3_1 t) fullShare ((decode_data V c).after 1 t)
    ∗ owns (c : Thread nD τ) (st3_2 t) fullShare ((decode_data V c).after 2 t))

/-- The body at any point: the inputs' buffers hold their tiles, so the triple applies; the invariant and what the core
    owes pass through unread. -/
theorem decode_at_point (c : Dev nD) (t : Fin cfg3.N) :
    decodePre V c t ⊢ wp frame (wpE (defs₀ (F := F)) Variants.none c none) Set.univ (bodyAt3 t) (fun _ => decodePost V c t) := by
  unfold decodePre decodePost bodyAt3
  simp only [decode_before_left, decode_before_right]
  rw [show (decode_data V c).Φ t.succ = (decode_data V c).Φ t.castSucc from rfl,
    show (decode_data V c).owesAt () t.succ = (decode_data V c).owesAt () t.castSucc from rfl,
    decode_after_left, decode_after_right, decode_after_out]
  iintro ⟨HΦ, Ho, ⟨%d0, H0⟩, ⟨%d1, H1⟩, ⟨%d2, H2⟩⟩
  iapply (decode_triple c Set.univ _ _ _ _ _ _ _ (tile3 V c 0 t) (tile3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem decode_obligation (c : Dev nD) : BodyObligation (decode_data (F := F) V c) (defs₀ (F := F)) Variants.none () Set.univ := fun t => by
  rw [bigSep_W3, bigSep_W3]
  exact decode_at_point V c t

end Cert.KernelIdeal.Hand

end
-- ==== Proof.KI.Region3Frame.lean ====
/-
  Region 3 of the kernel program, the decoder, as a segment of the whole program: how the region takes its arrays out
  of the core's unscoped buffers when it is entered and puts them back when it is left.
  The decoder reads ONE array z through two windows (the row tile i and the row tile j of the same z) and writes the
  output array through a third. The pipeline's rule holds each window's array separately, so the one buffer behind
  windows 0 and 1 cannot be handed to both outright. It is cut along its share instead: a buffer held at the full share
  is the same buffer held at the left half share and, separately, at the right half share, and conversely — reading
  needs only a positive share, and an input's array is never written, so at the exit both halves still hold the entry
  contents and recompose to the buffer held outright. Window 0 takes the left half, window 1 the right half, and the
  output's buffer is held outright throughout.
  The module proves the cut and the join for the pipeline's arrays, the entry and exit entailments between the core's
  unscoped buffers and the arrays beside the unscoped rest, and assembles the region's segment record: entered from
  every unscoped buffer at a valuation `W`, left at `W` updated at the output array with what the write-backs leave.
-/
import proofs.«115443_j80522046866107_1_alg».proof.Proof.KI.Region3
import proofs.«115443_j80522046866107_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays are two: the one both input windows read, and the output's. -/
theorem arrRefs3 : Finset.univ.image (Pipeline.arrRef spec3) = {Pipeline.arrRef spec3 0, Pipeline.arrRef spec3 2} := by decide
theorem arrRef3_in_ne_out : Pipeline.arrRef spec3 0 ∉ ({Pipeline.arrRef spec3 2} : Finset (Ref sig .tc)) := by decide
/-- Window 1 reads the buffer window 0 reads. -/
theorem arrRef3_shared : Pipeline.arrRef spec3 1 = Pipeline.arrRef spec3 0 := by decide

theorem decode_share_left (c : Dev nD) : (decode_data V c).share 0 = fullShare.left := by
  unfold Dat.share; split
  · next h => exact absurd h (by decide)
  · exact decode_q_left V c
theorem decode_share_right (c : Dev nD) : (decode_data V c).share 1 = fullShare.right := by
  unfold Dat.share; split
  · next h => exact absurd h (by decide)
  · exact decode_q_right V c
theorem decode_share_out (c : Dev nD) : (decode_data V c).share 2 = fullShare := by
  unfold Dat.share; split
  · rfl
  · exact decode_q_out V c

/-- A window's array is a whole buffer: holding it through its view is holding the buffer behind it. -/
theorem decode_arr_whole (c : Dev nD) (w : Fin cfg3.W) (q : PosShare TreeShare) (g : Buf (Elt F) ((cfg3.win w).arr.view.loc (c : Thread nD τ))) :
    ((((cfg3.win w).arr.view.loc (c : Thread nD τ)) ↦[(cfg3.win w).arr.view.set]{q} g) : sProp 𝕄)
      = (((c : Thread nD τ).loc (Pipeline.arrRef spec3 w)) ↦{q} g) := by
  have h : (cfg3.win w).arr.view.set = Finset.univ := (arr_whole3 w).set_eq_univ
  rw [h]

/-- The pipeline's arrays as one conjunct per window, each the buffer behind the window at the window's share. -/
theorem decode_arrays_eq_bigSep (c : Dev nD) (G : (w : Fin cfg3.W) → Buf (Elt F) ((cfg3.win w).arr.view.loc (c : Thread nD τ))) :
    (decode_data V c).arrays G
      = (bigSep Finset.univ fun w : Fin cfg3.W => ((((c : Thread nD τ).loc (Pipeline.arrRef spec3 w)) ↦{(decode_data V c).share w} G w) : sProp 𝕄)) := by
  unfold Dat.arrays
  exact bigSep_congr fun w _ => decode_arr_whole c w _ _

/-- The three conjuncts, with their shares: the left half and the right half of the buffer both input windows read,
    and the output's buffer outright. -/
theorem decode_arrays_eq (c : Dev nD) (G : (w : Fin cfg3.W) → Buf (Elt F) ((cfg3.win w).arr.view.loc (c : Thread nD τ))) :
    (decode_data V c).arrays G
      = (iprop((((c : Thread nD τ).loc (Pipeline.arrRef spec3 0)) ↦{fullShare.left} G 0)
          ∗ (((c : Thread nD τ).loc (Pipeline.arrRef spec3 1)) ↦{fullShare.right} G 1)
          ∗ (((c : Thread nD τ).loc (Pipeline.arrRef spec3 2)) ↦{fullShare} G 2)) : sProp 𝕄) := by
  rw [decode_arrays_eq_bigSep, bigSep_W3]
  exact congrArg₂ _ (by rw [decode_share_left V c]) (congrArg₂ _ (by rw [decode_share_right V c]) (by rw [decode_share_out V c]))

/-- The two buffers, each held outright. -/
theorem decode_arrBufs_eq (c : Dev nD) (X : (b : Ref sig .tc) → Buf (Elt F) ((c : Thread nD τ).loc b)) :
    (Pipeline.arrBufs spec3 c X : sProp 𝕄)
      = iprop((((c : Thread nD τ).loc (Pipeline.arrRef spec3 0)) ↦{fullShare} X (Pipeline.arrRef spec3 0))
          ∗ (((c : Thread nD τ).loc (Pipeline.arrRef spec3 2)) ↦{fullShare} X (Pipeline.arrRef spec3 2))) := by
  unfold Pipeline.arrBufs
  rw [arrRefs3, bigSep_insert arrRef3_in_ne_out, bigSep_singleton]
  rfl

/-- A core's unscoped buffers are the two buffers behind the windows and the rest. -/
theorem decode_unscopedBufs_split (c : Dev nD) (X : (b : Ref sig .tc) → Buf (Elt F) ((c : Thread nD τ).loc b)) :
    (unscopedBufs c X : sProp 𝕄) = iprop(Pipeline.arrBufs spec3 c X ∗ Pipeline.unscopedRest spec3 c X) :=
  Pipeline.unscopedBufs_split₀ cfgs 3 winFacts₀3.arr_unscoped c X

/-- Window 1's buffer at any contents `X` is window 0's: they are one buffer. -/
theorem decode_shared_eq (c : Dev nD) (q : PosShare TreeShare) (X : (b : Ref sig .tc) → Buf (Elt F) ((c : Thread nD τ).loc b)) :
    ((((c : Thread nD τ).loc (Pipeline.arrRef spec3 1)) ↦{q} X (Pipeline.arrRef spec3 1)) : sProp 𝕄)
      = (((c : Thread nD τ).loc (Pipeline.arrRef spec3 0)) ↦{q} X (Pipeline.arrRef spec3 0)) := by
  rw [arrRef3_shared]

/-- THE CUT: the two buffers held outright are the pipeline's arrays at the same contents — the buffer both input
    windows read cut along its share, the left half to window 0 and the right half to window 1. -/
theorem decode_arrays_of_arrBufs (c : Dev nD) (X : (b : Ref sig .tc) → Buf (Elt F) ((c : Thread nD τ).loc b))
    (G : (w : Fin cfg3.W) → Buf (Elt F) ((cfg3.win w).arr.view.loc (c : Thread nD τ)))
    (h0 : G 0 = X (Pipeline.arrRef spec3 0)) (h1 : G 1 = X (Pipeline.arrRef spec3 1)) (h2 : G 2 = X (Pipeline.arrRef spec3 2)) :
    (Pipeline.arrBufs spec3 c X : sProp 𝕄) ⊢ (decode_data V c).arrays G := by
  rw [decode_arrBufs_eq, decode_arrays_eq, h0, h1, h2]
  iintro ⟨H0, H2⟩
  ihave H := (pointsTo_share (PosShare.mem_left_op_right fullShare)).1 $$ H0
  icases H with ⟨Hl, Hr⟩
  isplitl [Hl]; · iexact Hl
  isplitl [Hr]
  · iapply (Entails.of_eq (decode_shared_eq c fullShare.right X).symm)
    iexact Hr
  iexact H2

/-- THE JOIN, its converse: the pipeline's arrays at contents that are one function of the buffer (an input's array
    is never written, so both halves hold the same contents) are the two buffers held outright. -/
theorem decode_arrBufs_of_arrays (c : Dev nD) (X : (b : Ref sig .tc) → Buf (Elt F) ((c : Thread nD τ).loc b))
    (G : (w : Fin cfg3.W) → Buf (Elt F) ((cfg3.win w).arr.view.loc (c : Thread nD τ)))
    (h0 : G 0 = X (Pipeline.arrRef spec3 0)) (h1 : G 1 = X (Pipeline.arrRef spec3 1)) (h2 : G 2 = X (Pipeline.arrRef spec3 2)) :
    (decode_data V c).arrays G ⊢ (Pipeline.arrBufs spec3 c X : sProp 𝕄) := by
  rw [decode_arrBufs_eq, decode_arrays_eq, h0, h1, h2]
  iintro ⟨Hl, Hr, H2⟩
  isplitr [H2]
  · iapply (pointsTo_share (PosShare.mem_left_op_right fullShare)).2
    isplitl [Hl]; · iexact Hl
    iapply (Entails.of_eq (decode_shared_eq c fullShare.right X))
    iexact Hr
  iexact H2

/-- ENTRY, the arrays' part: a core's unscoped buffers at the entry contents are the pipeline's arrays at its proof
    data's entry contents and the unscoped rest. -/
theorem decode_arrays_of_unscopedBufs (c : Dev nD) :
    (unscopedBufs c (V c) : sProp 𝕄)
      ⊢ iprop((decode_data V c).arrays ((decode_data V c).arrAt · 0) ∗ Pipeline.unscopedRest spec3 c (V c)) := by
  rw [decode_unscopedBufs_split]
  exact sep_mono (decode_arrays_of_arrBufs V c (V c) _ (decode_A V c 0) (decode_A V c 1) (decode_A V c 2)) .rfl

theorem arrRef3_left_ne_out : Pipeline.arrRef spec3 0 ≠ Pipeline.arrRef spec3 2 := by decide
theorem arrRef3_right_ne_out : Pipeline.arrRef spec3 1 ≠ Pipeline.arrRef spec3 2 := by decide

/-- An input window's array is never written: after any number of points it holds the entry contents. -/
theorem decode_left_unwritten (c : Dev nD) (n : Nat) : (decode_data V c).arrAt 0 n = V c (Pipeline.arrRef spec3 0) :=
  ((decode_data V c).arrAt_in 0 rfl n).trans (decode_A V c 0)
theorem decode_right_unwritten (c : Dev nD) (n : Nat) : (decode_data V c).arrAt 1 n = V c (Pipeline.arrRef spec3 1) :=
  ((decode_data V c).arrAt_in 1 rfl n).trans (decode_A V c 1)

/-- The unscoped rest only reads the contents off the windows' buffers. -/
theorem decode_unscopedRest_congr (c : Dev nD) (X X' : (b : Ref sig .tc) → Buf (Elt F) ((c : Thread nD τ).loc b))
    (h : ∀ b, b ∉ Finset.univ.image (Pipeline.arrRef spec3) → X' b = X b) :
    (Pipeline.unscopedRest spec3 c X : sProp 𝕄) = Pipeline.unscopedRest spec3 c X' := by
  unfold Pipeline.unscopedRest
  exact bigSep_congr fun b hb => by rw [h b (Finset.mem_sdiff.mp hb).2]

set_option maxHeartbeats 1000000 in
/-- EXIT, the arrays' part: the pipeline's arrays at their final contents and the unscoped rest are the core's
    unscoped buffers at any contents `V'` that has the output's array at what the write-backs leave (`hout`) and
    agrees with the entry contents at every other buffer (`hrest`). -/
theorem decode_unscopedBufs_of_arrays (c : Dev nD) (V' : (b : Ref sig .tc) → Buf (Elt F) ((c : Thread nD τ).loc b))
    (hout : V' (Pipeline.arrRef spec3 2) = (decode_data V c).arrAt 2 cfg3.N)
    (hrest : ∀ b, b ≠ Pipeline.arrRef spec3 2 → V' b = V c b) :
    iprop((decode_data V c).arrays ((decode_data V c).arrAt · cfg3.N) ∗ Pipeline.unscopedRest spec3 c (V c))
      ⊢ (unscopedBufs c V' : sProp 𝕄) := by
  rw [decode_unscopedBufs_split,
    decode_unscopedRest_congr c (V c) V' fun b hb => hrest b fun e => hb (e ▸ Finset.mem_image.mpr ⟨2, Finset.mem_univ _, rfl⟩)]
  exact sep_mono (decode_arrBufs_of_arrays V c V' _
    ((decode_left_unwritten V c _).trans (hrest _ arrRef3_left_ne_out).symm)
    ((decode_right_unwritten V c _).trans (hrest _ arrRef3_right_ne_out).symm)
    hout.symm) .rfl

/-! ## The region as a segment of the program -/

/-- The entry contents of the TensorCore's buffers read off a valuation of the device's buffers. -/
abbrev entryOf (W : Dev nD → Valuation τ sig (Elt F)) : (c : Dev nD) → (b : Ref sig .tc) → Buf (Elt F) ((c : Thread nD τ).loc b) :=
  fun c b => W c b

/-- What the decoder leaves in the output array on core `c`, entered at the valuation `W`: every write-back folded. -/
def decodeOut (W : Dev nD → Valuation τ sig (Elt F)) (c : Dev nD) : Buf (Elt F) ((c : Thread nD τ).loc main_v85) :=
  (decode_data (entryOf W) c).arrAt 2 cfg3.N

/-- The valuation the region is left at: the entry valuation with the output array at what the decoder leaves. -/
def exitOf (W : Dev nD → Valuation τ sig (Elt F)) (c : Dev nD) : Valuation τ sig (Elt F) :=
  Function.update (W c) main_v85 (decodeOut W c)

theorem exitOf_out (W : Dev nD → Valuation τ sig (Elt F)) (c : Dev nD) :
    entryOf (exitOf W) c (Pipeline.arrRef spec3 2) = (decode_data (entryOf W) c).arrAt 2 cfg3.N := by
  unfold entryOf exitOf decodeOut
  exact Function.update_self _ _ _

theorem exitOf_rest (W : Dev nD → Valuation τ sig (Elt F)) (c : Dev nD) (b : Ref sig .tc) (hb : b ≠ Pipeline.arrRef spec3 2) :
    entryOf (exitOf W) c b = entryOf W c b := by
  unfold entryOf exitOf
  exact Function.update_of_ne (StableHlo.devRef_ne_of_ne hb) _ _

/-- What rides beside the buffers through the region: the core's generator register at some state, and the core owing
    nothing. -/
abbrev beside3 (c : Dev nD) : sProp 𝕄 :=
  iprop((∃ r, prngReg c r) ∗ ∃ W, owes (c : Thread nD τ) (0 : CellTallies nD τ sig Unit) W)

set_option maxHeartbeats 2000000 in
set_option backward.isDefEq.respectTransparency.types false in
/-- THE DECODER'S REGION as a segment: entered from every unscoped buffer at `W` (beside the generator register and
    nothing owed), left at `exitOf W` — `W` with the output array at what the write-backs leave. At entry the two
    buffers behind the windows are taken out of the unscoped buffers and the one both input windows read is cut in its
    half shares; at exit the halves are joined and the buffers put back. The generator register goes into the class
    invariant and comes out; nothing is owed; the kernel has no semaphore of its own. For any family of proof data
    whose fourth member is `decode_data` at `W`. -/
def decode_region (W : Dev nD → Valuation τ sig (Elt F))
    (pdats : (p : Fin 4) → (c : Dev nD) → Dat τ (Elt F) Unit ℕ (UR sig nD τ) ℕ (cfgs p) c)
    (h3 : ∀ c, pdats 3 c = decode_data (entryOf W) c) :
    Pipeline.RegionSeg (pcfgs (F := F)) Gen.adm pdats () defs₀ Variants.none (fun _ => ∅) (fun _ _ => 0) 3 where
  win := winFacts₀3
  block_pos := block_pos3
  stage_whole := stage_whole3
  K := PEmpty
  osem k := k.elim
  ho := Pipeline.OwnSemFacts.none _
  hbody c := by rw [h3 c]; exact (decode_obligation (entryOf W) c).loose
  hwaits := Pipeline.hwaits_of_owed_zero _ _ _ _ (fun _ => ∅) (fun _ _ => 0) 3 fun c t => by rw [h3 c]; rfl
  pre c := iprop(StableHlo.held (c : Thread nD τ) (Pipeline.ucRefs τ sig) (W c) ∗ beside3 c)
  post c := iprop(StableHlo.held (c : Thread nD τ) (Pipeline.ucRefs τ sig) (exitOf W c) ∗ beside3 c)
  X c := iprop(∃ r, prngReg c r)
  Y c := iprop(∃ r, prngReg c r)
  Z c := Pipeline.unscopedRest (Ix := Unit) (Name := ℕ) (U := UR sig nD τ) (Lvl := ℕ) spec3 c (entryOf W c)
  hentry c := by
    rw [Pipeline.ownSems0_none, h3 c]
    have hsplit := decode_arrays_of_unscopedBufs (entryOf W) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr; · ipureintro; exact fun _ _ => Or.inl trivial
      iexact HO
    isplitl [Hp]; · iexact Hp
    iexact Hrest
  hin c := by
    rw [h3 c, show (decode_data (entryOf W) c).Φ 0 = Pipeline.ΦA spec3 c from rfl]; unfold Pipeline.ΦA
    iintro ⟨Hp, -, Hr⟩
    isplitl [Hr]; · iexact Hr
    iexact Hp
  hout c := by
    rw [Pipeline.ownSems0_none, h3 c]
    show Pipeline.ΦA spec3 c ⊢ _
    unfold Pipeline.ΦA
    iintro ⟨Hr, Hp⟩
    isplitl [Hp]; · iexact Hp
    isplitr; · iempintro
    iexact Hr
  hexit c := by
    rw [h3 c]
    have hjoin := decode_unscopedBufs_of_arrays (entryOf W) c (entryOf (exitOf W) c) (exitOf_out W c) (exitOf_rest W c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'; iexact HO

/-- The thread states the region is entered from and left at, by name. -/
theorem decode_region_pre (W : Dev nD → Valuation τ sig (Elt F))
    (pdats : (p : Fin 4) → (c : Dev nD) → Dat τ (Elt F) Unit ℕ (UR sig nD τ) ℕ (cfgs p) c)
    (h3 : ∀ c, pdats 3 c = decode_data (entryOf W) c) (c : Dev nD) :
    (decode_region W pdats h3).pre c = iprop(StableHlo.held (c : Thread nD τ) (Pipeline.ucRefs τ sig) (W c) ∗ beside3 c) := rfl
theorem decode_region_post (W : Dev nD → Valuation τ sig (Elt F))
    (pdats : (p : Fin 4) → (c : Dev nD) → Dat τ (Elt F) Unit ℕ (UR sig nD τ) ℕ (cfgs p) c)
    (h3 : ∀ c, pdats 3 c = decode_data (entryOf W) c) (c : Dev nD) :
    (decode_region W pdats h3).post c = iprop(StableHlo.held (c : Thread nD τ) (Pipeline.ucRefs τ sig) (exitOf W c) ∗ beside3 c) := rfl
theorem exitOf_eq (W : Dev nD → Valuation τ sig (Elt F)) (c : Dev nD) :
    exitOf W c = Function.update (W c) main_v85 (decodeOut W c) := rfl

end Cert.KernelIdeal.Hand

end
-- ==== Proof.KI.Decoder.lean ====
/-
  The decoder (region 3) as a segment of @main at the stage contents, and with it the whole run: every weakly fair
  execution of @main terminates with the result array at what the decoder's sixty-four write-backs leave and the nine
  argument arrays as launched.
-/
import proofs.«115443_j80522046866107_1_alg».proof.Proof.KI.Run
import proofs.«115443_j80522046866107_1_alg».proof.Proof.KI.Left
import proofs.«115443_j80522046866107_1_alg».proof.Proof.KI.Region3Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The fourth pipeline's proof data are the decoder's, at the contents after the last stretch of host operations. -/
theorem stage3_eq (c : Dev nD) : stages m 3 c = decode_data (entryOf (V10 m (left m))) c := rfl

/-- The decoder's segment, entered from the contents after the last stretch of host operations. -/
def decodeSeg : RegionSeg (pcfgs (F := F)) adm (stages m) () defs₀ Variants.none noPairs noLevel 3 :=
  decode_region (V10 m (left m)) (stages m) (stage3_eq m)

section
attribute [local irreducible] StableHlo.after

/-- The contents the decoder's segment is left at are the last stage's: the result array at what the write-backs leave,
    every other buffer as the decoder found it. -/
theorem decode_exit_contents (c : Dev nD) : exitOf (V10 m (left m)) c = V11 m (left m) c := by
  rw [exitOf_eq]
  show Function.update (V10 m (left m) c) (Proc.devRef .tc main_v85) (decodeOut (V10 m (left m)) c)
    = Function.update (V10 m (left m) c) (Proc.devRef .tc main_v85) (left m 11 main_v85 c)
  rw [left_result, out3_eq]
  rfl

end

/-- THE RUN of the kernel program, at any float instance: it terminates, faulting nowhere, with the result array at the
    decoder's output `out3` and every argument array as launched. -/
theorem run : θ_run defs (onTc (τ := τ) (main (F := F))) ⟨m, fun _ => 0, ρ⟩ (fun r => ∀ c : Dev nD,
      r.2.mem ((c.tc : Thread nD τ).loc main_v85) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_given_decoder m ρ (decodeSeg m)
    (fun c => Entails.of_eq (decode_region_pre (V10 m (left m)) (stages m) (stage3_eq m) c).symm)
    (fun c => (Entails.of_eq (decode_region_post (V10 m (left m)) (stages m) (stage3_eq m) c)).trans
      (Entails.of_eq (by rw [decode_exit_contents])))

end Cert.KernelIdeal.Hand

end
-- ==== Proof.KI.HostChain.lean ====
/-
  The host stretches of the program as pure functions of the arrays they read.

  Between its four tiled products the program prepares and consumes arrays on the host: the edge list with a self loop at
  every node (source and destination endpoints), the symmetric normalisation coefficient of every edge (the inverse
  square roots of the two endpoint degrees, zero where a degree is not positive), and after each product the graph
  aggregation (gather the product's rows at the sources, scale by the coefficients, add them up at the destinations)
  followed by the bias row, then the rectifier for the first layer, and at the end the sample  mean + noise * exp(log-dev).
  Each stretch is named here once as a function, generic in the float instance and never opened: the other program
  applies the very same operations, so the two sides meet at these names.
-/
import proofs.«115443_j80522046866107_1_alg».proof.Proof.Gen.KernelIdeal.Regions
import Idealize.ShloMosaic.Lib.StableHlo.Run

-- decided memberships in the lists of references a stretch writes recurse past the default depth
set_option maxRecDepth 2048

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- An array of the given shape and element type. -/
abbrev Arr (F : FTy → Type) (S : Shape) (e : EltTy) : Type := (⟨S, e⟩ : BufTy).Contents (Elt F)

/-! ## The edge list with self loops -/

/-- The source endpoints: row 0 of the edge list, then the nodes 0 … 8191 themselves. -/
def srcIdx (e : Arr F S2x262144 .i32) : Arr F S270336 .i32 :=
  concatenate S270336 0
    [⟨S262144, shapeCast S262144 (extractStridedSlice S1x262144 ![0, 0] e slices_S2x262144_S1x262144_0_0) shapeCasts_S1x262144_S262144⟩,
      ⟨S8192, iotaInDim S8192 32 0⟩] concatenates_S262144_S8192_S270336_d0

/-- The destination endpoints: row 1 of the edge list, then the nodes themselves. -/
def dstIdx (e : Arr F S2x262144 .i32) : Arr F S270336 .i32 :=
  concatenate S270336 0
    [⟨S262144, shapeCast S262144 (extractStridedSlice S1x262144 ![1, 0] e slices_S2x262144_S1x262144_1_0) shapeCasts_S1x262144_S262144⟩,
      ⟨S8192, iotaInDim S8192 32 0⟩] concatenates_S262144_S8192_S270336_d0

/-! ## The normalisation -/

/-- The degree of every node: ones added up at the destinations. -/
def degree (dst : Arr F S270336 .i32) : Arr F S8192 .f32 :=
  Host.scatterAdd scatter_S8192_S270336x1_S270336_n_0_0_1
    (broadcastInDim S8192 ![] bcast_S_S8192 (constant S_ .f32 0x00000000#32))
    (broadcastInDim S270336x1 ![0] bcast_S270336_S270336x1_0 dst)
    (broadcastInDim S270336 ![] bcast_S_S270336 (constant S_ .f32 0x3F800000#32))

/-- Where a degree is positive. -/
def degreePos (dst : Arr F S270336 .i32) : Arr F S8192 .i1 :=
  cmpf (F := F) .ogt (degree dst) (broadcastInDim S8192 ![] bcast_S_S8192 (constant S_ .f32 0x00000000#32))

/-- The inverse square root of every degree. -/
def degreeRsqrt (dst : Arr F S270336 .i32) : Arr F S8192 .f32 := Host.rsqrt (degree dst)

/-- The inverse square root of a degree where it is positive, the third operand's splat elsewhere. -/
def maskedRsqrt (pos : Arr F S8192 .i1) (rs : Arr F S8192 .f32) (z : Arr F S_ .f32) : Arr F S8192 .f32 :=
  select pos rs (broadcastInDim S8192 ![] bcast_S_S8192 (id z))

/-- An index array with its negative entries wrapped by the number of nodes, as a column of start indices. -/
def wrapIdx (v : Arr F S270336 .i32) : Arr F S270336x1 .i32 :=
  broadcastInDim S270336x1 ![0] bcast_S270336_S270336x1_0
    (select (cmpi .slt v (broadcastInDim S270336 ![] bcast_S_S270336 (constantI S_ 32 0#32)))
      (addi v (broadcastInDim S270336 ![] bcast_S_S270336 (constantI S_ 32 8192#32))) v)

/-- The coefficient of every edge: the product of the two endpoints' factors. -/
def edgeCoef (dinv : Arr F S8192 .f32) (src dst : Arr F S270336 .i32) : Arr F S270336 .f32 :=
  mulf (Host.gather gather_S8192_S270336x1_S270336_n_0_n_n_0_1_1 dinv (wrapIdx src))
    (Host.gather gather_S8192_S270336x1_S270336_n_0_n_n_0_1_1 dinv (wrapIdx dst))

/-- The coefficients as a function of the two endpoint arrays alone. -/
def coef (src dst : Arr F S270336 .i32) : Arr F S270336 .f32 :=
  edgeCoef (maskedRsqrt (degreePos dst) (degreeRsqrt dst) (constant S_ .f32 0x00000000#32)) src dst

/-! ## The aggregation, the bias and the layers -/

/-- Rows gathered at the sources, scaled, added up at the destinations: 64 features. -/
def aggregate64 (h : Arr F S8192x64 .f32) (src dst : Arr F S270336 .i32) (cf : Arr F S270336 .f32) : Arr F S8192x64 .f32 :=
  Host.scatterAdd scatter_S8192x64_S270336x1_S270336x64_1_0_0_1
    (broadcastInDim S8192x64 ![] bcast_S_S8192x64 (constant S_ .f32 0x00000000#32))
    (broadcastInDim S270336x1 ![0] bcast_S270336_S270336x1_0 dst)
    (mulf (Host.gather gather_S8192x64_S270336x1_S270336x64_1_0_n_n_0_1_164 h (wrapIdx src))
      (broadcastInDim S270336x64 ![0, 1] bcast_S270336x1_S270336x64_0_1 (broadcastInDim S270336x1 ![0] bcast_S270336_S270336x1_0 cf)))

/-- The same with 32 features. -/
def aggregate32 (h : Arr F S8192x32 .f32) (src dst : Arr F S270336 .i32) (cf : Arr F S270336 .f32) : Arr F S8192x32 .f32 :=
  Host.scatterAdd scatter_S8192x32_S270336x1_S270336x32_1_0_0_1
    (broadcastInDim S8192x32 ![] bcast_S_S8192x32 (constant S_ .f32 0x00000000#32))
    (broadcastInDim S270336x1 ![0] bcast_S270336_S270336x1_0 dst)
    (mulf (Host.gather gather_S8192x32_S270336x1_S270336x32_1_0_n_n_0_1_132 h (wrapIdx src))
      (broadcastInDim S270336x32 ![0, 1] bcast_S270336x1_S270336x32_0_1 (broadcastInDim S270336x1 ![0] bcast_S270336_S270336x1_0 cf)))

/-- The aggregated first product plus the bias row, before the rectifier. -/
def layer1Pre (h : Arr F S8192x64 .f32) (src dst : Arr F S270336 .i32) (cf : Arr F S270336 .f32) (b : Arr F S64 .f32) :
    Arr F S8192x64 .f32 :=
  addf (aggregate64 h src dst cf)
    (broadcastInDim S8192x64 ![0, 1] bcast_S1x64_S8192x64_0_1 (broadcastInDim S1x64 ![1] bcast_S64_S1x64_1 b))

/-- The rectifier: the larger of the entry and zero. -/
def rectify (x : Arr F S8192x64 .f32) : Arr F S8192x64 .f32 :=
  maximumf x (broadcastInDim S8192x64 ![] bcast_S_S8192x64 (constant S_ .f32 0x00000000#32))

/-- The first layer from its product. -/
def layer1 (h : Arr F S8192x64 .f32) (src dst : Arr F S270336 .i32) (cf : Arr F S270336 .f32) (b : Arr F S64 .f32) :
    Arr F S8192x64 .f32 :=
  rectify (layer1Pre h src dst cf b)

/-- A head (mean or log-deviation) from its product: the aggregation plus the bias row. -/
def head (h : Arr F S8192x32 .f32) (src dst : Arr F S270336 .i32) (cf : Arr F S270336 .f32) (b : Arr F S32 .f32) :
    Arr F S8192x32 .f32 :=
  addf (aggregate32 h src dst cf)
    (broadcastInDim S8192x32 ![0, 1] bcast_S1x32_S8192x32_0_1 (broadcastInDim S1x32 ![1] bcast_S32_S1x32_1 b))

/-- The sample: mean + noise * exp(log-deviation). -/
def zOf (mu ls eps : Arr F S8192x32 .f32) : Arr F S8192x32 .f32 :=
  addf mu (mulf eps (Host.exp ls))

/-! ## Each stretch read at the arrays it leaves, from any contents before it -/

section Stretches
variable (W : Valuation τ sig (Elt F))

theorem stretch0_v3 : StableHlo.after hostOps0 W (Proc.devRef .tc main_v3) = srcIdx (F := F) (W main_arg1) := by
  after_results; rfl
theorem stretch0_v6 : StableHlo.after hostOps0 W (Proc.devRef .tc main_v6) = dstIdx (F := F) (W main_arg1) := by
  after_results; rfl
theorem stretch0_v12 : StableHlo.after hostOps0 W (Proc.devRef .tc main_v12) = degreePos (F := F) (dstIdx (F := F) (W main_arg1)) := by
  after_results; rfl
theorem stretch0_v13 : StableHlo.after hostOps0 W (Proc.devRef .tc main_v13) = degreeRsqrt (F := F) (dstIdx (F := F) (W main_arg1)) := by
  after_results; rfl
theorem stretch0_cst_2 : StableHlo.after hostOps0 W (Proc.devRef .tc main_cst_2) = constant (F := F) S_ .f32 0x00000000#32 := by
  after_results

theorem stretch0_1_v14 : StableHlo.after hostOps0_1 W (Proc.devRef .tc main_v14)
    = maskedRsqrt (F := F) (W main_v12) (W main_v13) (W main_cst_2) := by
  after_results; rfl

set_option maxHeartbeats 1600000 in
theorem stretch0_2_v29 : StableHlo.after hostOps0_2 W (Proc.devRef .tc main_v29)
    = edgeCoef (F := F) (W main_v14) (W main_v3) (W main_v6) := by
  after_results_simp; rfl

set_option maxHeartbeats 1600000 in
theorem stretch1_v46 : StableHlo.after hostOps1 W (Proc.devRef .tc main_v46)
    = layer1Pre (F := F) (W main_v30) (W main_v3) (W main_v6) (W main_v29) (W main_arg3) := by
  after_results_simp; rfl

theorem stretch1_1_v47 : StableHlo.after hostOps1_1 W (Proc.devRef .tc main_v47) = rectify (F := F) (W main_v46) := by
  after_results; rfl

set_option maxHeartbeats 1600000 in
theorem stretch2_v64 : StableHlo.after hostOps2 W (Proc.devRef .tc main_v64)
    = head (F := F) (W main_v48) (W main_v3) (W main_v6) (W main_v29) (W main_arg5) := by
  after_results_simp; rfl

set_option maxHeartbeats 1600000 in
theorem stretch3_v84 : StableHlo.after hostOps3 W (Proc.devRef .tc main_v84)
    = zOf (F := F) (W main_v64) (head (F := F) (W main_v65) (W main_v3) (W main_v6) (W main_v29) (W main_arg7)) (W main_arg8) := by
  after_results_simp; rfl

end Stretches

/-! ## The arrays between the items, over the launch contents and what the regions leave -/

section Valuations
variable (m : (ℓ : Loc nD τ sig) → Buf (Elt F) ℓ) (outs : Outs (F := F)) (c : Dev nD)

/-- What the first three stretches leave alone is as launched. -/
theorem V3_keep (r : Ref sig .tc) (h0 : r ∉ hostOps0_W) (h1 : r ∉ hostOps0_1_W) (h2 : r ∉ hostOps0_2_W) :
    V3 m c r = V0 m c r :=
  (V3_of m c r h2).trans ((V2_of m c r h1).trans (V1_of m c r h0))

/-- What the first region and the two stretches after it leave alone. -/
theorem V6_keep (r : Ref sig .tc) (h : r ∉ ([main_v30] : List (Ref sig .tc))) (h1 : r ∉ hostOps1_W) (h2 : r ∉ hostOps1_1_W) :
    V6 m outs c r = V3 m c r :=
  (V6_of m outs c r h2).trans ((V5_of m outs c r h1).trans (V4_of m outs c r h))

/-- What the second region and the stretch after it leave alone. -/
theorem V8_keep (r : Ref sig .tc) (h : r ∉ ([main_v48] : List (Ref sig .tc))) (h1 : r ∉ hostOps2_W) :
    V8 m outs c r = V6 m outs c r :=
  (V8_of m outs c r h1).trans (V7_of m outs c r h)

/-- What the third region and the stretch after it leave alone. -/
theorem V10_keep (r : Ref sig .tc) (h : r ∉ ([main_v65] : List (Ref sig .tc))) (h1 : r ∉ hostOps3_W) :
    V10 m outs c r = V8 m outs c r :=
  (V10_of m outs c r h1).trans (V9_of m outs c r h)

/-! ### The arguments read back -/

theorem V3_main_arg0 : V3 m c main_arg0 = m ((c : Thread nD τ).loc main_arg0) := V3_keep m c main_arg0 (by decide) (by decide) (by decide)
theorem V3_main_arg1 : V3 m c main_arg1 = m ((c : Thread nD τ).loc main_arg1) := V3_keep m c main_arg1 (by decide) (by decide) (by decide)
theorem V3_main_arg2 : V3 m c main_arg2 = m ((c : Thread nD τ).loc main_arg2) := V3_keep m c main_arg2 (by decide) (by decide) (by decide)
theorem V3_main_arg3 : V3 m c main_arg3 = m ((c : Thread nD τ).loc main_arg3) := V3_keep m c main_arg3 (by decide) (by decide) (by decide)
theorem V3_main_arg4 : V3 m c main_arg4 = m ((c : Thread nD τ).loc main_arg4) := V3_keep m c main_arg4 (by decide) (by decide) (by decide)
theorem V3_main_arg5 : V3 m c main_arg5 = m ((c : Thread nD τ).loc main_arg5) := V3_keep m c main_arg5 (by decide) (by decide) (by decide)
theorem V3_main_arg6 : V3 m c main_arg6 = m ((c : Thread nD τ).loc main_arg6) := V3_keep m c main_arg6 (by decide) (by decide) (by decide)
theorem V3_main_arg7 : V3 m c main_arg7 = m ((c : Thread nD τ).loc main_arg7) := V3_keep m c main_arg7 (by decide) (by decide) (by decide)
theorem V3_main_arg8 : V3 m c main_arg8 = m ((c : Thread nD τ).loc main_arg8) := V3_keep m c main_arg8 (by decide) (by decide) (by decide)

theorem V6_main_arg4 : V6 m outs c main_arg4 = m ((c : Thread nD τ).loc main_arg4) :=
  (V6_keep m outs c main_arg4 (by decide) (by decide) (by decide)).trans (V3_main_arg4 m c)
theorem V8_main_arg6 : V8 m outs c main_arg6 = m ((c : Thread nD τ).loc main_arg6) :=
  (V8_keep m outs c main_arg6 (by decide) (by decide)).trans
    ((V6_keep m outs c main_arg6 (by decide) (by decide) (by decide)).trans (V3_main_arg6 m c))

/-! ### The edge arrays and the coefficients, computed once before the first region -/

theorem V3_main_v3 : V3 m c main_v3 = srcIdx (F := F) (m ((c : Thread nD τ).loc main_arg1)) :=
  (V3_of m c main_v3 (by decide)).trans ((V2_of m c main_v3 (by decide)).trans (stretch0_v3 (V0 m c)))

theorem V3_main_v6 : V3 m c main_v6 = dstIdx (F := F) (m ((c : Thread nD τ).loc main_arg1)) :=
  (V3_of m c main_v6 (by decide)).trans ((V2_of m c main_v6 (by decide)).trans (stretch0_v6 (V0 m c)))

theorem V2_main_v14 : V2 m c main_v14
    = maskedRsqrt (F := F) (degreePos (dstIdx (F := F) (m ((c : Thread nD τ).loc main_arg1))))
        (degreeRsqrt (dstIdx (F := F) (m ((c : Thread nD τ).loc main_arg1)))) (constant S_ .f32 0x00000000#32) := by
  have h := stretch0_1_v14 (F := F) (V1 m c)
  rw [show V1 m c main_v12 = _ from stretch0_v12 (V0 m c), show V1 m c main_v13 = _ from stretch0_v13 (V0 m c),
    show V1 m c main_cst_2 = _ from stretch0_cst_2 (V0 m c)] at h
  exact h

theorem V3_main_v29 : V3 m c main_v29
    = coef (F := F) (srcIdx (F := F) (m ((c : Thread nD τ).loc main_arg1))) (dstIdx (F := F) (m ((c : Thread nD τ).loc main_arg1))) := by
  have h := stretch0_2_v29 (F := F) (V2 m c)
  rw [V2_main_v14 m c, show V2 m c main_v3 = _ from (V2_of m c main_v3 (by decide)).trans (stretch0_v3 (V0 m c)),
    show V2 m c main_v6 = _ from (V2_of m c main_v6 (by decide)).trans (stretch0_v6 (V0 m c))] at h
  exact h

/-! ### What each region leaves, and the arrays the next region reads -/

theorem V4_main_v30 : V4 m outs c main_v30 = outs 4 main_v30 c := Function.update_self _ _ _
theorem V7_main_v48 : V7 m outs c main_v48 = outs 7 main_v48 c := Function.update_self _ _ _
theorem V9_main_v65 : V9 m outs c main_v65 = outs 9 main_v65 c := Function.update_self _ _ _
theorem V11_main_v85 : V11 m outs c main_v85 = outs 11 main_v85 c := Function.update_self _ _ _

/-- The first layer, from what the first region leaves. -/
theorem V6_main_v47 : V6 m outs c main_v47
    = layer1 (F := F) (outs 4 main_v30 c) (srcIdx (F := F) (m ((c : Thread nD τ).loc main_arg1)))
        (dstIdx (F := F) (m ((c : Thread nD τ).loc main_arg1)))
        (coef (F := F) (srcIdx (F := F) (m ((c : Thread nD τ).loc main_arg1))) (dstIdx (F := F) (m ((c : Thread nD τ).loc main_arg1))))
        (m ((c : Thread nD τ).loc main_arg3)) := by
  have h2 := stretch1_v46 (F := F) (V4 m outs c)
  rw [V4_main_v30 m outs c, V4_of m outs c main_v3 (by decide), V4_of m outs c main_v6 (by decide),
    V4_of m outs c main_v29 (by decide), V4_of m outs c main_arg3 (by decide),
    V3_main_v3 m c, V3_main_v6 m c, V3_main_v29 m c, V3_main_arg3 m c] at h2
  exact (stretch1_1_v47 (F := F) (V5 m outs c)).trans (congrArg rectify h2)

/-- The second and third regions read the same first layer. -/
theorem V8_main_v47 : V8 m outs c main_v47 = V6 m outs c main_v47 := V8_keep m outs c main_v47 (by decide) (by decide)

/-- The mean head, from what the second region leaves. -/
theorem V8_main_v64 : V8 m outs c main_v64
    = head (F := F) (outs 7 main_v48 c) (srcIdx (F := F) (m ((c : Thread nD τ).loc main_arg1)))
        (dstIdx (F := F) (m ((c : Thread nD τ).loc main_arg1)))
        (coef (F := F) (srcIdx (F := F) (m ((c : Thread nD τ).loc main_arg1))) (dstIdx (F := F) (m ((c : Thread nD τ).loc main_arg1))))
        (m ((c : Thread nD τ).loc main_arg5)) := by
  have h := stretch2_v64 (F := F) (V7 m outs c)
  rw [V7_main_v48 m outs c,
    (V7_of m outs c main_v3 (by decide)).trans (V6_keep m outs c main_v3 (by decide) (by decide) (by decide)),
    (V7_of m outs c main_v6 (by decide)).trans (V6_keep m outs c main_v6 (by decide) (by decide) (by decide)),
    (V7_of m outs c main_v29 (by decide)).trans (V6_keep m outs c main_v29 (by decide) (by decide) (by decide)),
    (V7_of m outs c main_arg5 (by decide)).trans (V6_keep m outs c main_arg5 (by decide) (by decide) (by decide)),
    V3_main_v3 m c, V3_main_v6 m c, V3_main_v29 m c, V3_main_arg5 m c] at h
  exact h

/-- The sample the last region reads, from what the second and third regions leave. -/
theorem V10_main_v84 : V10 m outs c main_v84
    = zOf (F := F)
        (head (F := F) (outs 7 main_v48 c) (srcIdx (F := F) (m ((c : Thread nD τ).loc main_arg1)))
          (dstIdx (F := F) (m ((c : Thread nD τ).loc main_arg1)))
          (coef (F := F) (srcIdx (F := F) (m ((c : Thread nD τ).loc main_arg1))) (dstIdx (F := F) (m ((c : Thread nD τ).loc main_arg1))))
          (m ((c : Thread nD τ).loc main_arg5)))
        (head (F := F) (outs 9 main_v65 c) (srcIdx (F := F) (m ((c : Thread nD τ).loc main_arg1)))
          (dstIdx (F := F) (m ((c : Thread nD τ).loc main_arg1)))
          (coef (F := F) (srcIdx (F := F) (m ((c : Thread nD τ).loc main_arg1))) (dstIdx (F := F) (m ((c : Thread nD τ).loc main_arg1))))
          (m ((c : Thread nD τ).loc main_arg7)))
        (m ((c : Thread nD τ).loc main_arg8)) := by
  have h := stretch3_v84 (F := F) (V9 m outs c)
  have k (r : Ref sig .tc) (h9 : r ∉ ([main_v65] : List (Ref sig .tc))) (h7 : r ∉ ([main_v48] : List (Ref sig .tc)))
      (h2 : r ∉ hostOps2_W) (h4 : r ∉ ([main_v30] : List (Ref sig .tc))) (h1 : r ∉ hostOps1_W) (h11 : r ∉ hostOps1_1_W) :
      V9 m outs c r = V3 m c r :=
    (V9_of m outs c r h9).trans ((V8_keep m outs c r h7 h2).trans (V6_keep m outs c r h4 h1 h11))
  rw [V9_main_v65 m outs c, (V9_of m outs c main_v64 (by decide)).trans (V8_main_v64 m outs c),
    k main_v3 (by decide) (by decide) (by decide) (by decide) (by decide) (by decide),
    k main_v6 (by decide) (by decide) (by decide) (by decide) (by decide) (by decide),
    k main_v29 (by decide) (by decide) (by decide) (by decide) (by decide) (by decide),
    k main_arg7 (by decide) (by decide) (by decide) (by decide) (by decide) (by decide),
    k main_arg8 (by decide) (by decide) (by decide) (by decide) (by decide) (by decide),
    V3_main_v3 m c, V3_main_v6 m c, V3_main_v29 m c, V3_main_arg7 m c, V3_main_arg8 m c] at h
  exact h

end Valuations

end Cert.KernelIdeal.Hand

end
-- ==== Proof.KI.WholeProducts.lean ====
/-
  The program's four whole-array products as plain functions of their operands, index by index on the extended reals.

  A dense layer's product of an [8192, K] array with a [K, N] weight has at (i, j) the finite sum ∑ k, x (i, k) * w (k, j);
  the decoder's array has at (i, j) the logistic of the inner product of rows i and j of the sample.  A sum on the extended
  reals is a sum in a commutative monoid: no order, grouping or tiling of it matters and nothing here needs finiteness.
-/
import Idealize.ShloMosaic.PureOps.Ideal
import Idealize.ShloMosaic.Lib.ValueIdx

noncomputable section

namespace Cert.KernelIdeal.Hand

open Idealize.ShloMosaic Idealize.ShloMosaic.ValueIdx

/-- The first layer's product: [8192, 256] by [256, 64]. -/
def denseOf0 (x : (⟨2, ![8192, 256]⟩ : Shape).Idx → EReal) (w : (⟨2, ![256, 64]⟩ : Shape).Idx → EReal) :
    (⟨2, ![8192, 64]⟩ : Shape).Idx → EReal :=
  fun i => ∑ k : Fin 256, x (ix2 (i 0) k) * w (ix2 k (i 1))

/-- A head's product: [8192, 64] by [64, 32]. -/
def denseOf1 (x : (⟨2, ![8192, 64]⟩ : Shape).Idx → EReal) (w : (⟨2, ![64, 32]⟩ : Shape).Idx → EReal) :
    (⟨2, ![8192, 32]⟩ : Shape).Idx → EReal :=
  fun i => ∑ k : Fin 64, x (ix2 (i 0) k) * w (ix2 k (i 1))

/-- The decoder: the logistic of the inner product of two rows of the sample. -/
def decodeOf (z : (⟨2, ![8192, 32]⟩ : Shape).Idx → EReal) : (⟨2, ![8192, 8192]⟩ : Shape).Idx → EReal :=
  fun i => Ideal.logistic (∑ k : Fin 32, z (ix2 (i 0) k) * z (ix2 (i 1) k))

theorem denseOf0_apply (x : (⟨2, ![8192, 256]⟩ : Shape).Idx → EReal) (w : (⟨2, ![256, 64]⟩ : Shape).Idx → EReal)
    (i : Fin 8192) (j : Fin 64) : denseOf0 x w (ix2 i j) = ∑ k : Fin 256, x (ix2 i k) * w (ix2 k j) := rfl

theorem denseOf1_apply (x : (⟨2, ![8192, 64]⟩ : Shape).Idx → EReal) (w : (⟨2, ![64, 32]⟩ : Shape).Idx → EReal)
    (i : Fin 8192) (j : Fin 32) : denseOf1 x w (ix2 i j) = ∑ k : Fin 64, x (ix2 i k) * w (ix2 k j) := rfl

theorem decodeOf_apply (z : (⟨2, ![8192, 32]⟩ : Shape).Idx → EReal) (i j : Fin 8192) :
    decodeOf z (ix2 i j) = Ideal.logistic (∑ k : Fin 32, z (ix2 i k) * z (ix2 j k)) := rfl

end Cert.KernelIdeal.Hand

end
-- ==== Proof.KI.RefChain.lean ====
/-
  The reference program's result as the same host functions around whole-array products.

  The reference computes each graph convolution as one dot_general followed by the very operations the kernel program
  applies between its tiled products (it recomputes the edge arrays and the coefficients in each of its three
  convolutions: three copies of one term of the edge list), and spells the logistic as 1 / (1 + exp (-x)), which is the
  logistic on the extended reals by definition.  Read at an index a dot_general is the row-by-column sum, so the
  reference's result is the decoder's function of the sample, the sample the two heads' function of two products of the
  first layer, and the first layer the function of the first product: if four arrays are those products and that
  decoder's array, the last one is the reference's result.
-/
import proofs.«115443_j80522046866107_1_alg».proof.Proof.RefReadP
import proofs.«115443_j80522046866107_1_alg».proof.Proof.KI.HostChain
import proofs.«115443_j80522046866107_1_alg».proof.Proof.KI.WholeProducts
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.ReadP
open Cert.KernelIdeal.Hand

/-! ## The host chains are the same functions (at any float instance) -/

section Chain
variable {F : FTy → Type} [FloatOps F]
variable (x0 : Arr F S8192x256 .f32) (x1 : Arr F S2x262144 .i32) (x2 : Arr F S256x64 .f32) (x3 : Arr F S64 .f32)
  (x4 : Arr F S64x32 .f32) (x5 : Arr F S32 .f32) (x6 : Arr F S64x32 .f32) (x7 : Arr F S32 .f32) (x8 : Arr F S8192x32 .f32)

/-- The three copies of the source endpoints. -/
theorem src_eq1 : val_main_v4 (F := F) x1 = srcIdx x1 := rfl
theorem src_eq2 : val_main_v52 (F := F) x1 = srcIdx x1 := rfl
theorem src_eq3 : val_main_v99 (F := F) x1 = srcIdx x1 := rfl
/-- The three copies of the destination endpoints. -/
theorem dst_eq1 : val_main_v7 (F := F) x1 = dstIdx x1 := rfl
theorem dst_eq2 : val_main_v55 (F := F) x1 = dstIdx x1 := rfl
theorem dst_eq3 : val_main_v102 (F := F) x1 = dstIdx x1 := rfl
/-- The three copies of the coefficients. -/
theorem coef_eq1 : val_main_v30 (F := F) x1 = coef (srcIdx x1) (dstIdx x1) := rfl
theorem coef_eq2 : val_main_v78 (F := F) x1 = coef (srcIdx x1) (dstIdx x1) := rfl
theorem coef_eq3 : val_main_v125 (F := F) x1 = coef (srcIdx x1) (dstIdx x1) := rfl

/-- The first layer from the first product. -/
theorem layer1_eq : val_main_v47 (F := F) x0 x1 x2 x3
    = layer1 (val_main_v0 (F := F) x0 x2) (srcIdx x1) (dstIdx x1) (coef (srcIdx x1) (dstIdx x1)) x3 := rfl

/-- The mean head from its product. -/
theorem mean_eq : val_main_v94 (F := F) x0 x1 x2 x3 x4 x5
    = head (val_main_v48 (F := F) x0 x1 x2 x3 x4) (srcIdx x1) (dstIdx x1) (coef (srcIdx x1) (dstIdx x1)) x5 := rfl

/-- The log-deviation head from its product. -/
theorem logdev_eq : val_main_v141 (F := F) x0 x1 x2 x3 x6 x7
    = head (val_main_v95 (F := F) x0 x1 x2 x3 x6) (srcIdx x1) (dstIdx x1) (coef (srcIdx x1) (dstIdx x1)) x7 := rfl

/-- The sample from the two heads and the noise. -/
theorem sample_eq : val_main_v144 (F := F) x0 x1 x2 x3 x4 x5 x6 x7 x8
    = zOf (val_main_v94 (F := F) x0 x1 x2 x3 x4 x5) (val_main_v141 (F := F) x0 x1 x2 x3 x6 x7) x8 := rfl

end Chain

/-! ## The reference's products and its logistic, index by index on the extended reals -/

section AtIdeal
variable (x0 : Arr Ideal S8192x256 .f32) (x1 : Arr Ideal S2x262144 .i32) (x2 : Arr Ideal S256x64 .f32) (x3 : Arr Ideal S64 .f32)
  (x4 : Arr Ideal S64x32 .f32) (x5 : Arr Ideal S32 .f32) (x6 : Arr Ideal S64x32 .f32) (x7 : Arr Ideal S32 .f32)
  (x8 : Arr Ideal S8192x32 .f32)

/-- The word of the float one is the extended real one. -/
theorem ofBits_one_f32 : Ideal.ofBits .f32 0x3F800000#32 = 1 := by
  simp [Ideal.ofBits, Ideal.ieee, -EReal.coe_mul]; norm_num

/-- The first dot_general is the first whole product. -/
theorem product0_eq : val_main_v0 (F := Ideal) x0 x2 = denseOf0 x0 x2 := by
  funext i
  rw [val_main_v0_apply]
  show _ = ∑ k : Fin 256, x0 (ix2 (i 0) k) * x2 (ix2 k (i 1))
  refine Finset.sum_congr rfl fun k _ => ?_
  have el : lidx_main_v0 i k = ix2 (i 0) k := funext fun a => match a with | ⟨0, _⟩ => rfl | ⟨1, _⟩ => rfl
  have er : ridx_main_v0 i k = ix2 k (i 1) := funext fun a => match a with | ⟨0, _⟩ => rfl | ⟨1, _⟩ => rfl
  exact congrArg₂ (· * ·) (congrArg x0 el) (congrArg x2 er)

/-- The mean head's dot_general is the product of the first layer with its weight. -/
theorem product1_eq : val_main_v48 (F := Ideal) x0 x1 x2 x3 x4 = denseOf1 (val_main_v47 (F := Ideal) x0 x1 x2 x3) x4 := by
  funext i
  rw [val_main_v48_apply]
  show _ = ∑ k : Fin 64, val_main_v47 (F := Ideal) x0 x1 x2 x3 (ix2 (i 0) k) * x4 (ix2 k (i 1))
  refine Finset.sum_congr rfl fun k _ => ?_
  have el : lidx_main_v48 i k = ix2 (i 0) k := funext fun a => match a with | ⟨0, _⟩ => rfl | ⟨1, _⟩ => rfl
  have er : ridx_main_v48 i k = ix2 k (i 1) := funext fun a => match a with | ⟨0, _⟩ => rfl | ⟨1, _⟩ => rfl
  exact congrArg₂ (· * ·) (congrArg (val_main_v47 (F := Ideal) x0 x1 x2 x3) el) (congrArg x4 er)

/-- The log-deviation head's dot_general likewise. -/
theorem product2_eq : val_main_v95 (F := Ideal) x0 x1 x2 x3 x6 = denseOf1 (val_main_v47 (F := Ideal) x0 x1 x2 x3) x6 := by
  funext i
  rw [val_main_v95_apply]
  show _ = ∑ k : Fin 64, val_main_v47 (F := Ideal) x0 x1 x2 x3 (ix2 (i 0) k) * x6 (ix2 k (i 1))
  refine Finset.sum_congr rfl fun k _ => ?_
  have el : lidx_main_v95 i k = ix2 (i 0) k := funext fun a => match a with | ⟨0, _⟩ => rfl | ⟨1, _⟩ => rfl
  have er : ridx_main_v95 i k = ix2 k (i 1) := funext fun a => match a with | ⟨0, _⟩ => rfl | ⟨1, _⟩ => rfl
  exact congrArg₂ (· * ·) (congrArg (val_main_v47 (F := Ideal) x0 x1 x2 x3) el) (congrArg x6 er)

/-- The reference's result is the decoder's function of its sample: the product with the transpose is the inner product
    of two rows, and 1 / (1 + exp (-s)) is the logistic of s. -/
theorem result_eq : val_main_v152 (F := Ideal) x0 x1 x2 x3 x4 x5 x6 x7 x8 = decodeOf (val_main_v144 (F := Ideal) x0 x1 x2 x3 x4 x5 x6 x7 x8) := by
  funext i
  rw [val_main_v152_apply, val_main_v151_apply, val_main_cst_32_apply, val_main_v150_apply, val_main_v149_apply,
    val_main_cst_31_apply, val_main_v148_apply, val_main_v147_apply, val_main_v146_apply]
  have hs : (∑ k : Fin 32, val_main_v144 (F := Ideal) x0 x1 x2 x3 x4 x5 x6 x7 x8 (lidx_main_v146 i k) * val_main_v145 (F := Ideal) x0 x1 x2 x3 x4 x5 x6 x7 x8 (ridx_main_v146 i k))
      = ∑ k : Fin 32, val_main_v144 (F := Ideal) x0 x1 x2 x3 x4 x5 x6 x7 x8 (ix2 (i 0) k) * val_main_v144 (F := Ideal) x0 x1 x2 x3 x4 x5 x6 x7 x8 (ix2 (i 1) k) := by
    refine Finset.sum_congr rfl fun k _ => ?_
    rw [val_main_v145_apply]
    have el : lidx_main_v146 i k = ix2 (i 0) k := funext fun a => match a with | ⟨0, _⟩ => rfl | ⟨1, _⟩ => rfl
    have er : idx_main_v145 (ridx_main_v146 i k) = ix2 (i 1) k := funext fun a => match a with | ⟨0, _⟩ => rfl | ⟨1, _⟩ => rfl
    exact congrArg₂ (· * ·) (congrArg (val_main_v144 (F := Ideal) x0 x1 x2 x3 x4 x5 x6 x7 x8) el) (congrArg (val_main_v144 (F := Ideal) x0 x1 x2 x3 x4 x5 x6 x7 x8) er)
  rw [hs]
  simp only [Ideal.hostDivf_def, Ideal.addf_def, Ideal.hostUnary_exp_def, Ideal.hostNegf_def, Ideal.negf_def, Ideal.ofBits_def,
    ofBits_one_f32]
  rfl

/-- Four arrays that are the three whole products and the decoder's array of the program's host chain: the last one is
    the reference's result. -/
theorem result_bridge (o30 : Arr Ideal S8192x64 .f32) (o48 o65 : Arr Ideal S8192x32 .f32) (o85 : Arr Ideal S8192x8192 .f32)
    (h30 : o30 = denseOf0 x0 x2)
    (h48 : o48 = denseOf1 (layer1 o30 (srcIdx x1) (dstIdx x1) (coef (srcIdx x1) (dstIdx x1)) x3) x4)
    (h65 : o65 = denseOf1 (layer1 o30 (srcIdx x1) (dstIdx x1) (coef (srcIdx x1) (dstIdx x1)) x3) x6)
    (h85 : o85 = decodeOf (zOf (head o48 (srcIdx x1) (dstIdx x1) (coef (srcIdx x1) (dstIdx x1)) x5) (head o65 (srcIdx x1) (dstIdx x1) (coef (srcIdx x1) (dstIdx x1)) x7) x8)) :
    o85 = val_main_v152 (F := Ideal) x0 x1 x2 x3 x4 x5 x6 x7 x8 := by
  rw [h85, h48, h65, h30, result_eq, sample_eq, mean_eq, logdev_eq, product1_eq, product2_eq, layer1_eq, product0_eq]

end AtIdeal

end Cert.ReferenceIdeal.RefValue

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.KI.MatmulTiles.lean ====
/-
  The four matrix products of the program, index by index on the extended reals.

  A block of the dense kernel is the plain product of its row tile and the whole weight: at (i, j) the finite sum
  ∑ k, x (i, k) * w (k, j).  A block of the decode kernel is the logistic of the product of one row tile with the
  transpose of another: at (i, j) the logistic of ∑ k, zm (i, k) * zn (j, k), the inner product of two rows.  The
  narrowing to bf16 before each product is the identity on extended reals, a shape cast of a shape to itself is the
  identity, and the accumulator is the zero splat, so nothing else is left of a payload.
-/
import proofs.«115443_j80522046866107_1_alg».proof.Proof.Gen.KernelIdeal.Skeleton
import proofs.«115443_j80522046866107_1_alg».proof.Proof.LibMatmulPlain
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen

/-! ## The three dimension records are the plain rows-by-columns product -/

theorem dot_1024x256_256x64_eq : dot_S1024x256_S256x64_S1024x64_1_0_0_1_n_n = DotDims.plain 1024 256 64 := rfl
theorem dot_1024x64_64x32_eq : dot_S1024x64_S64x32_S1024x32_1_0_0_1_n_n = DotDims.plain 1024 64 32 := rfl
theorem dot_1024x32_32x1024_eq : dot_S1024x32_S32x1024_S1024x1024_1_0_0_1_n_n = DotDims.plain 1024 32 1024 := rfl

/-! ## The dense kernel's block -/

/-- The first layer's block, [1024, 256] by [256, 64], at (i, j). -/
theorem k0_pay1_apply (x : Vec Ideal S1024x256 .f32) (w : Vec Ideal S256x64 .f32) (i : Fin 1024) (j : Fin 64) :
    k0_pay1 (F := Ideal) x w (ix2 i j) = ∑ k : Fin 256, x (ix2 i k) * w (ix2 k j) := by
  unfold k0_pay1
  refine (Cert.LibMatmulPlain.matmul_zero_apply none (truncf .bf16 x bitsLt_bf16_f32) (truncf .bf16 w bitsLt_bf16_f32) i j).trans ?_
  rfl

/-- The mean head's block, [1024, 64] by [64, 32], at (i, j). -/
theorem k1_pay1_apply (x : Vec Ideal S1024x64 .f32) (w : Vec Ideal S64x32 .f32) (i : Fin 1024) (j : Fin 32) :
    k1_pay1 (F := Ideal) x w (ix2 i j) = ∑ k : Fin 64, x (ix2 i k) * w (ix2 k j) := by
  unfold k1_pay1
  refine (Cert.LibMatmulPlain.matmul_zero_apply none
    (truncf .bf16 (shapeCast S1024x64 x shapeCasts_S1024x64_S1024x64) bitsLt_bf16_f32) (truncf .bf16 w bitsLt_bf16_f32) i j).trans ?_
  refine Finset.sum_congr rfl fun k _ => ?_
  rw [truncf_apply, truncf_apply, shapeCast_self]

/-- The log-deviation head's block, the same kernel on the other weight. -/
theorem k2_pay1_apply (x : Vec Ideal S1024x64 .f32) (w : Vec Ideal S64x32 .f32) (i : Fin 1024) (j : Fin 32) :
    k2_pay1 (F := Ideal) x w (ix2 i j) = ∑ k : Fin 64, x (ix2 i k) * w (ix2 k j) := by
  unfold k2_pay1
  refine (Cert.LibMatmulPlain.matmul_zero_apply none
    (truncf .bf16 (shapeCast S1024x64 x shapeCasts_S1024x64_S1024x64) bitsLt_bf16_f32) (truncf .bf16 w bitsLt_bf16_f32) i j).trans ?_
  refine Finset.sum_congr rfl fun k _ => ?_
  rw [truncf_apply, truncf_apply, shapeCast_self]

/-! ## The decode kernel's block -/

/-- The decode block at (i, j): the logistic of the inner product of row i of the first tile and row j of the second. -/
theorem k3_pay1_apply (zm zn : Vec Ideal S1024x32 .f32) (i j : Fin 1024) :
    k3_pay1 (F := Ideal) zm zn (ix2 i j) = Ideal.logistic (∑ k : Fin 32, zm (ix2 i k) * zn (ix2 j k)) := by
  unfold k3_pay1
  refine congrArg Ideal.logistic ?_
  refine (Cert.LibMatmulPlain.matmul_zero_apply none
    (truncf .bf16 (shapeCast S1024x32 zm shapeCasts_S1024x32_S1024x32) bitsLt_bf16_f32)
    (transpose S32x1024 [1, 0] (truncf .bf16 (shapeCast S1024x32 zn shapeCasts_S1024x32_S1024x32) bitsLt_bf16_f32)
      transposes_S1024x32_p1_0_S32x1024) i j).trans ?_
  refine Finset.sum_congr rfl fun k _ => ?_
  rw [transpose_ix2_apply, truncf_apply, truncf_apply, shapeCast_self, shapeCast_self]

end Cert.KernelIdeal.Hand

end
-- ==== Proof.KI.TilesToArray0.lean ====
/-
  Region 0, from tiles to the whole array, on the extended reals. Each of the eight points writes back one block of
  1024 rows of the output, the product of the point's row tile of x with the whole weight w. Read index by index, a
  block's entry (p, q) is the inner product of row 1024·t + p of x with column q of w, so the block is the restriction
  of ONE function of the two whole arrays, the dense product x · w; the eight blocks tile the output's rows, so after the
  last point the output array is that product.
-/
import proofs.«115443_j80522046866107_1_alg».proof.Proof.KI.Region0
import proofs.«115443_j80522046866107_1_alg».proof.Proof.KI.MatmulTiles
import proofs.«115443_j80522046866107_1_alg».proof.Proof.KI.WholeProducts
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-tile rectangle, as the constant function. -/
private theorem offsets_zero : (![0, 0] : Fin 2 → Nat) = fun _ => 0 := funext fun a => by fin_cases a <;> rfl

/-- The block of the product at any index of the tile. -/
theorem dense0_tile_apply (x : Vec Ideal S1024x256 .f32) (w : Vec Ideal S256x64 .f32) (y : S1024x64.Idx) :
    k0_pay1 (F := Ideal) x w y = ∑ k : Fin 256, x (ix2 (y 0) k) * w (ix2 k (y 1)) := by
  obtain ⟨p, q, rfl⟩ : ∃ (p : Fin 1024) (q : Fin 64), y = ix2 p q := ⟨y 0, y 1, eq_ix2 y⟩
  exact k0_pay1_apply x w p q

/-- A tile of the product is the product of the whole arrays where the tile sits: if the row tile x is rows
    1024·r … of X and the weight tile is all of W, entry y of the block is entry (1024·r + y₀, y₁) of the whole product. -/
theorem dense0_tile_of_whole (x : Vec Ideal S1024x256 .f32) (w : Vec Ideal S256x64 .f32)
    (X : S8192x256.Idx → Elt Ideal .f32) (W : S256x64.Idx → Elt Ideal .f32) (r : Nat) (y : S1024x64.Idx) (i : S8192x64.Idx)
    (hx : ∀ (p : Fin 1024) (k : Fin 256) (P : Fin 8192), P.val = r * 1024 + p.val → x (ix2 p k) = X (ix2 P k))
    (hw : ∀ (k : Fin 256) (q : Fin 64), w (ix2 k q) = W (ix2 k q))
    (hi0 : (i 0).val = r * 1024 + (y 0).val) (hi1 : (i 1).val = (y 1).val) :
    k0_pay1 (F := Ideal) x w y = denseOf0 X W i := by
  rw [dense0_tile_apply]
  unfold denseOf0
  show ∑ k : Fin 256, x (ix2 (y 0) k) * w (ix2 k (y 1)) = ∑ k : Fin 256, X (ix2 (i 0) k) * W (ix2 k (i 1))
  refine Finset.sum_congr rfl fun k _ => ?_
  have e1 : (y 1 : Fin 64) = i 1 := Fin.ext hi1.symm
  rw [hx (y 0) k (i 0) hi0, hw k (y 1), e1]

/-- The printed index maps, decided once over the eight points: the row tile and the output tile move with the point,
    the weight does not move. -/
theorem dense0_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row tile at point t is rows 1024·t … of x. -/
theorem dense0_rows_apply (c : Dev nD) (t : Fin cfg0.N) (p : Fin 1024) (k : Fin 256) (P : Fin 8192) (hP : P.val = t.val * 1024 + p.val) :
    (tile0 V c 0 t : Vec Ideal S1024x256 .f32) (ix2 p k) = (V c main_arg0 : S8192x256.Idx → Elt Ideal .f32) (ix2 P k) := by
  obtain ⟨e0, e1, -, -, -, -⟩ := dense0_index t
  unfold tile0
  rw [View.read_apply]
  show V c main_arg0 _ = V c main_arg0 _
  congr 1
  funext a
  apply Fin.ext
  match a with
  | ⟨0, _⟩ => show win0_0.index t 0 * 1024 + 1 * p.val = P.val; rw [e0, hP]; omega
  | ⟨1, _⟩ => show win0_0.index t 1 * 256 + 1 * k.val = k.val; rw [e1]; omega

/-- The weight tile at any point is the whole weight. -/
theorem dense0_weight_apply (c : Dev nD) (t : Fin cfg0.N) (k : Fin 256) (q : Fin 64) :
    (tile0 V c 1 t : Vec Ideal S256x64 .f32) (ix2 k q) = (V c main_arg2 : S256x64.Idx → Elt Ideal .f32) (ix2 k q) := by
  obtain ⟨-, -, e2, e3, -, -⟩ := dense0_index t
  unfold tile0
  rw [View.read_apply]
  show V c main_arg2 _ = V c main_arg2 _
  congr 1
  funext a
  apply Fin.ext
  match a with
  | ⟨0, _⟩ => show win0_1.index t 0 * 256 + 1 * k.val = k.val; rw [e2]; omega
  | ⟨1, _⟩ => show win0_1.index t 1 * 64 + 1 * q.val = q.val; rw [e3]; omega

/-- What point t writes back is block t of the whole product. -/
theorem dense0_flushed (c : Dev nD) (t : Fin cfg0.N) :
    (dense0_data V c).flushed 2 t
      = ((cfg0.win 2).blk t).view.read (Elt Ideal) (denseOf0 (V c main_arg0) (V c main_arg2)) := by
  show (cfg0.win 2).cut (grid0.coords t) ((dense0_data V c).after 2 t) = _
  rw [dense0_after_out]
  unfold prod0
  rw [View.canon_unit_zero offsets_zero]
  simp only [View.ld_unit_zero (S := S1024x256) offsets_zero, View.ld_unit_zero (S := S256x64) offsets_zero]
  obtain ⟨-, -, -, -, e4, e5⟩ := dense0_index t
  funext j
  rw [View.read_apply]
  refine dense0_tile_of_whole (tile0 V c 0 t) (tile0 V c 1 t) (V c main_arg0) (V c main_arg2) t.val _ _
    (dense0_rows_apply V c t) (dense0_weight_apply V c t) ?_ ?_
  · show win0_2.index t 0 * 1024 + 1 * (j 0).val = t.val * 1024 + (j 0).val; rw [e4]; omega
  · show win0_2.index t 1 * 64 + 1 * (j 1).val = (j 1).val; rw [e5]; omega

/-- An index of the output is in point t's block iff each coordinate is in the block's range on its axis. -/
theorem dense0_mem_block (t : Fin cfg0.N) (i : S8192x64.Idx) :
    i ∈ ((cfg0.win 2).blk t).view.set ↔ ∀ a : Fin 2, win0_2.index t a * S1024x64.size a ≤ (i a).val
      ∧ (i a).val < win0_2.index t a * S1024x64.size a + S1024x64.size a := by
  show i ∈ ((View.whole main_v30).slice (win0_2.rect t)).set ↔ _
  rw [View.set_slice_whole, Rect.mem_set_unit]
  exact Iff.rfl

/-- Every index of the output is in some point's block: row r is in the block of point r / 1024. -/
theorem dense0_cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 8 := N_0
  refine ⟨⟨(i 0).val / 1024, by rw [hN]; omega⟩, flush0_2 _, ?_⟩
  rw [dense0_mem_block]
  obtain ⟨-, -, -, -, e4, e5⟩ := dense0_index ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 64 ≤ (i 1).val ∧ (i 1).val < win0_2.index _ (1 : Fin 2) * 64 + 64
    rw [e5]; omega

/-- After the region's last point the output array holds the whole product. -/
theorem dense0_final (c : Dev nD) :
    (dense0_data V c).arrAt 2 cfg0.N = denseOf0 (V c main_arg0) (V c main_arg2) :=
  (dense0_data V c).arrAt_eq_of_cover 2 (denseOf0 (V c main_arg0) (V c main_arg2)) (fun t _ => dense0_flushed V c t) dense0_cover

end Cert.KernelIdeal.Hand

end
-- ==== Proof.KI.TilesToArray1.lean ====
/-
  Region 1, from tiles to the whole array, on the extended reals. This is the dense product of the mean head: the
  rectified hidden layer h (8192 rows of 64) times the head's weight w (64 by 32), before the graph aggregation. Each of
  the eight points writes back one block of 1024 rows of the product, the point's row tile of h times the whole w. Read
  index by index, a block's entry (p, q) is the inner product of row 1024·t + p of h with column q of w, so the block is
  the restriction of ONE function of the two whole arrays, the dense product h · w; the eight blocks tile the output's
  rows, so after the last point the output array is that product.
-/
import proofs.«115443_j80522046866107_1_alg».proof.Proof.KI.Region1
import proofs.«115443_j80522046866107_1_alg».proof.Proof.KI.MatmulTiles
import proofs.«115443_j80522046866107_1_alg».proof.Proof.KI.WholeProducts
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-tile rectangle, as the constant function. -/
private theorem offsets_zero : (![0, 0] : Fin 2 → Nat) = fun _ => 0 := funext fun a => by fin_cases a <;> rfl

/-- The block of the product at any index of the tile. -/
theorem dense1_tile_apply (x : Vec Ideal S1024x64 .f32) (w : Vec Ideal S64x32 .f32) (y : S1024x32.Idx) :
    k1_pay1 (F := Ideal) x w y = ∑ k : Fin 64, x (ix2 (y 0) k) * w (ix2 k (y 1)) := by
  obtain ⟨p, q, rfl⟩ : ∃ (p : Fin 1024) (q : Fin 32), y = ix2 p q := ⟨y 0, y 1, eq_ix2 y⟩
  exact k1_pay1_apply x w p q

/-- A tile of the product is the product of the whole arrays where the tile sits: if the row tile x is rows
    1024·r … of X and the weight tile is all of W, entry y of the block is entry (1024·r + y₀, y₁) of the whole product. -/
theorem dense1_tile_of_whole (x : Vec Ideal S1024x64 .f32) (w : Vec Ideal S64x32 .f32)
    (X : S8192x64.Idx → Elt Ideal .f32) (W : S64x32.Idx → Elt Ideal .f32) (r : Nat) (y : S1024x32.Idx) (i : S8192x32.Idx)
    (hx : ∀ (p : Fin 1024) (k : Fin 64) (P : Fin 8192), P.val = r * 1024 + p.val → x (ix2 p k) = X (ix2 P k))
    (hw : ∀ (k : Fin 64) (q : Fin 32), w (ix2 k q) = W (ix2 k q))
    (hi0 : (i 0).val = r * 1024 + (y 0).val) (hi1 : (i 1).val = (y 1).val) :
    k1_pay1 (F := Ideal) x w y = denseOf1 X W i := by
  rw [dense1_tile_apply]
  unfold denseOf1
  show ∑ k : Fin 64, x (ix2 (y 0) k) * w (ix2 k (y 1)) = ∑ k : Fin 64, X (ix2 (i 0) k) * W (ix2 k (i 1))
  refine Finset.sum_congr rfl fun k _ => ?_
  have e1 : (y 1 : Fin 32) = i 1 := Fin.ext hi1.symm
  rw [hx (y 0) k (i 0) hi0, hw k (y 1), e1]

/-- The printed index maps, decided once over the eight points: the row tile and the output tile move with the point,
    the weight does not move. -/
theorem dense1_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row tile at point t is rows 1024·t … of x. -/
theorem dense1_rows_apply (c : Dev nD) (t : Fin cfg1.N) (p : Fin 1024) (k : Fin 64) (P : Fin 8192) (hP : P.val = t.val * 1024 + p.val) :
    (tile1 V c 0 t : Vec Ideal S1024x64 .f32) (ix2 p k) = (V c main_v47 : S8192x64.Idx → Elt Ideal .f32) (ix2 P k) := by
  obtain ⟨e0, e1, -, -, -, -⟩ := dense1_index t
  unfold tile1
  rw [View.read_apply]
  show V c main_v47 _ = V c main_v47 _
  congr 1
  funext a
  apply Fin.ext
  match a with
  | ⟨0, _⟩ => show win1_0.index t 0 * 1024 + 1 * p.val = P.val; rw [e0, hP]; omega
  | ⟨1, _⟩ => show win1_0.index t 1 * 64 + 1 * k.val = k.val; rw [e1]; omega

/-- The weight tile at any point is the whole weight. -/
theorem dense1_weight_apply (c : Dev nD) (t : Fin cfg1.N) (k : Fin 64) (q : Fin 32) :
    (tile1 V c 1 t : Vec Ideal S64x32 .f32) (ix2 k q) = (V c main_arg4 : S64x32.Idx → Elt Ideal .f32) (ix2 k q) := by
  obtain ⟨-, -, e2, e3, -, -⟩ := dense1_index t
  unfold tile1
  rw [View.read_apply]
  show V c main_arg4 _ = V c main_arg4 _
  congr 1
  funext a
  apply Fin.ext
  match a with
  | ⟨0, _⟩ => show win1_1.index t 0 * 64 + 1 * k.val = k.val; rw [e2]; omega
  | ⟨1, _⟩ => show win1_1.index t 1 * 32 + 1 * q.val = q.val; rw [e3]; omega

/-- What point t writes back is block t of the whole product. -/
theorem dense1_flushed (c : Dev nD) (t : Fin cfg1.N) :
    (dense1_data V c).flushed 2 t
      = ((cfg1.win 2).blk t).view.read (Elt Ideal) (denseOf1 (V c main_v47) (V c main_arg4)) := by
  show (cfg1.win 2).cut (grid1.coords t) ((dense1_data V c).after 2 t) = _
  rw [dense1_after_out]
  unfold prod1
  rw [View.canon_unit_zero offsets_zero]
  simp only [View.ld_unit_zero (S := S1024x64) offsets_zero, View.ld_unit_zero (S := S64x32) offsets_zero]
  obtain ⟨-, -, -, -, e4, e5⟩ := dense1_index t
  funext j
  rw [View.read_apply]
  refine dense1_tile_of_whole (tile1 V c 0 t) (tile1 V c 1 t) (V c main_v47) (V c main_arg4) t.val _ _
    (dense1_rows_apply V c t) (dense1_weight_apply V c t) ?_ ?_
  · show win1_2.index t 0 * 1024 + 1 * (j 0).val = t.val * 1024 + (j 0).val; rw [e4]; omega
  · show win1_2.index t 1 * 32 + 1 * (j 1).val = (j 1).val; rw [e5]; omega

/-- An index of the output is in point t's block iff each coordinate is in the block's range on its axis. -/
theorem dense1_mem_block (t : Fin cfg1.N) (i : S8192x32.Idx) :
    i ∈ ((cfg1.win 2).blk t).view.set ↔ ∀ a : Fin 2, win1_2.index t a * S1024x32.size a ≤ (i a).val
      ∧ (i a).val < win1_2.index t a * S1024x32.size a + S1024x32.size a := by
  show i ∈ ((View.whole main_v48).slice (win1_2.rect t)).set ↔ _
  rw [View.set_slice_whole, Rect.mem_set_unit]
  exact Iff.rfl

/-- Every index of the output is in some point's block: row r is in the block of point r / 1024. -/
theorem dense1_cover (i : S8192x32.Idx) :
    ∃ t : Fin cfg1.N, (cfg1.win 2).flush t = true ∧ i ∈ ((cfg1.win 2).blk t).view.set := by
  have hi0 : (i 0).val < 8192 := (i 0).isLt
  have hi1 : (i 1).val < 32 := (i 1).isLt
  have hN : cfg1.N = 8 := N_1
  refine ⟨⟨(i 0).val / 1024, by rw [hN]; omega⟩, flush1_2 _, ?_⟩
  rw [dense1_mem_block]
  obtain ⟨-, -, -, -, e4, e5⟩ := dense1_index ⟨(i 0).val / 1024, by rw [hN]; omega⟩
  intro a
  match a with
  | ⟨0, _⟩ =>
    show win1_2.index _ (0 : Fin 2) * 1024 ≤ (i 0).val ∧ (i 0).val < win1_2.index _ (0 : Fin 2) * 1024 + 1024
    rw [e4]; show (i 0).val / 1024 * 1024 ≤ (i 0).val ∧ (i 0).val < (i 0).val / 1024 * 1024 + 1024; omega
  | ⟨1, _⟩ =>
    show win1_2.index _ (1 : Fin 2) * 32 ≤ (i 1).val ∧ (i 1).val < win1_2.index _ (1 : Fin 2) * 32 + 32
    rw [e5]; omega

/-- After the region's last point the output array holds the whole product. -/
theorem dense1_final (c : Dev nD) :
    (dense1_data V c).arrAt 2 cfg1.N = denseOf1 (V c main_v47) (V c main_arg4) :=
  (dense1_data V c).arrAt_eq_of_cover 2 (denseOf1 (V c main_v47) (V c main_arg4)) (fun t _ => dense1_flushed V c t) dense1_cover

end Cert.KernelIdeal.Hand

end
-- ==== Proof.KI.TilesToArray2.lean ====
/-
  Region 2, from tiles to the whole array, on the extended reals. This is the dense product of the log-deviation head:
  the same kernel as the mean head's, on the same rectified hidden layer h and the other weight w (64 by 32). Each of the
  eight points writes back one block of 1024 rows, the point's row tile of h times the whole w; a block's entry (p, q)
  is the inner product of row 1024·t + p of h with column q of w, so the block is the restriction of the dense product
  h · w of the whole arrays; the eight blocks tile the output's rows, so after the last point the output array is that
  product.
-/
import proofs.«115443_j80522046866107_1_alg».proof.Proof.KI.Region2
import proofs.«115443_j80522046866107_1_alg».proof.Proof.KI.MatmulTiles
import proofs.«115443_j80522046866107_1_alg».proof.Proof.KI.WholeProducts
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-tile rectangle, as the constant function. -/
private theorem offsets_zero : (![0, 0] : Fin 2 → Nat) = fun _ => 0 := funext fun a => by fin_cases a <;> rfl

/-- The block of the product at any index of the tile. -/
theorem dense2_tile_apply (x : Vec Ideal S1024x64 .f32) (w : Vec Ideal S64x32 .f32) (y : S1024x32.Idx) :
    k2_pay1 (F := Ideal) x w y = ∑ k : Fin 64, x (ix2 (y 0) k) * w (ix2 k (y 1)) := by
  obtain ⟨p, q, rfl⟩ : ∃ (p : Fin 1024) (q : Fin 32), y = ix2 p q := ⟨y 0, y 1, eq_ix2 y⟩
  exact k2_pay1_apply x w p q

/-- A tile of the product is the product of the whole arrays where the tile sits: if the row tile x is rows
    1024·r … of X and the weight tile is all of W, entry y of the block is entry (1024·r + y₀, y₁) of the whole product. -/
theorem dense2_tile_of_whole (x : Vec Ideal S1024x64 .f32) (w : Vec Ideal S64x32 .f32)
    (X : S8192x64.Idx → Elt Ideal .f32) (W : S64x32.Idx → Elt Ideal .f32) (r : Nat) (y : S1024x32.Idx) (i : S8192x32.Idx)
    (hx : ∀ (p : Fin 1024) (k : Fin 64) (P : Fin 8192), P.val = r * 1024 + p.val → x (ix2 p k) = X (ix2 P k))
    (hw : ∀ (k : Fin 64) (q : Fin 32), w (ix2 k q) = W (ix2 k q))
    (hi0 : (i 0).val = r * 1024 + (y 0).val) (hi1 : (i 1).val = (y 1).val) :
    k2_pay1 (F := Ideal) x w y = denseOf1 X W i := by
  rw [dense2_tile_apply]
  unfold denseOf1
  show ∑ k : Fin 64, x (ix2 (y 0) k) * w (ix2 k (y 1)) = ∑ k : Fin 64, X (ix2 (i 0) k) * W (ix2 k (i 1))
  refine Finset.sum_congr rfl fun k _ => ?_
  have e1 : (y 1 : Fin 32) = i 1 := Fin.ext hi1.symm
  rw [hx (y 0) k (i 0) hi0, hw k (y 1), e1]

/-- The printed index maps, decided once over the eight points: the row tile and the output tile move with the point,
    the weight does not move. -/
theorem dense2_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row tile at point t is rows 1024·t … of x. -/
theorem dense2_rows_apply (c : Dev nD) (t : Fin cfg2.N) (p : Fin 1024) (k : Fin 64) (P : Fin 8192) (hP : P.val = t.val * 1024 + p.val) :
    (tile2 V c 0 t : Vec Ideal S1024x64 .f32) (ix2 p k) = (V c main_v47 : S8192x64.Idx → Elt Ideal .f32) (ix2 P k) := by
  obtain ⟨e0, e1, -, -, -, -⟩ := dense2_index t
  unfold tile2
  rw [View.read_apply]
  show V c main_v47 _ = V c main_v47 _
  congr 1
  funext a
  apply Fin.ext
  match a with
  | ⟨0, _⟩ => show win2_0.index t 0 * 1024 + 1 * p.val = P.val; rw [e0, hP]; omega
  | ⟨1, _⟩ => show win2_0.index t 1 * 64 + 1 * k.val = k.val; rw [e1]; omega

/-- The weight tile at any point is the whole weight. -/
theorem dense2_weight_apply (c : Dev nD) (t : Fin cfg2.N) (k : Fin 64) (q : Fin 32) :
    (tile2 V c 1 t : Vec Ideal S64x32 .f32) (ix2 k q) = (V c main_arg6 : S64x32.Idx → Elt Ideal .f32) (ix2 k q) := by
  obtain ⟨-, -, e2, e3, -, -⟩ := dense2_index t
  unfold tile2
  rw [View.read_apply]
  show V c main_arg6 _ = V c main_arg6 _
  congr 1
  funext a
  apply Fin.ext
  match a with
  | ⟨0, _⟩ => show win2_1.index t 0 * 64 + 1 * k.val = k.val; rw [e2]; omega
  | ⟨1, _⟩ => show win2_1.index t 1 * 32 + 1 * q.val = q.val; rw [e3]; omega

/-- What point t writes back is block t of the whole product. -/
theorem dense2_flushed (c : Dev nD) (t : Fin cfg2.N) :
    (dense2_data V c).flushed 2 t
      = ((cfg2.win 2).blk t).view.read (Elt Ideal) (denseOf1 (V c main_v47) (V c main_arg6)) := by
  show (cfg2.win 2).cut (grid2.coords t) ((dense2_data V c).after 2 t) = _
  rw [dense2_after_out]
  unfold prod2
  rw [View.canon_unit_zero offsets_zero]
  simp only [View.ld_unit_zero (S := S1024x64) offsets_zero, View.ld_unit_zero (S := S64x32) offsets_zero]
  obtain ⟨-, -, -, -, e4, e5⟩ := dense2_index t
  funext j
  rw [View.read_apply]
  refine dense2_tile_of_whole (tile2 V c 0 t) (tile2 V c 1 t) (V c main_v47) (V c main_arg6) t.val _ _
    (dense2_rows_apply V c t) (dense2_weight_apply V c t) ?_ ?_
  · show win2_2.index t 0 * 1024 + 1 * (j 0).val = t.val * 1024 + (j 0).val; rw [e4]; omega
  · show win2_2.index t 1 * 32 + 1 * (j 1).val = (j 1).val; rw [e5]; omega

/-- An index of the output is in point t's block iff each coordinate is in the block's range on its axis. -/
theorem dense2_mem_block (t : Fin cfg2.N) (i : S8192x32.Idx) :
    i ∈ ((cfg2.win 2).blk t).view.set ↔ ∀ a : Fin 2, win2_2.index t a * S1024x32.size a ≤ (i a).val
      ∧ (i a).val < win2_2.index t a * S1024x32.size a + S1024x32.size a := by
  show i ∈ ((View.whole main_v65).slice (win2_2.rect t)).set ↔ _
  rw [View.set_slice_whole, Rect.mem_set_unit]
  exact Iff.rfl

/-- Every index of the output is in some point's block: row r is in the block of point r / 1024. -/
theorem dense2_cover (i : S8192x32.Idx) :
    ∃ t : Fin cfg2.N, (cfg2.win 2).flush t = true ∧ i ∈ ((cfg2.win 2).blk t).view.set := by
  have hi0 : (i 0).val < 8192 := (i 0).isLt
  have hi1 : (i 1).val < 32 := (i 1).isLt
  have hN : cfg2.N = 8 := N_2
  refine ⟨⟨(i 0).val / 1024, by rw [hN]; omega⟩, flush2_2 _, ?_⟩
  rw [dense2_mem_block]
  obtain ⟨-, -, -, -, e4, e5⟩ := dense2_index ⟨(i 0).val / 1024, by rw [hN]; omega⟩
  intro a
  match a with
  | ⟨0, _⟩ =>
    show win2_2.index _ (0 : Fin 2) * 1024 ≤ (i 0).val ∧ (i 0).val < win2_2.index _ (0 : Fin 2) * 1024 + 1024
    rw [e4]; show (i 0).val / 1024 * 1024 ≤ (i 0).val ∧ (i 0).val < (i 0).val / 1024 * 1024 + 1024; omega
  | ⟨1, _⟩ =>
    show win2_2.index _ (1 : Fin 2) * 32 ≤ (i 1).val ∧ (i 1).val < win2_2.index _ (1 : Fin 2) * 32 + 32
    rw [e5]; omega

/-- After the region's last point the output array holds the whole product. -/
theorem dense2_final (c : Dev nD) :
    (dense2_data V c).arrAt 2 cfg2.N = denseOf1 (V c main_v47) (V c main_arg6) :=
  (dense2_data V c).arrAt_eq_of_cover 2 (denseOf1 (V c main_v47) (V c main_arg6)) (fun t _ => dense2_flushed V c t) dense2_cover

end Cert.KernelIdeal.Hand

end
-- ==== Proof.KI.TilesToArray3.lean ====
/-
  Region 3, from tiles to the whole array, on the extended reals. The decoder runs on an 8 × 8 grid, row-major with the
  second coordinate fastest: point t = 8·a + b sees rows 1024·a … of the sample z as its left tile and rows 1024·b … of
  the SAME z as its right tile, and writes back the 1024 × 1024 tile (a, b) of the output, the logistic of
  left · rightᵀ. Read index by index, the tile's entry (p, q) is the logistic of the inner product of rows 1024·a + p
  and 1024·b + q of z, so every tile is the restriction of ONE function of the whole sample; the sixty-four tiles
  cover the output, so after the last point the output array is that function.
-/
import proofs.«115443_j80522046866107_1_alg».proof.Proof.KI.Region3Data
import proofs.«115443_j80522046866107_1_alg».proof.Proof.KI.MatmulTiles
import proofs.«115443_j80522046866107_1_alg».proof.Proof.KI.WholeProducts
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-tile rectangle, as the constant function. -/
private theorem offsets_zero : (![0, 0] : Fin 2 → Nat) = fun _ => 0 := funext fun a => by fin_cases a <;> rfl

/-- The decoded block at any index of the tile. -/
theorem decode_tile_apply (zm zn : Vec Ideal S1024x32 .f32) (y : S1024x1024.Idx) :
    k3_pay1 (F := Ideal) zm zn y = Ideal.logistic (∑ k : Fin 32, zm (ix2 (y 0) k) * zn (ix2 (y 1) k)) := by
  obtain ⟨p, q, rfl⟩ : ∃ (p : Fin 1024) (q : Fin 1024), y = ix2 p q := ⟨y 0, y 1, eq_ix2 y⟩
  exact k3_pay1_apply zm zn p q

/-- A decoded tile is the decoder of the whole array where the tile sits: if the left tile is rows 1024·r … of Z and
    the right tile is rows 1024·s … of Z, entry y of the block is entry (1024·r + y₀, 1024·s + y₁) of the whole. -/
theorem decode_tile_of_whole (zm zn : Vec Ideal S1024x32 .f32) (Z : S8192x32.Idx → Elt Ideal .f32) (r s : Nat)
    (y : S1024x1024.Idx) (i : S8192x8192.Idx)
    (hm : ∀ (p : Fin 1024) (k : Fin 32) (P : Fin 8192), P.val = r * 1024 + p.val → zm (ix2 p k) = Z (ix2 P k))
    (hn : ∀ (p : Fin 1024) (k : Fin 32) (P : Fin 8192), P.val = s * 1024 + p.val → zn (ix2 p k) = Z (ix2 P k))
    (hi0 : (i 0).val = r * 1024 + (y 0).val) (hi1 : (i 1).val = s * 1024 + (y 1).val) :
    k3_pay1 (F := Ideal) zm zn y = decodeOf Z i := by
  rw [decode_tile_apply]
  unfold decodeOf
  show Ideal.logistic (∑ k : Fin 32, zm (ix2 (y 0) k) * zn (ix2 (y 1) k))
    = Ideal.logistic (∑ k : Fin 32, Z (ix2 (i 0) k) * Z (ix2 (i 1) k))
  refine congrArg Ideal.logistic (Finset.sum_congr rfl fun k _ => ?_)
  rw [hm (y 0) k (i 0) hi0, hn (y 1) k (i 1) hi1]

/-- The printed index maps, decided once over the sixty-four points (the grid runs row-major, its second coordinate
    fastest): the left tile follows the first coordinate, the right tile the second, the output tile both. -/
theorem decode_index : ∀ t : Fin cfg3.N, win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = t.val % 8 :=
  (by decide +kernel : ∀ t : Fin grid3.N, _)

/-- The left tile at point t is rows 1024·(t / 8) … of z. -/
theorem decode_left_apply (c : Dev nD) (t : Fin cfg3.N) (p : Fin 1024) (k : Fin 32) (P : Fin 8192) (hP : P.val = t.val / 8 * 1024 + p.val) :
    (tile3 V c 0 t : Vec Ideal S1024x32 .f32) (ix2 p k) = (V c main_v84 : S8192x32.Idx → Elt Ideal .f32) (ix2 P k) := by
  obtain ⟨e0, e1, -, -, -, -⟩ := decode_index t
  unfold tile3
  rw [View.read_apply]
  show V c main_v84 _ = V c main_v84 _
  congr 1
  funext a
  apply Fin.ext
  match a with
  | ⟨0, _⟩ => show win3_0.index t 0 * 1024 + 1 * p.val = P.val; rw [e0, hP]; omega
  | ⟨1, _⟩ => show win3_0.index t 1 * 32 + 1 * k.val = k.val; rw [e1]; omega

/-- The right tile at point t is rows 1024·(t % 8) … of the same z. -/
theorem decode_right_apply (c : Dev nD) (t : Fin cfg3.N) (p : Fin 1024) (k : Fin 32) (P : Fin 8192) (hP : P.val = t.val % 8 * 1024 + p.val) :
    (tile3 V c 1 t : Vec Ideal S1024x32 .f32) (ix2 p k) = (V c main_v84 : S8192x32.Idx → Elt Ideal .f32) (ix2 P k) := by
  obtain ⟨-, -, e2, e3, -, -⟩ := decode_index t
  unfold tile3
  rw [View.read_apply]
  show V c main_v84 _ = V c main_v84 _
  congr 1
  funext a
  apply Fin.ext
  match a with
  | ⟨0, _⟩ => show win3_1.index t 0 * 1024 + 1 * p.val = P.val; rw [e2, hP]; omega
  | ⟨1, _⟩ => show win3_1.index t 1 * 32 + 1 * k.val = k.val; rw [e3]; omega

/-- What point t writes back is block t of the decoder of the whole array. -/
theorem decode_flushed (c : Dev nD) (t : Fin cfg3.N) :
    (decode_data V c).flushed 2 t = ((cfg3.win 2).blk t).view.read (Elt Ideal) (decodeOf (V c main_v84)) := by
  show (cfg3.win 2).cut (grid3.coords t) ((decode_data V c).after 2 t) = _
  rw [decode_after_out]
  unfold decoded3
  rw [View.canon_unit_zero offsets_zero]
  simp only [View.ld_unit_zero (S := S1024x32) offsets_zero]
  obtain ⟨-, -, -, -, e4, e5⟩ := decode_index t
  funext j
  rw [View.read_apply]
  refine decode_tile_of_whole (tile3 V c 0 t) (tile3 V c 1 t) (V c main_v84) (t.val / 8) (t.val % 8) _ _
    (decode_left_apply V c t) (decode_right_apply V c t) ?_ ?_
  · show win3_2.index t 0 * 1024 + 1 * (j 0).val = t.val / 8 * 1024 + (j 0).val; rw [e4]; omega
  · show win3_2.index t 1 * 1024 + 1 * (j 1).val = t.val % 8 * 1024 + (j 1).val; rw [e5]; omega

/-- An index of the output is in point t's block iff each coordinate is in the block's range on its axis. -/
theorem decode_mem_block (t : Fin cfg3.N) (i : S8192x8192.Idx) :
    i ∈ ((cfg3.win 2).blk t).view.set ↔ ∀ a : Fin 2, win3_2.index t a * S1024x1024.size a ≤ (i a).val
      ∧ (i a).val < win3_2.index t a * S1024x1024.size a + S1024x1024.size a := by
  show i ∈ ((View.whole main_v85).slice (win3_2.rect t)).set ↔ _
  rw [View.set_slice_whole, Rect.mem_set_unit]
  exact Iff.rfl

/-- Every index of the output is in some point's block: (r, s) is in the block of point (r / 1024) · 8 + s / 1024. -/
theorem decode_cover (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  have hN : cfg3.N = 64 := N_3
  have ht : (i 0).val / 1024 * 8 + (i 1).val / 1024 < cfg3.N := by rw [hN]; omega
  refine ⟨⟨(i 0).val / 1024 * 8 + (i 1).val / 1024, ht⟩, flush3_2 _, ?_⟩
  rw [decode_mem_block]
  obtain ⟨-, -, -, -, e4, e5⟩ := decode_index ⟨(i 0).val / 1024 * 8 + (i 1).val / 1024, ht⟩
  intro a
  match a with
  | ⟨0, _⟩ =>
    show win3_2.index _ (0 : Fin 2) * 1024 ≤ (i 0).val ∧ (i 0).val < win3_2.index _ (0 : Fin 2) * 1024 + 1024
    rw [e4]
    show ((i 0).val / 1024 * 8 + (i 1).val / 1024) / 8 * 1024 ≤ (i 0).val
      ∧ (i 0).val < ((i 0).val / 1024 * 8 + (i 1).val / 1024) / 8 * 1024 + 1024
    omega
  | ⟨1, _⟩ =>
    show win3_2.index _ (1 : Fin 2) * 1024 ≤ (i 1).val ∧ (i 1).val < win3_2.index _ (1 : Fin 2) * 1024 + 1024
    rw [e5]
    show ((i 0).val / 1024 * 8 + (i 1).val / 1024) % 8 * 1024 ≤ (i 1).val
      ∧ (i 1).val < ((i 0).val / 1024 * 8 + (i 1).val / 1024) % 8 * 1024 + 1024
    omega

/-- After the region's last point the output array holds the decoder of the whole array. -/
theorem decode_final (c : Dev nD) : (decode_data V c).arrAt 2 cfg3.N = decodeOf (V c main_v84) :=
  (decode_data V c).arrAt_eq_of_cover 2 (decodeOf (V c main_v84)) (fun t _ => decode_flushed V c t) decode_cover

end Cert.KernelIdeal.Hand

end
-- ==== Proof.KI.Result.lean ====
/-
  The kernel program's result is the reference's, on the extended reals. Nothing is computed here: the pieces are put
  end to end. What each region leaves in its output array is, by the blocks-to-array theorems, the whole product (or
  the decoder's array) of the contents the region is entered with; those contents are, by the host stretches read as
  functions, the arguments themselves for the first product, the rectified first layer of what the first region left
  for the two heads' products, and the sample built from what the two heads' regions left for the decoder. Four arrays
  that are those products and that decoder's array are exactly what the reference computes.
-/
import proofs.«115443_j80522046866107_1_alg».proof.Proof.KI.Left
import proofs.«115443_j80522046866107_1_alg».proof.Proof.KI.HostChain
import proofs.«115443_j80522046866107_1_alg».proof.Proof.KI.RefChain
import proofs.«115443_j80522046866107_1_alg».proof.Proof.KI.TilesToArray0
import proofs.«115443_j80522046866107_1_alg».proof.Proof.KI.TilesToArray1
import proofs.«115443_j80522046866107_1_alg».proof.Proof.KI.TilesToArray2
import proofs.«115443_j80522046866107_1_alg».proof.Proof.KI.TilesToArray3

set_option maxRecDepth 16384

noncomputable section

namespace Cert.KernelIdeal.Hand

open Idealize.ShloMosaic Idealize.ShloMosaic.TcCoe Idealize.SL.Sem
open Cert.KernelIdeal Cert.KernelIdeal.Gen

section
attribute [local irreducible] StableHlo.after

variable (m : (ℓ : Loc nD τ sig) → Buf (Elt Ideal) ℓ) (c : Dev nD)

/-- The first region leaves the product of the first two matrix arguments. -/
theorem first_product : out0 (F := Ideal) m c
    = denseOf0 (m ((c : Thread nD τ).loc main_arg0)) (m ((c : Thread nD τ).loc main_arg2)) := by
  rw [out0_eq, dense0_final, V3_main_arg0, V3_main_arg2]

/-- The second region leaves the product of the rectified first layer with the mean head's weight. -/
theorem mean_product : out1 (F := Ideal) m c
    = denseOf1 (layer1 (out0 (F := Ideal) m c) (srcIdx (m ((c : Thread nD τ).loc main_arg1)))
        (dstIdx (m ((c : Thread nD τ).loc main_arg1)))
        (coef (srcIdx (m ((c : Thread nD τ).loc main_arg1))) (dstIdx (m ((c : Thread nD τ).loc main_arg1))))
        (m ((c : Thread nD τ).loc main_arg3))) (m ((c : Thread nD τ).loc main_arg4)) := by
  rw [out1_eq, dense1_final, V6_main_v47, V6_main_arg4, left_first]

/-- The third region leaves the product of the same first layer with the log-deviation head's weight. -/
theorem logdev_product : out2 (F := Ideal) m c
    = denseOf1 (layer1 (out0 (F := Ideal) m c) (srcIdx (m ((c : Thread nD τ).loc main_arg1)))
        (dstIdx (m ((c : Thread nD τ).loc main_arg1)))
        (coef (srcIdx (m ((c : Thread nD τ).loc main_arg1))) (dstIdx (m ((c : Thread nD τ).loc main_arg1))))
        (m ((c : Thread nD τ).loc main_arg3))) (m ((c : Thread nD τ).loc main_arg6)) := by
  rw [out2_eq, dense2_final, V8_main_v47, V6_main_v47, V8_main_arg6, left_first]

/-- The last region leaves the decoder's array of the sample built from the two heads. -/
theorem decoded_sample : out3 (F := Ideal) m c
    = decodeOf (zOf
        (head (out1 (F := Ideal) m c) (srcIdx (m ((c : Thread nD τ).loc main_arg1))) (dstIdx (m ((c : Thread nD τ).loc main_arg1)))
          (coef (srcIdx (m ((c : Thread nD τ).loc main_arg1))) (dstIdx (m ((c : Thread nD τ).loc main_arg1))))
          (m ((c : Thread nD τ).loc main_arg5)))
        (head (out2 (F := Ideal) m c) (srcIdx (m ((c : Thread nD τ).loc main_arg1))) (dstIdx (m ((c : Thread nD τ).loc main_arg1)))
          (coef (srcIdx (m ((c : Thread nD τ).loc main_arg1))) (dstIdx (m ((c : Thread nD τ).loc main_arg1))))
          (m ((c : Thread nD τ).loc main_arg7)))
        (m ((c : Thread nD τ).loc main_arg8))) := by
  rw [out3_eq, decode_final, V10_main_v84, left_mean, left_logdev]

/-- The program's result array is the reference's result of the same nine arguments. -/
theorem result_eq : out3 (F := Ideal) m c
    = Cert.ReferenceIdeal.ReadP.val_main_v152 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) :=
  Cert.ReferenceIdeal.RefValue.result_bridge _ _ _ _ _ _ _ _ _ (out0 (F := Ideal) m c) (out1 (F := Ideal) m c)
    (out2 (F := Ideal) m c) (out3 (F := Ideal) m c) (first_product m c) (mean_product m c) (logdev_product m c)
    (decoded_sample m c)

end

end Cert.KernelIdeal.Hand

end
-- ==== Proof.lean ====
/-
  The certificate of a variational graph auto-encoder's forward pass: three graph-convolution layers (a dense product,
  a normalised gather / scatter-add over the edges with self loops, a bias; the first followed by a rectifier), the
  reparameterised sample z = mean + noise · exp(log-deviation), and the decoder sigmoid(z zᵀ). The kernel program computes
  the four dense products tile by tile in four kernel regions (the operands rounded to bf16, which at the ideal instance
  is the identity) and everything else by host operations; the reference computes everything by host operations.

  The two frames of the kernel program (word level and idealized) are one run, stated once for any float instance and
  written out in two namespaces: @main's eleven items in order, every unscoped buffer held at named contents between
  two items. The reference's frame is its run read back. No operation was rewritten by the idealization, so there is
  nothing to preserve. The two results are equal because both are the same composition of the same host operations
  around four matrix products, and each product, computed tile by tile into a zero accumulator, is entry by entry the
  sum over the contracted axis that the host's product is; the decoder's logistic function is by definition the
  reference's 1 / (1 + exp(−x)). No law used needs the inputs to be finite.
-/
import proofs.«115443_j80522046866107_1_alg».proof.Defs
import proofs.«115443_j80522046866107_1_alg».proof.Proof.Gen.Kernel
import proofs.«115443_j80522046866107_1_alg».proof.Proof.Gen.KernelIdeal
import proofs.«115443_j80522046866107_1_alg».proof.Proof.Gen.ReferenceIdeal
import proofs.«115443_j80522046866107_1_alg».proof.Proof.Gen.Pre_finite_inputs
import proofs.«115443_j80522046866107_1_alg».proof.Proof.K.Decoder
import proofs.«115443_j80522046866107_1_alg».proof.Proof.KI.Decoder
import proofs.«115443_j80522046866107_1_alg».proof.Proof.KI.Result
import proofs.«115443_j80522046866107_1_alg».proof.Proof.RefReadP

noncomputable section

namespace Cert.Proof

open Idealize.ShloMosaic Idealize.ShloMosaic.TcCoe Idealize.SL.Sem

/-- The word-level kernel program runs to its end and leaves its arguments as launched. -/
theorem frame_kernel : Cert.frame_Kernel := fun m ρ _ =>
  (θ_run Cert.Kernel.defs _ _).mono (fun _ h c => (h c).2) (Cert.Kernel.Hand.run (F := Bits) m ρ)

/-- So does the idealized kernel program. -/
theorem frame_kernelIdeal : Cert.frame_KernelIdeal := fun m ρ _ =>
  (θ_run Cert.KernelIdeal.defs _ _).mono (fun _ h c => (h c).2) (Cert.KernelIdeal.Hand.run (F := Ideal) m ρ)

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same result array: the kernel program's
    is what its last region's write-backs leave, the reference's its last operation's term, and the two are one function of
    the arguments. -/
theorem algebraic : Cert.algebraic_KernelIdeal_ReferenceIdeal := by
  intro m ρ m' ρ' _ hagree
  refine ⟨fun c => Cert.KernelIdeal.Hand.out3 (F := Ideal) m c, Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v152_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
